-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg7 : FVec F S5x128 .f32) (main_arg12 : FVec F S128x10 .f32) (main_arg13 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg12
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_cst_24 : FVec F S_ .f32 := constant S_ .f32 0x00000000#32
  let main_v64 : FVec F S5x128 .f32 := broadcastInDim S5x128 ![] bcast_S_S5x128 main_cst_24
  let main_v65 : IVec S5x128 1 := cmpf .oge main_arg7 main_v64
  let main_c_25 : IVec S_ 1 := constantI S_ 1 1#1
  let main_v66 : IVec S_ 1 := (fun x v => Host.reduce IntOp.andi x v reducesTo_S5x128_S_d0_1 h_S_) main_v65 main_c_25
  let main_v67 : IVec S_ 1 := andi main_v63 main_v66
  main_v67

def fn_part2 {F : FTy → Type} [FloatOps F] (main_arg7 : FVec F S5x128 .f32) (main_arg8 : FVec F S5x128x128 .f32) (main_arg9 : FVec F S5x128 .f32) (main_arg10 : FVec F S128x128 .f32) (main_arg11 : FVec F S128 .f32) (main_arg12 : FVec F S128x10 .f32) (main_arg13 : FVec F S10 .f32) (main_v33 : IVec S_ 1) : IVec S_ 1 :=
  let main_v34 : FVec F S5x128x128 .f32 := Host.absf main_arg8
  let main_cst_12 : FVec F S_ .f32 := constant S_ .f32 0x7F800000#32
  let main_v35 : FVec F S5x128x128 .f32 := broadcastInDim S5x128x128 ![] bcast_S_S5x128x128 main_cst_12
  let main_v36 : IVec S5x128x128 1 := cmpf .olt main_v34 main_v35
  let main_c_13 : IVec S_ 1 := constantI S_ 1 1#1
  let main_v37 : IVec S_ 1 := (fun x v => Host.reduce IntOp.andi x v reducesTo_S5x128x128_S_d0_1_2 h_S_) main_v36 main_c_13
  let main_v38 : IVec S_ 1 := andi main_v33 main_v37
  let main_v39 : FVec F S5x128 .f32 := Host.absf main_arg9
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg7 main_arg12 main_arg13 main_v48 main_v49 main_v50

def fn_part1 {F : FTy → Type} [FloatOps F] (main_arg5 : FVec F S5x128 .f32) (main_arg6 : FVec F S5x128 .f32) (main_arg7 : FVec F S5x128 .f32) (main_arg8 : FVec F S5x128x128 .f32) (main_arg9 : FVec F S5x128 .f32) (main_arg10 : FVec F S128x128 .f32) (main_arg11 : FVec F S128 .f32) (main_arg12 : FVec F S128x10 .f32) (main_arg13 : FVec F S10 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg5
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg6
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg7
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : IVec S2x1600000 32) (main_arg2 : FVec F S5x128x128 .f32) (main_arg3 : FVec F S5x128 .f32) (main_arg4 : FVec F S5x128 .f32) (main_arg5 : FVec F S5x128 .f32) (main_arg6 : FVec F S5x128 .f32) (main_arg7 : FVec F S5x128 .f32) (main_arg8 : FVec F S5x128x128 .f32) (main_arg9 : FVec F S5x128 .f32) (main_arg10 : FVec F S128x128 .f32) (main_arg11 : FVec F S128 .f32) (main_arg12 : FVec F S128x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x128 .f32 := Host.absf main_arg2
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg3
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128 .f32 := Host.absf main_arg4
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S100000x10 : Shape := ⟨2, ![100000, 10]⟩

abbrev nBuf : Space → Nat
  | .hbm => 184
  | .vmem => 64
  | .smem => 0
  | _ => 0

abbrev hbmTy0_0 (i : Nat) : BufTy := match i % 128 with
  | 0 => ⟨S100000x128, .f32⟩
  | 1 => ⟨S2x1600000, .i32⟩
  | 2 => ⟨S5x128x128, .f32⟩
  | 3 => ⟨S5x128, .f32⟩
  | 4 => ⟨S5x128, .f32⟩
  | 5 => ⟨S5x128, .f32⟩
  | 6 => ⟨S5x128, .f32⟩
  | 7 => ⟨S5x128, .f32⟩
  | 8 => ⟨S5x128x128, .f32⟩
  | 9 => ⟨S5x128, .f32⟩
  | 10 => ⟨S128x128, .f32⟩
  | 11 => ⟨S128, .f32⟩
  | 12 => ⟨S128x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S5x128, .f32⟩
  | 20 => ⟨S5x128, .f32⟩
  | 21 => ⟨S5x128, .f32⟩
  | 22 => ⟨S5x128, .f32⟩
  | 23 => ⟨S5x128, .f32⟩
  | 24 => ⟨S5x128, .f32⟩
  | 25 => ⟨S_, .i32⟩
  | 26 => ⟨S_, .f32⟩
  | 27 => ⟨S128x128, .f32⟩
  | 28 => ⟨S_, .i32⟩
  | 29 => ⟨S_, .f32⟩
  | 30 => ⟨S128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S1x128, .f32⟩
  | 58 => ⟨S1x128, .f32⟩
  | 59 => ⟨S1x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S1x128x128, .f32⟩
  | 75 => ⟨S128x128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128x128, .f32⟩
  | 83 => ⟨S128x128, .f32⟩
  | 84 => ⟨S1x128, .f32⟩
  | 85 => ⟨S128, .f32⟩
  | 86 => ⟨S1x128, .f32⟩
  | 87 => ⟨S1x128, .f32⟩
  | 88 => ⟨S1x128, .f32⟩
  | 89 => ⟨S1x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S1x128x128, .f32⟩
  | 105 => ⟨S128x128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S1x128, .f32⟩
  | 118 => ⟨S1x128, .f32⟩
  | 119 => ⟨S1x128, .f32⟩
  | 120 => ⟨S100000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S1x128x128, .f32⟩
  | 7 => ⟨S128x128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S128, .f32⟩
  | 14 => ⟨S1x128x128, .f32⟩
  | 15 => ⟨S128x128, .f32⟩
  | 16 => ⟨S1x128, .f32⟩
  | 17 => ⟨S128, .f32⟩
  | 18 => ⟨S1x128, .f32⟩
  | 19 => ⟨S1x128, .f32⟩
  | 20 => ⟨S1x128, .f32⟩
  | 21 => ⟨S1x128, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S1x128x128, .f32⟩
  | 37 => ⟨S128x128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S100000x128, .f32⟩
  | 55 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S128x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_v0 : Ref sig .tc := ⟨.hbm, 26, rfl⟩
abbrev main_v10 : Ref sig .tc := ⟨.hbm, 27, rfl⟩
abbrev main_c_0 : Ref sig .tc := ⟨.hbm, 28, rfl⟩
abbrev main_call1_v0 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_7 : Ref sig .tc := ⟨.hbm, 91, rfl⟩
abbrev main_v66 : Ref sig .tc := ⟨.hbm, 92, rfl⟩
abbrev main_v67 : Ref sig .tc := ⟨.hbm, 93, rfl⟩
abbrev main_c_8 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_9 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_10 : Ref sig .tc := ⟨.hbm, 121, rfl⟩
abbrev main_v93 : Ref sig .tc := ⟨.hbm, 122, rfl⟩
abbrev main_v94 : Ref sig .tc := ⟨.hbm, 123, rfl⟩
abbrev main_c_11 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_12 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_c_13 : Ref sig .tc := ⟨.hbm, 151, rfl⟩
abbrev main_v120 : Ref sig .tc := ⟨.hbm, 152, rfl⟩
abbrev main_v121 : Ref sig .tc := ⟨.hbm, 153, rfl⟩
abbrev main_c_14 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_15 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg7_0 : Ref sig .tc := ⟨.vmem, 57, rfl⟩
abbrev cc4_stg8_0 : Ref sig .tc := ⟨.vmem, 58, rfl⟩
abbrev cc4_stg9_0 : Ref sig .tc := ⟨.vmem, 59, rfl⟩
abbrev cc4_stg10_0 : Ref sig .tc := ⟨.vmem, 60, rfl⟩
abbrev cc4_stg11_0 : Ref sig .tc := ⟨.vmem, 61, rfl⟩
abbrev cc4_stg12_0 : Ref sig .tc := ⟨.vmem, 62, rfl⟩
abbrev cc4_stg12_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem5_0 : DmaSem sig := 55
abbrev cc4_sem6_0 : DmaSem sig := 56
abbrev cc4_sem7_0 : DmaSem sig := 57
abbrev cc4_sem8_0 : DmaSem sig := 58
abbrev cc4_sem9_0 : DmaSem sig := 59
abbrev cc4_sem10_0 : DmaSem sig := 60
abbrev cc4_sem11_0 : DmaSem sig := 61
abbrev cc4_sem12_0 : DmaSem sig := 62
abbrev cc4_sem12_1 : DmaSem sig := 63

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S128x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S2000x128 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S5x128 : S_.BroadcastsInDim S5x128 (![] : Fin 0 → Fin S5x128.rank)
  pads_S128x10_S128x128_000_01180 : S128x10.Pads (![0, 0] : Fin 2 → Nat) ![0, 118] ![0, 0] S128x128
  h_S_ : 0 < S_.numel
  pads_S10_S128_01180 : S10.Pads (![0] : Fin 1 → Nat) ![118] ![0] S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  iota_S2000x128_d1_w32 : S2000x128.Iotas .tc 32 [1]
  reduces_S2000x128_S2000 : S2000x128.Reduces [1] S2000
  shapeCasts_S2000_S2000x1 : S2000.ShapeCasts S2000x1
  broadcasts_S2000x1_S2000x128 : S2000x1.Broadcasts S2000x128
  slices_S100000x128_S100000x10_0_0 : S100000x128.Slices ![0, 0] S100000x10
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S100000x128.size a
  hwx3_8 : ∀ i : grid3.Coords, EltTy.bits .f32 = 32 ∨ (Rect.block (s := S100000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S128x128.size a ≤ S128x128.size a
  hwx4_10 : ∀ i : grid4.Coords, EltTy.bits .f32 = 32 ∨ (Rect.block (s := S128x128) S128x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S2000x128.size a ≤ S100000x128.size a
  hwx4_12 : ∀ i : grid4.Coords, EltTy.bits .f32 = 32 ∨ (Rect.block (s := S100000x128) S2000x128.size (cc4_transform_12 i) (hinb4_12 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v65) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v65) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v90) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v85) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v91) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v92) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v92) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v102) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v104) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v115) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v116) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v112) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v118) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v119) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v119) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v129) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v131) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v142) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v143) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v144) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v139) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v145) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg10) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v146) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v10) S128x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v147) S1x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v148) S2000x128.size cc4_transform_12 reads4_12 true false 2 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S100000x10 : Shape := ⟨2, ![100000, 10]⟩
abbrev S1x10 : Shape := ⟨2, ![1, 10]⟩
abbrev S100000 : Shape := ⟨1, ![100000]⟩
abbrev S100000x1 : Shape := ⟨2, ![100000, 1]⟩

abbrev nBuf : Space → Nat
  | .hbm => 334
  | .vmem => 0
  | .smem => 0
  | _ => 0

abbrev hbmTy0_0 (i : Nat) : BufTy := match i % 128 with
  | 0 => ⟨S100000x128, .f32⟩
  | 1 => ⟨S2x1600000, .i32⟩
  | 2 => ⟨S5x128x128, .f32⟩
  | 3 => ⟨S5x128, .f32⟩
  | 4 => ⟨S5x128, .f32⟩
  | 5 => ⟨S5x128, .f32⟩
  | 6 => ⟨S5x128, .f32⟩
  | 7 => ⟨S5x128, .f32⟩
  | 8 => ⟨S5x128x128, .f32⟩
  | 9 => ⟨S5x128, .f32⟩
  | 10 => ⟨S128x128, .f32⟩
  | 11 => ⟨S128, .f32⟩
  | 12 => ⟨S128x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S100000x128, .f32⟩
  | 32 => ⟨S1x128x128, .f32⟩
  | 33 => ⟨S128x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S1x128x128, .f32⟩
  | 66 => ⟨S128x128, .f32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S128, .f32⟩
  | 107 => ⟨S_, .f32⟩
  | 108 => ⟨S128, .f32⟩
  | 109 => ⟨S128, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S100000x128, .f32⟩
  | 20 => ⟨S1x128x128, .f32⟩
  | 21 => ⟨S128x128, .f32⟩
  | 22 => ⟨S100000x128, .f32⟩
  | 23 => ⟨S1x128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S128, .f32⟩
  | 37 => ⟨S_, .f32⟩
  | 38 => ⟨S128, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x128x128, .f32⟩
  | 54 => ⟨S128x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_2 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S128, .f32⟩
  | 25 => ⟨S_, .f32⟩
  | 26 => ⟨S128, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S1x128x128, .f32⟩
  | 42 => ⟨S128x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x10, .f32⟩
  | 60 => ⟨S1x10, .f32⟩
  | 61 => ⟨S100000x10, .f32⟩
  | 62 => ⟨S100000x10, .f32⟩
  | 63 => ⟨S_, .f32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x10, .f32⟩
  | 70 => ⟨S100000x10, .f32⟩
  | 71 => ⟨S100000x10, .f32⟩
  | 72 => ⟨S_, .f32⟩
  | 73 => ⟨S100000, .f32⟩
  | 74 => ⟨S100000x1, .f32⟩
  | 75 => ⟨S100000x1, .f32⟩
  | 76 => ⟨S100000x10, .f32⟩
  | 77 => ⟨S100000x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_c_2 : Ref sig .tc := ⟨.hbm, 76, rfl⟩
abbrev main_v54 : Ref sig .tc := ⟨.hbm, 77, rfl⟩
abbrev main_v55 : Ref sig .tc := ⟨.hbm, 78, rfl⟩
abbrev main_c_3 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_5 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_call2_cst : Ref sig .tc := ⟨.hbm, 120, rfl⟩
abbrev main_call2_v0 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_call3_cst : Ref sig .tc := ⟨.hbm, 131, rfl⟩
abbrev main_call3_v0 : Ref sig .tc := ⟨.hbm, 132, rfl⟩
abbrev main_v103 : Ref sig .tc := ⟨.hbm, 133, rfl⟩
abbrev main_c_6 : Ref sig .tc := ⟨.hbm, 134, rfl⟩
abbrev main_v104 : Ref sig .tc := ⟨.hbm, 135, rfl⟩
abbrev main_v105 : Ref sig .tc := ⟨.hbm, 136, rfl⟩
abbrev main_c_7 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_8 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_9 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_call4_cst : Ref sig .tc := ⟨.hbm, 178, rfl⟩
abbrev main_call4_v0 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_call5_cst : Ref sig .tc := ⟨.hbm, 189, rfl⟩
abbrev main_call5_v0 : Ref sig .tc := ⟨.hbm, 190, rfl⟩
abbrev main_v153 : Ref sig .tc := ⟨.hbm, 191, rfl⟩
abbrev main_c_10 : Ref sig .tc := ⟨.hbm, 192, rfl⟩
abbrev main_v154 : Ref sig .tc := ⟨.hbm, 193, rfl⟩
abbrev main_v155 : Ref sig .tc := ⟨.hbm, 194, rfl⟩
abbrev main_c_11 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_12 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_cst_13 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_call6_cst : Ref sig .tc := ⟨.hbm, 236, rfl⟩
abbrev main_call6_v0 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_call7_cst : Ref sig .tc := ⟨.hbm, 247, rfl⟩
abbrev main_call7_v0 : Ref sig .tc := ⟨.hbm, 248, rfl⟩
abbrev main_v203 : Ref sig .tc := ⟨.hbm, 249, rfl⟩
abbrev main_c_14 : Ref sig .tc := ⟨.hbm, 250, rfl⟩
abbrev main_v204 : Ref sig .tc := ⟨.hbm, 251, rfl⟩
abbrev main_v205 : Ref sig .tc := ⟨.hbm, 252, rfl⟩
abbrev main_c_15 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_cst_16 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_cst_17 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_call8_cst : Ref sig .tc := ⟨.hbm, 294, rfl⟩
abbrev main_call8_v0 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_call9_cst : Ref sig .tc := ⟨.hbm, 305, rfl⟩
abbrev main_call9_v0 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_call10_cst : Ref sig .tc := ⟨.hbm, 312, rfl⟩
abbrev main_call10_v0 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_call11_cst : Ref sig .tc := ⟨.hbm, 319, rfl⟩
abbrev main_call11_v0 : Ref sig .tc := ⟨.hbm, 320, rfl⟩
abbrev main_call11_cst_0 : Ref sig .tc := ⟨.hbm, 321, rfl⟩
abbrev main_call11_v1 : Ref sig .tc := ⟨.hbm, 322, rfl⟩
abbrev main_call11_v2 : Ref sig .tc := ⟨.hbm, 323, rfl⟩
abbrev main_call11_v3 : Ref sig .tc := ⟨.hbm, 324, rfl⟩
abbrev main_call11_v4 : Ref sig .tc := ⟨.hbm, 325, rfl⟩
abbrev main_call11_v5 : Ref sig .tc := ⟨.hbm, 326, rfl⟩
abbrev main_call11_v6 : Ref sig .tc := ⟨.hbm, 327, rfl⟩
abbrev main_call11_cst_1 : Ref sig .tc := ⟨.hbm, 328, rfl⟩
abbrev main_call11_v7 : Ref sig .tc := ⟨.hbm, 329, rfl⟩
abbrev main_call11_v8 : Ref sig .tc := ⟨.hbm, 330, rfl⟩
abbrev main_call11_v9 : Ref sig .tc := ⟨.hbm, 331, rfl⟩
abbrev main_call11_v10 : Ref sig .tc := ⟨.hbm, 332, rfl⟩
abbrev main_v263 : Ref sig .tc := ⟨.hbm, 333, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.KRun.lean ====
/-
  The run of the idealized kernel program with its result named.

  The program is five kernel launches among stretches of host operations. Every weakly fair execution
  terminates, nothing faults, the fourteen argument arrays end as launched, and the result buffer ends
  at the contents the chain of segment boundaries gives it: the last stretch of host operations applied
  to what the fifth launch leaves. This is the launch theorem over the program's segments, read at the
  result buffer as well as at the arguments.
-/
import proofs.«179956_j20864951124664_2_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of the program terminates without a fault; the result buffer ends at the last
    boundary's contents and each argument array as launched. -/
theorem run_result : θ_run defs (onTc (τ := τ) (main (F := F))) ⟨m, fun _ => 0, ρ⟩ (fun r => ∀ c : Dev nD,
      r.2.mem ((c.tc : Thread nD τ).loc main_v149) = W15 m ρ c (Proc.devRef .tc main_v149)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v149 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c)⟩)

end Cert.KernelIdeal.GinRun

end
-- ==== Proof.Block.lean ====
/-
  What one launch computes on a table of n rows (a block of 2000, or all 100000), index by index.

  A block of the node table and the same block of the neighbour sums are added, multiplied by a
  128 x 128 matrix, shifted by a bias row, scaled and shifted by the folded normalisation rows,
  clamped at zero, multiplied by a second matrix, shifted by a second bias row and clamped at zero.
  Row p of the result depends on row p of the two blocks only. The last launch continues on the same
  rows with a dense layer clamped at zero, a dense layer onto 128 columns of which all but the first
  10 are then filled with the bottom element, and the logarithm of the softmax along the 128 columns.
-/
import Idealize.ShloMosaic.PureOps.Ideal
import Idealize.ShloMosaic.Lib.ValueIdx

noncomputable section

open scoped BigOperators

namespace Cert.Gin

open Idealize.ShloMosaic Idealize.ShloMosaic.ValueIdx

/-- A table of n rows of 128 features. -/
abbrev Rows (n : ℕ) := (⟨2, ![n, 128]⟩ : Shape).Idx → EReal
/-- A square matrix. -/
abbrev Sq := (⟨2, ![128, 128]⟩ : Shape).Idx → EReal
/-- One row of 128 features. -/
abbrev Row := (⟨2, ![1, 128]⟩ : Shape).Idx → EReal

/-- The hidden activation of row p, feature k: ((x0 + x1) w1 + b1) * s + sh, clamped at zero. -/
def bHid {n : ℕ} (x0 x1 : Rows n) (w1 : Sq) (b1 s sh : Row) (p : Fin n) (k : Fin 128) : EReal :=
  max (((∑ k' : Fin 128, (x0 (ix2 p k') + x1 (ix2 p k')) * w1 (ix2 k' k)) + b1 (ix2 0 k)) * s (ix2 0 k) + sh (ix2 0 k)) 0

/-- One layer on a block: the hidden activations times w2, plus b2, clamped at zero. -/
def bLayer {n : ℕ} (x0 x1 : Rows n) (w1 : Sq) (b1 s sh : Row) (w2 : Sq) (b2 : Row) (p : Fin n) (q : Fin 128) : EReal :=
  max ((∑ k : Fin 128, bHid x0 x1 w1 b1 s sh p k * w2 (ix2 k q)) + b2 (ix2 0 q)) 0

/-- The dense layer clamped at zero that follows the last layer: row p, feature k. -/
def bHead1 {n : ℕ} (h : Fin n → Fin 128 → EReal) (l1 : Sq) (lb1 : Row) (p : Fin n) (k : Fin 128) : EReal :=
  max ((∑ k' : Fin 128, h p k' * l1 (ix2 k' k)) + lb1 (ix2 0 k)) 0

/-- The scores over 128 columns: row p, column j. -/
def bLogit {n : ℕ} (h : Fin n → Fin 128 → EReal) (l1 : Sq) (lb1 : Row) (l2 : Sq) (lb2 : Row) (p : Fin n) (j : Fin 128) : EReal :=
  (∑ k : Fin 128, bHead1 h l1 lb1 p k * l2 (ix2 k j)) + lb2 (ix2 0 j)

/-- The scores with every column from the tenth on filled with the bottom element. -/
def bMask {n : ℕ} (h : Fin n → Fin 128 → EReal) (l1 : Sq) (lb1 : Row) (l2 : Sq) (lb2 : Row) (p : Fin n) (j : Fin 128) : EReal :=
  if j.val < 10 then bLogit h l1 lb1 l2 lb2 p j else ⊥

/-- The logarithm of the softmax along the 128 masked columns: row p, column q. -/
def bOut {n : ℕ} (h : Fin n → Fin 128 → EReal) (l1 : Sq) (lb1 : Row) (l2 : Sq) (lb2 : Row) (p : Fin n) (q : Fin 128) : EReal :=
  (bMask h l1 lb1 l2 lb2 p q - Finset.univ.sup fun j : Fin 128 => bMask h l1 lb1 l2 lb2 p j)
    - Ideal.log (0 + ∑ j : Fin 128,
        Ideal.exp (bMask h l1 lb1 l2 lb2 p j - Finset.univ.sup fun j : Fin 128 => bMask h l1 lb1 l2 lb2 p j))

end Cert.Gin

end
-- ==== Proof.KBody.lean ====
/-
  The launches' arithmetic read at an index.

  Each of the first four launches computes, on a block, the layer of Block.lean: the two matrix
  products go into a zero accumulator, so each is a plain sum over the 128 contracted coordinates;
  a change of float format is the identity on the extended reals; a bias row is repeated down the
  2000 rows.
-/
import proofs.«179956_j20864951124664_2_alg».proof.Proof.Gen.KernelIdeal.Skeleton
import proofs.«179956_j20864951124664_2_alg».proof.Proof.Block
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Gin.Body

open Cert.KernelIdeal Cert.KernelIdeal.Gen Cert.Gin Idealize.ShloMosaic Idealize.ShloMosaic.ValueIdx

/-- The launches' one contraction: [2000,128] times [128,128]. -/
abbrev DD := dot_S2000x128_S128x128_S2000x128_1_0_0_1_n_n

theorem lhs0 (i : S2000x128.Idx) (q : DD.contr.Idx) : (DD.lhsIdx i q 0).val = (i 0).val := by
  unfold DotDims.lhsIdx
  rw [dif_neg (show ¬(0 : Fin S2000x128.rank) ∈ DD.lhsBatch by decide), dif_pos (show (0 : Fin S2000x128.rank) ∈ DD.lhsNonContracting by decide)]
  rfl

theorem rhs1 (i : S2000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A block times a matrix into a zero accumulator: entry (p, q) is the sum over k of a(p,k) w(k,q). -/
theorem mm_apply {φ₁ φ₂ : FTy} (a : FVec Ideal S2000x128 φ₁) (w : FVec Ideal S128x128 φ₂) (p : Fin 2000) (q : Fin 128) :
    matmul (F := Ideal) DD none a w (constant S2000x128 .f32 0x00000000#32) (ix2 p q)
      = ∑ k : Fin 128, a (ix2 p k) * w (ix2 k q) := by
  show FloatOps.matmul DD none a w (constant S2000x128 .f32 0x00000000#32) (ix2 p q) = _
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs0 _ _
    | ⟨1, _⟩ => exact (DD.lhsIdx_val_of_single rfl _ _).trans hk)
  have er : DD.rhsIdx (ix2 p q) ((contrEquiv1 DD 128 rfl rfl).symm k) = ix2 k q := funext fun a => Fin.ext (by
    match a with
    | ⟨0, _⟩ => exact (DD.rhsIdx_val_of_single rfl _ _).trans hk
    | ⟨1, _⟩ => exact rhs1 _ _)
  rw [el, er]

/-- A bias row repeated down the rows, at (p, q), is the row's entry q. -/
theorem row_apply (v : FVec Ideal S1x128 .f32) (p : Fin 2000) (q : Fin 128) :
    broadcastTo S2000x128 v broadcasts_S1x128_S2000x128 (ix2 p q) = v (ix2 0 q) :=
  broadcastTo_1b_ab_apply v _ p q

/-- The zero word is the number zero. -/
theorem zero_word : (FloatOps.ofBits (F := Ideal) .f32 0x00000000#32 : EReal) = 0 := Ideal.ofBits_zero_f32

/-- The first launch's arithmetic at (p, q) is the layer on the block. -/
theorem pay0 (x0 x1 : Vec Ideal S2000x128 .f32) (w1 : Vec Ideal S128x128 .f32) (b1 s sh : Vec Ideal S1x128 .f32)
    (w2 : Vec Ideal S128x128 .f32) (b2 : Vec Ideal S1x128 .f32) (p : Fin 2000) (q : Fin 128) :
    k0_pay1 (F := Ideal) x0 x1 w1 b1 s sh w2 b2 (ix2 p q) = bLayer x0 x1 w1 b1 s sh w2 b2 p q := by
  unfold k0_pay1 bLayer bHid
  simp only [maximumf_apply, addf_apply, mulf_apply, broadcast_apply, truncf_apply, shapeCast_self, mm_apply, row_apply, zero_word]

/-- The same arithmetic in the second, third and fourth launches. -/
theorem pay1 (x0 x1 : Vec Ideal S2000x128 .f32) (w1 : Vec Ideal S128x128 .f32) (b1 s sh : Vec Ideal S1x128 .f32)
    (w2 : Vec Ideal S128x128 .f32) (b2 : Vec Ideal S1x128 .f32) (p : Fin 2000) (q : Fin 128) :
    k1_pay1 (F := Ideal) x0 x1 w1 b1 s sh w2 b2 (ix2 p q) = bLayer x0 x1 w1 b1 s sh w2 b2 p q := by
  unfold k1_pay1 bLayer bHid
  simp only [maximumf_apply, addf_apply, mulf_apply, broadcast_apply, truncf_apply, shapeCast_self, mm_apply, row_apply, zero_word]

theorem pay2 (x0 x1 : Vec Ideal S2000x128 .f32) (w1 : Vec Ideal S128x128 .f32) (b1 s sh : Vec Ideal S1x128 .f32)
    (w2 : Vec Ideal S128x128 .f32) (b2 : Vec Ideal S1x128 .f32) (p : Fin 2000) (q : Fin 128) :
    k2_pay1 (F := Ideal) x0 x1 w1 b1 s sh w2 b2 (ix2 p q) = bLayer x0 x1 w1 b1 s sh w2 b2 p q := by
  unfold k2_pay1 bLayer bHid
  simp only [maximumf_apply, addf_apply, mulf_apply, broadcast_apply, truncf_apply, shapeCast_self, mm_apply, row_apply, zero_word]

theorem pay3 (x0 x1 : Vec Ideal S2000x128 .f32) (w1 : Vec Ideal S128x128 .f32) (b1 s sh : Vec Ideal S1x128 .f32)
    (w2 : Vec Ideal S128x128 .f32) (b2 : Vec Ideal S1x128 .f32) (p : Fin 2000) (q : Fin 128) :
    k3_pay1 (F := Ideal) x0 x1 w1 b1 s sh w2 b2 (ix2 p q) = bLayer x0 x1 w1 b1 s sh w2 b2 p q := by
  unfold k3_pay1 bLayer bHid
  simp only [maximumf_apply, addf_apply, mulf_apply, broadcast_apply, truncf_apply, shapeCast_self, mm_apply, row_apply, zero_word]

/-- The fifth launch's layer, handed on in the narrower format (the identity here). -/
theorem pay4a (x0 x1 : Vec Ideal S2000x128 .f32) (w1 : Vec Ideal S128x128 .f32) (b1 s sh : Vec Ideal S1x128 .f32)
    (w2 : Vec Ideal S128x128 .f32) (b2 : Vec Ideal S1x128 .f32) (p : Fin 2000) (q : Fin 128) :
    k4_pay2 (F := Ideal) x0 x1 w1 b1 s sh w2 b2 (ix2 p q) = bLayer x0 x1 w1 b1 s sh w2 b2 p q := by
  unfold k4_pay2 bLayer bHid
  simp only [maximumf_apply, addf_apply, mulf_apply, broadcast_apply, truncf_apply, shapeCast_self, mm_apply, row_apply, zero_word]

/-! ## The head of the fifth launch -/

/-- The word of minus infinity is the bottom element. -/
theorem bot_word : (FloatOps.ofBits (F := Ideal) .f32 0xFF800000#32 : EReal) = ⊥ := by
  show Ideal.ofBits .f32 0xFF800000#32 = ⊥
  simp [Ideal.ofBits, Ideal.ieee]

/-- The named fill is the bottom element. -/
theorem fill_bot : (Named.named (F := Ideal) κ "neg_big" (φ := .f32) 0xF149F2CA#32 : EReal) = ⊥ :=
  IdealRules.named_const.ideal_named_scalar _ _ _ _ rfl

/-- A lane number below 128 is below ten as a signed word exactly when it is below ten. -/
theorem lane_lt : ∀ j : Fin 128, IntOp.cmpi .slt (BitVec.ofNat 32 j.val) 10#32 = if j.val < 10 then 1#1 else 0#1 := by
  decide

/-- The mask of the first ten lanes at (p, j). -/
theorem lane_test (p : Fin 2000) (j : Fin 128) :
    cmpi .slt (iota .tc S2000x128 32 [1] iota_S2000x128_d1_w32) (broadcast S2000x128 10#32) (ix2 p j)
      = if j.val < 10 then 1#1 else 0#1 := by
  show IntOp.cmpi .slt (iota .tc S2000x128 32 [1] iota_S2000x128_d1_w32 (ix2 p j)) 10#32 = _
  rw [iota_single_apply]
  exact lane_lt j

/-- A column of 2000 entries repeated along the 128 lanes, at (p, q), is its entry p. -/
theorem col_apply (w : FVec Ideal S2000x1 .f32) (p : Fin 2000) (q : Fin 128) :
    broadcastTo S2000x128 w broadcasts_S2000x1_S2000x128 (ix2 p q) = w (ix2 p (0 : Fin 1)) :=
  broadcastTo_apply w _ (ix2 p q) (ix2 p (0 : Fin 1)) fun a => by
    match a with
    | ⟨0, _⟩ => rfl
    | ⟨1, _⟩ => rfl

/-- A vector of 2000 entries viewed as a column, at (p, 0), is its entry p. -/
theorem keep_apply (v : FVec Ideal S2000 .f32) (p : Fin 2000) :
    shapeCast S2000x1 v shapeCasts_S2000_S2000x1 (ix2 p (0 : Fin 1)) = v (ix1 p) :=
  shapeCast_apply v _ _ (ix1 p) (by
    rw [Shape.rowMajor_val_two, Shape.rowMajor_val_one]
    show p.val = p.val * 1 + 0
    omega)

/-- Row p with the lane k put back. -/
theorem lift_row (p : Fin 2000) (k : Fin (S2000x128.size 1)) :
    reduces_S2000x128_S2000.lift (ix1 p) k = ix2 p k :=
  funext fun c => Fin.ext (by
    match c with
    | ⟨0, _⟩ => rfl
    | ⟨1, _⟩ => rfl)

/-- The same with the lane typed as a number below 128. -/
theorem lift_row' (p : Fin 2000) (k : Fin 128) :
    reduces_S2000x128_S2000.lift (ix1 p) k = ix2 p k := lift_row p k

theorem exp_apply' (a : FVec Ideal S2000x128 .f32) (i : S2000x128.Idx) : exp a i = Ideal.exp (a i) := rfl
theorem log_apply' (a : FVec Ideal S2000x1 .f32) (i : S2000x1.Idx) : log a i = Ideal.log (a i) := rfl

/-- The scores of the fifth launch with the lanes from the tenth on replaced by the named fill. -/
def mask (hb : FVec Ideal S2000x128 .bf16) (l1 : Vec Ideal S128x128 .f32) (lb1 : Vec Ideal S1x128 .f32)
    (l2 : Vec Ideal S128x128 .f32) (lb2 : Vec Ideal S1x128 .f32) : FVec Ideal S2000x128 .f32 :=
  select (cmpi .slt (iota .tc S2000x128 32 [1] iota_S2000x128_d1_w32) (broadcast S2000x128 10#32))
    (addf
      (matmul DD none
        (truncf .bf16
          (maximumf
            (addf (matmul DD none hb (truncf .bf16 l1 bitsLt_bf16_f32) (constant S2000x128 .f32 0x00000000#32))
              (broadcastTo S2000x128 (shapeCast S1x128 lb1 shapeCasts_S1x128_S1x128) broadcasts_S1x128_S2000x128))
            (broadcast S2000x128 (Scalar.ofBits .f32 0x00000000#32)))
          bitsLt_bf16_f32)
        (truncf .bf16 (shapeCast S128x128 l2 shapeCasts_S128x128_S128x128) bitsLt_bf16_f32)
        (constant S2000x128 .f32 0x00000000#32))
      (broadcastTo S2000x128 (shapeCast S1x128 lb2 shapeCasts_S1x128_S1x128) broadcasts_S1x128_S2000x128))
    (broadcast S2000x128 (Named.named κ "neg_big" 0xF149F2CA#32))

/-- The row maximum of a block, kept as a column and repeated along the lanes. -/
def rowMax (V : FVec Ideal S2000x128 .f32) (h2 : FKind.Formats .f32)
    (h3 : (0xFF800000#32 : BitVec 32) = FKind.maximumf.neutral .f32 h2) : FVec Ideal S2000x128 .f32 :=
  broadcastTo S2000x128
    (shapeCast S2000x1 (multiReduction .maximumf [1] S2000 V 0xFF800000#32 reduces_S2000x128_S2000 h2 h3) shapeCasts_S2000_S2000x1)
    broadcasts_S2000x1_S2000x128

/-- The logarithm of the softmax along the lanes, as the launch spells it. -/
def soft (V : FVec Ideal S2000x128 .f32) (h2 : FKind.Formats .f32)
    (h3 : (0xFF800000#32 : BitVec 32) = FKind.maximumf.neutral .f32 h2)
    (h4 : (0x00000000#32 : BitVec 32) = FKind.add.neutral .f32 h2) : FVec Ideal S2000x128 .f32 :=
  subf (subf V (rowMax V h2 h3))
    (broadcastTo S2000x128
      (log (shapeCast S2000x1
        (multiReduction .add [1] S2000 (exp (subf V (rowMax V h2 h3))) 0x00000000#32 reduces_S2000x128_S2000 h2 h4)
        shapeCasts_S2000_S2000x1))
      broadcasts_S2000x1_S2000x128)

/-- The fifth launch's head is the softmax form of the masked scores. -/
theorem k4_pay1_eq (hb : FVec Ideal S2000x128 .bf16) (l1 : Vec Ideal S128x128 .f32) (lb1 : Vec Ideal S1x128 .f32)
    (l2 : Vec Ideal S128x128 .f32) (lb2 : Vec Ideal S1x128 .f32) :
    k4_pay1 (F := Ideal) hb l1 lb1 l2 lb2 = soft (mask hb l1 lb1 l2 lb2) (.inl rfl) rfl rfl := rfl

/-- The masked scores at (p, j). -/
theorem mask_apply (hb : FVec Ideal S2000x128 .bf16) (l1 : Vec Ideal S128x128 .f32) (lb1 : Vec Ideal S1x128 .f32)
    (l2 : Vec Ideal S128x128 .f32) (lb2 : Vec Ideal S1x128 .f32) (p : Fin 2000) (j : Fin 128) :
    mask hb l1 lb1 l2 lb2 (ix2 p j) = bMask (fun p k => hb (ix2 p k)) l1 lb1 l2 lb2 p j := by
  unfold mask
  rw [select_apply, lane_test]
  unfold bMask bLogit bHead1
  by_cases hj : j.val < 10
  · rw [if_pos hj, if_pos hj, select_one]
    simp only [maximumf_apply, addf_apply, broadcast_apply, truncf_apply, shapeCast_self, mm_apply, row_apply, zero_word, Scalar.ofBits, Ideal.ofBits_zero_f32]
  · rw [if_neg hj, if_neg hj, select_zero, broadcast_apply]
    exact fill_bot

/-- The row maximum at (p, q), when row p of the block is f: the largest of f. -/
theorem rowMax_apply (V : FVec Ideal S2000x128 .f32) (h2 : FKind.Formats .f32)
    (h3 : (0xFF800000#32 : BitVec 32) = FKind.maximumf.neutral .f32 h2) (p : Fin 2000) (q : Fin 128) (f : Fin 128 → EReal)
    (hf : ∀ j, V (ix2 p j) = f j) : rowMax V h2 h3 (ix2 p q) = Finset.univ.sup f := by
  unfold rowMax
  rw [col_apply, keep_apply, Ideal.multiReduction_maximumf_single, bot_word]
  have hcomp : (V ∘ reduces_S2000x128_S2000.lift (ix1 p)) = f := funext fun k => by
    show V (reduces_S2000x128_S2000.lift (ix1 p) k) = _
    rw [lift_row]; exact hf k
  rw [hcomp]
  rfl

/-- The softmax form at (p, q), when row p of the block is f. -/
theorem soft_apply (V : FVec Ideal S2000x128 .f32) (h2 : FKind.Formats .f32)
    (h3 : (0xFF800000#32 : BitVec 32) = FKind.maximumf.neutral .f32 h2)
    (h4 : (0x00000000#32 : BitVec 32) = FKind.add.neutral .f32 h2) (p : Fin 2000) (q : Fin 128) (f : Fin 128 → EReal)
    (hf : ∀ j, V (ix2 p j) = f j) :
    soft V h2 h3 h4 (ix2 p q) = (f q - Finset.univ.sup f) - Ideal.log (∑ j : Fin 128, Ideal.exp (f j - Finset.univ.sup f)) := by
  unfold soft
  rw [subf_apply, subf_apply, col_apply, log_apply', keep_apply, Ideal.multiReduction_add_single, hf q, rowMax_apply V h2 h3 p q f hf]
  show _ - Ideal.log (∑ k : Fin 128, exp (subf V (rowMax V h2 h3)) (reduces_S2000x128_S2000.lift (ix1 p) k)) = _
  refine congrArg (fun t => _ - Ideal.log t) (Finset.sum_congr rfl fun k _ => ?_)
  rw [lift_row', exp_apply', subf_apply, hf, rowMax_apply V h2 h3 p _ f hf]

/-- The fifth launch's head at (p, q): the logarithm of the softmax along the masked lanes. -/
theorem pay4 (hb : FVec Ideal S2000x128 .bf16) (l1 : Vec Ideal S128x128 .f32) (lb1 : Vec Ideal S1x128 .f32)
    (l2 : Vec Ideal S128x128 .f32) (lb2 : Vec Ideal S1x128 .f32) (p : Fin 2000) (q : Fin 128) :
    k4_pay1 (F := Ideal) hb l1 lb1 l2 lb2 (ix2 p q) = bOut (fun p k => hb (ix2 p k)) l1 lb1 l2 lb2 p q := by
  refine (congrFun (k4_pay1_eq hb l1 lb1 l2 lb2) (ix2 p q)).trans
    ((soft_apply _ _ _ _ p q _ (mask_apply hb l1 lb1 l2 lb2 p)).trans ?_)
  unfold bOut
  rw [zero_add]

end Cert.Gin.Body

end
-- ==== Proof.KRegion0.lean ====
/-
  The first launch on the whole table.

  The launch runs the layer of Block.lean on 50 blocks of 2000 rows. Block t of the node table, of the
  neighbour sums and of the result are rows 2000 t to 2000 t + 1999; the two matrices and the four rows
  are the same whole arrays at every point. So what point t writes back is block t of ONE function of the
  arrays as the launch finds them: the layer on all 100000 rows. The 50 blocks tile the table (row r lies in
  block r / 2000), so after the launch the result array holds that function.
-/
import proofs.«179956_j20864951124664_2_alg».proof.Proof.Gen.KernelIdeal.Frame
import proofs.«179956_j20864951124664_2_alg».proof.Proof.KBody

set_option maxRecDepth 16384

noncomputable section

open scoped BigOperators

namespace Cert.Gin.Region0

open Cert.KernelIdeal Cert.KernelIdeal.Gen Cert.Gin Cert.Gin.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three tables move with the point along the rows, the parameters stay. -/
theorem idx : ∀ t : Fin cfg0.N,
      win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 2) = 0 :=
  (by decide +kernel : ∀ t : Fin grid0.N, _)

/-- Every block of rows is some point's. -/
theorem onto : ∀ q0 : Fin 50, ∃ t : Fin cfg0.N, win0_8.index t = ![q0.val, 0] :=
  (by decide +kernel : ∀ q0 : Fin 50, ∃ t : Fin grid0.N, win0_8.index t = ![q0.val, 0])

/-- The layer on the whole table, of the arrays as the launch finds them. -/
def G (c : Dev nD) : S100000x128.Idx → EReal := fun i =>
  bLayer (n := 100000) (V c main_arg0) (V c main_v21) (V c main_v23) (V c main_v34) (V c main_v35) (V c main_v36)
    (V c main_v31) (V c main_v37) (i 0) (i 1)

set_option maxHeartbeats 2000000 in
/-- What point t writes back is block t of that function. -/
theorem flushed (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S2000x128) hz, View.ld_unit_zero (S := S128x128) hz, View.ld_unit_zero (S := S1x128) hz]
  obtain ⟨a0, a1, b0, b1, c0, c1, d0, d1, e0, e1, f0, f1, g0, g1, h0, h1, o1⟩ := idx t
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (iblk0 V c 4 t)
      (iblk0 V c 5 t) (iblk0 V c 6 t) (iblk0 V c 7 t) (ix2 p q)
    = G V c (((cfg0.win 8).blk t).view.emb (ix2 p q))
  refine (pay0 (iblk0 V c 0 t) (iblk0 V c 1 t) (iblk0 V c 2 t) (iblk0 V c 3 t) (iblk0 V c 4 t)
      (iblk0 V c 5 t) (iblk0 V c 6 t) (iblk0 V c 7 t) p q).trans ?_
  have hh : ∀ k : Fin 128, iblk0 V c 0 t (ix2 p k)
      = V c main_arg0 (ix2 (((cfg0.win 8).blk t).view.emb (ix2 p q) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_8.index t (0 : Fin 2) * 2000 + 1 * p.val; omega
    | ⟨1, _⟩ => show win0_0.index t (1 : Fin 2) * 128 + 1 * k.val = k.val; omega
  have ha : ∀ k : Fin 128, iblk0 V c 1 t (ix2 p k)
      = V c main_v21 (ix2 (((cfg0.win 8).blk t).view.emb (ix2 p q) 0) k) := fun k => by
    show V c main_v21 (((cfg0.win 1).blk t).view.emb (ix2 p k)) = _
    refine congrArg (V c main_v21) (funext fun a => Fin.ext ?_)
    match a with
    | ⟨0, _⟩ => show win0_1.index t (0 : Fin 2) * 2000 + 1 * p.val = win0_8.index t (0 : Fin 2) * 2000 + 1 * p.val; omega
    | ⟨1, _⟩ => show win0_1.index t (1 : Fin 2) * 128 + 1 * k.val = k.val; omega
  have hw1 : ∀ x y : Fin 128, iblk0 V c 2 t (ix2 x y) = V c main_v23 (ix2 x y) := fun x y => by
    show V c main_v23 (((cfg0.win 2).blk t).view.emb (ix2 x y)) = _
    refine congrArg (V c main_v23) (funext fun a => Fin.ext ?_)
    match a with
    | ⟨0, _⟩ => show win0_2.index t (0 : Fin 2) * 128 + 1 * x.val = x.val; omega
    | ⟨1, _⟩ => show win0_2.index t (1 : Fin 2) * 128 + 1 * y.val = y.val; omega
  have hw2 : ∀ x y : Fin 128, iblk0 V c 6 t (ix2 x y) = V c main_v31 (ix2 x y) := fun x y => by
    show V c main_v31 (((cfg0.win 6).blk t).view.emb (ix2 x y)) = _
    refine congrArg (V c main_v31) (funext fun a => Fin.ext ?_)
    match a with
    | ⟨0, _⟩ => show win0_6.index t (0 : Fin 2) * 128 + 1 * x.val = x.val; omega
    | ⟨1, _⟩ => show win0_6.index t (1 : Fin 2) * 128 + 1 * y.val = y.val; omega
  have hb1 : ∀ y : Fin 128, iblk0 V c 3 t (ix2 0 y) = V c main_v34 (ix2 0 y) := fun y => by
    show V c main_v34 (((cfg0.win 3).blk t).view.emb (ix2 0 y)) = _
    refine congrArg (V c main_v34) (funext fun a => Fin.ext ?_)
    match a with
    | ⟨0, _⟩ => show win0_3.index t (0 : Fin 2) * 1 + 1 * 0 = 0; omega
    | ⟨1, _⟩ => show win0_3.index t (1 : Fin 2) * 128 + 1 * y.val = y.val; omega
  have hs : ∀ y : Fin 128, iblk0 V c 4 t (ix2 0 y) = V c main_v35 (ix2 0 y) := fun y => by
    show V c main_v35 (((cfg0.win 4).blk t).view.emb (ix2 0 y)) = _
    refine congrArg (V c main_v35) (funext fun a => Fin.ext ?_)
    match a with
    | ⟨0, _⟩ => show win0_4.index t (0 : Fin 2) * 1 + 1 * 0 = 0; omega
    | ⟨1, _⟩ => show win0_4.index t (1 : Fin 2) * 128 + 1 * y.val = y.val; omega
  have hsh : ∀ y : Fin 128, iblk0 V c 5 t (ix2 0 y) = V c main_v36 (ix2 0 y) := fun y => by
    show V c main_v36 (((cfg0.win 5).blk t).view.emb (ix2 0 y)) = _
    refine congrArg (V c main_v36) (funext fun a => Fin.ext ?_)
    match a with
    | ⟨0, _⟩ => show win0_5.index t (0 : Fin 2) * 1 + 1 * 0 = 0; omega
    | ⟨1, _⟩ => show win0_5.index t (1 : Fin 2) * 128 + 1 * y.val = y.val; omega
  have hb2 : ∀ y : Fin 128, iblk0 V c 7 t (ix2 0 y) = V c main_v37 (ix2 0 y) := fun y => by
    show V c main_v37 (((cfg0.win 7).blk t).view.emb (ix2 0 y)) = _
    refine congrArg (V c main_v37) (funext fun a => Fin.ext ?_)
    match a with
    | ⟨0, _⟩ => show win0_7.index t (0 : Fin 2) * 1 + 1 * 0 = 0; omega
    | ⟨1, _⟩ => show win0_7.index t (1 : Fin 2) * 128 + 1 * y.val = y.val; omega
  have hq : ((cfg0.win 8).blk t).view.emb (ix2 p q) 1 = q :=
    Fin.ext (by show win0_8.index t (1 : Fin 2) * 128 + 1 * q.val = q.val; omega)
  unfold G bLayer bHid
  simp only [hh, ha, hw1, hw2, hb1, hs, hsh, hb2, hq]

/-- An index of the table is in point t's block iff its row is in the block's range. -/
theorem mem_blk (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v38).slice (win0_8.rect t)).set ↔ _
  rw [View.set_slice_whole, Rect.mem_set_unit]
  exact Iff.rfl

/-- Every index of the table is in the block of the point that holds its row. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := onto ⟨(i 0).val / 2000, by omega⟩
  have q0 : win0_8.index t (0 : Fin 2) = (i 0).val / 2000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- After the launch the result array holds the layer on the whole table. -/
theorem final (c : Dev nD) : (dat0 V c).arrAt 8 cfg0.N = G V c :=
  (dat0 V c).arrAt_eq_of_cover 8 (G V c) (fun t _ => flushed V c t) cover

end Cert.Gin.Region0

end
-- ==== Proof.KRegion1.lean ====
/-
  The second launch on the whole table.

  The launch runs the layer of Block.lean on 50 blocks of 2000 rows. Block t of the node table, of the
  neighbour sums and of the result are rows 2000 t to 2000 t + 1999; the two matrices and the four rows
  are the same whole arrays at every point. So what point t writes back is block t of ONE function of the
  arrays as the launch finds them: the layer on all 100000 rows. The 50 blocks tile the table (row r lies in
  block r / 2000), so after the launch the result array holds that function.
-/
import proofs.«179956_j20864951124664_2_alg».proof.Proof.Gen.KernelIdeal.Frame
import proofs.«179956_j20864951124664_2_alg».proof.Proof.KBody

set_option maxRecDepth 16384

noncomputable section

open scoped BigOperators

namespace Cert.Gin.Region1

open Cert.KernelIdeal Cert.KernelIdeal.Gen Cert.Gin Cert.Gin.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three tables move with the point along the rows, the parameters stay. -/
theorem idx : ∀ t : Fin cfg1.N,
      win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (1 : Fin 2) = 0 :=
  (by decide +kernel : ∀ t : Fin grid1.N, _)

/-- Every block of rows is some point's. -/
theorem onto : ∀ q0 : Fin 50, ∃ t : Fin cfg1.N, win1_8.index t = ![q0.val, 0] :=
  (by decide +kernel : ∀ q0 : Fin 50, ∃ t : Fin grid1.N, win1_8.index t = ![q0.val, 0])

/-- The layer on the whole table, of the arrays as the launch finds them. -/
def G (c : Dev nD) : S100000x128.Idx → EReal := fun i =>
  bLayer (n := 100000) (V c main_v38) (V c main_v48) (V c main_v50) (V c main_v61) (V c main_v62) (V c main_v63)
    (V c main_v58) (V c main_v64) (i 0) (i 1)

set_option maxHeartbeats 2000000 in
/-- What point t writes back is block t of that function. -/
theorem flushed (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x128) hz, View.ld_unit_zero (S := S1x128) hz]
  obtain ⟨a0, a1, b0, b1, c0, c1, d0, d1, e0, e1, f0, f1, g0, g1, h0, h1, o1⟩ := idx t
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (iblk1 V c 4 t)
      (iblk1 V c 5 t) (iblk1 V c 6 t) (iblk1 V c 7 t) (ix2 p q)
    = G V c (((cfg1.win 8).blk t).view.emb (ix2 p q))
  refine (pay1 (iblk1 V c 0 t) (iblk1 V c 1 t) (iblk1 V c 2 t) (iblk1 V c 3 t) (iblk1 V c 4 t)
      (iblk1 V c 5 t) (iblk1 V c 6 t) (iblk1 V c 7 t) p q).trans ?_
  have hh : ∀ k : Fin 128, iblk1 V c 0 t (ix2 p k)
      = V c main_v38 (ix2 (((cfg1.win 8).blk t).view.emb (ix2 p q) 0) k) := fun k => by
    show V c main_v38 (((cfg1.win 0).blk t).view.emb (ix2 p k)) = _
    refine congrArg (V c main_v38) (funext fun a => Fin.ext ?_)
    match a with
    | ⟨0, _⟩ => show win1_0.index t (0 : Fin 2) * 2000 + 1 * p.val = win1_8.index t (0 : Fin 2) * 2000 + 1 * p.val; omega
    | ⟨1, _⟩ => show win1_0.index t (1 : Fin 2) * 128 + 1 * k.val = k.val; omega
  have ha : ∀ k : Fin 128, iblk1 V c 1 t (ix2 p k)
      = V c main_v48 (ix2 (((cfg1.win 8).blk t).view.emb (ix2 p q) 0) k) := fun k => by
    show V c main_v48 (((cfg1.win 1).blk t).view.emb (ix2 p k)) = _
    refine congrArg (V c main_v48) (funext fun a => Fin.ext ?_)
    match a with
    | ⟨0, _⟩ => show win1_1.index t (0 : Fin 2) * 2000 + 1 * p.val = win1_8.index t (0 : Fin 2) * 2000 + 1 * p.val; omega
    | ⟨1, _⟩ => show win1_1.index t (1 : Fin 2) * 128 + 1 * k.val = k.val; omega
  have hw1 : ∀ x y : Fin 128, iblk1 V c 2 t (ix2 x y) = V c main_v50 (ix2 x y) := fun x y => by
    show V c main_v50 (((cfg1.win 2).blk t).view.emb (ix2 x y)) = _
    refine congrArg (V c main_v50) (funext fun a => Fin.ext ?_)
    match a with
    | ⟨0, _⟩ => show win1_2.index t (0 : Fin 2) * 128 + 1 * x.val = x.val; omega
    | ⟨1, _⟩ => show win1_2.index t (1 : Fin 2) * 128 + 1 * y.val = y.val; omega
  have hw2 : ∀ x y : Fin 128, iblk1 V c 6 t (ix2 x y) = V c main_v58 (ix2 x y) := fun x y => by
    show V c main_v58 (((cfg1.win 6).blk t).view.emb (ix2 x y)) = _
    refine congrArg (V c main_v58) (funext fun a => Fin.ext ?_)
    match a with
    | ⟨0, _⟩ => show win1_6.index t (0 : Fin 2) * 128 + 1 * x.val = x.val; omega
    | ⟨1, _⟩ => show win1_6.index t (1 : Fin 2) * 128 + 1 * y.val = y.val; omega
  have hb1 : ∀ y : Fin 128, iblk1 V c 3 t (ix2 0 y) = V c main_v61 (ix2 0 y) := fun y => by
    show V c main_v61 (((cfg1.win 3).blk t).view.emb (ix2 0 y)) = _
    refine congrArg (V c main_v61) (funext fun a => Fin.ext ?_)
    match a with
    | ⟨0, _⟩ => show win1_3.index t (0 : Fin 2) * 1 + 1 * 0 = 0; omega
    | ⟨1, _⟩ => show win1_3.index t (1 : Fin 2) * 128 + 1 * y.val = y.val; omega
  have hs : ∀ y : Fin 128, iblk1 V c 4 t (ix2 0 y) = V c main_v62 (ix2 0 y) := fun y => by
    show V c main_v62 (((cfg1.win 4).blk t).view.emb (ix2 0 y)) = _
    refine congrArg (V c main_v62) (funext fun a => Fin.ext ?_)
    match a with
    | ⟨0, _⟩ => show win1_4.index t (0 : Fin 2) * 1 + 1 * 0 = 0; omega
    | ⟨1, _⟩ => show win1_4.index t (1 : Fin 2) * 128 + 1 * y.val = y.val; omega
  have hsh : ∀ y : Fin 128, iblk1 V c 5 t (ix2 0 y) = V c main_v63 (ix2 0 y) := fun y => by
    show V c main_v63 (((cfg1.win 5).blk t).view.emb (ix2 0 y)) = _
    refine congrArg (V c main_v63) (funext fun a => Fin.ext ?_)
    match a with
    | ⟨0, _⟩ => show win1_5.index t (0 : Fin 2) * 1 + 1 * 0 = 0; omega
    | ⟨1, _⟩ => show win1_5.index t (1 : Fin 2) * 128 + 1 * y.val = y.val; omega
  have hb2 : ∀ y : Fin 128, iblk1 V c 7 t (ix2 0 y) = V c main_v64 (ix2 0 y) := fun y => by
    show V c main_v64 (((cfg1.win 7).blk t).view.emb (ix2 0 y)) = _
    refine congrArg (V c main_v64) (funext fun a => Fin.ext ?_)
    match a with
    | ⟨0, _⟩ => show win1_7.index t (0 : Fin 2) * 1 + 1 * 0 = 0; omega
    | ⟨1, _⟩ => show win1_7.index t (1 : Fin 2) * 128 + 1 * y.val = y.val; omega
  have hq : ((cfg1.win 8).blk t).view.emb (ix2 p q) 1 = q :=
    Fin.ext (by show win1_8.index t (1 : Fin 2) * 128 + 1 * q.val = q.val; omega)
  unfold G bLayer bHid
  simp only [hh, ha, hw1, hw2, hb1, hs, hsh, hb2, hq]

/-- An index of the table is in point t's block iff its row is in the block's range. -/
theorem mem_blk (t : Fin cfg1.N) (i : S100000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v65).slice (win1_8.rect t)).set ↔ _
  rw [View.set_slice_whole, Rect.mem_set_unit]
  exact Iff.rfl

/-- Every index of the table is in the block of the point that holds its row. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  obtain ⟨t, ht⟩ := onto ⟨(i 0).val / 2000, by omega⟩
  have q0 : win1_8.index t (0 : Fin 2) = (i 0).val / 2000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- After the launch the result array holds the layer on the whole table. -/
theorem final (c : Dev nD) : (dat1 V c).arrAt 8 cfg1.N = G V c :=
  (dat1 V c).arrAt_eq_of_cover 8 (G V c) (fun t _ => flushed V c t) cover

end Cert.Gin.Region1

end
-- ==== Proof.KRegion2.lean ====
/-
  The third launch on the whole table.

  The launch runs the layer of Block.lean on 50 blocks of 2000 rows. Block t of the node table, of the
  neighbour sums and of the result are rows 2000 t to 2000 t + 1999; the two matrices and the four rows
  are the same whole arrays at every point. So what point t writes back is block t of ONE function of the
  arrays as the launch finds them: the layer on all 100000 rows. The 50 blocks tile the table (row r lies in
  block r / 2000), so after the launch the result array holds that function.
-/
import proofs.«179956_j20864951124664_2_alg».proof.Proof.Gen.KernelIdeal.Frame
import proofs.«179956_j20864951124664_2_alg».proof.Proof.KBody

set_option maxRecDepth 16384

noncomputable section

open scoped BigOperators

namespace Cert.Gin.Region2

open Cert.KernelIdeal Cert.KernelIdeal.Gen Cert.Gin Cert.Gin.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three tables move with the point along the rows, the parameters stay. -/
theorem idx : ∀ t : Fin cfg2.N,
      win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (1 : Fin 2) = 0 :=
  (by decide +kernel : ∀ t : Fin grid2.N, _)

/-- Every block of rows is some point's. -/
theorem onto : ∀ q0 : Fin 50, ∃ t : Fin cfg2.N, win2_8.index t = ![q0.val, 0] :=
  (by decide +kernel : ∀ q0 : Fin 50, ∃ t : Fin grid2.N, win2_8.index t = ![q0.val, 0])

/-- The layer on the whole table, of the arrays as the launch finds them. -/
def G (c : Dev nD) : S100000x128.Idx → EReal := fun i =>
  bLayer (n := 100000) (V c main_v65) (V c main_v75) (V c main_v77) (V c main_v88) (V c main_v89) (V c main_v90)
    (V c main_v85) (V c main_v91) (i 0) (i 1)

set_option maxHeartbeats 2000000 in
/-- What point t writes back is block t of that function. -/
theorem flushed (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz]
  simp only [View.ld_unit_zero (S := S2000x128) hz, View.ld_unit_zero (S := S128x128) hz, View.ld_unit_zero (S := S1x128) hz]
  obtain ⟨a0, a1, b0, b1, c0, c1, d0, d1, e0, e1, f0, f1, g0, g1, h0, h1, o1⟩ := idx t
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (iblk2 V c 3 t) (iblk2 V c 4 t)
      (iblk2 V c 5 t) (iblk2 V c 6 t) (iblk2 V c 7 t) (ix2 p q)
    = G V c (((cfg2.win 8).blk t).view.emb (ix2 p q))
  refine (pay2 (iblk2 V c 0 t) (iblk2 V c 1 t) (iblk2 V c 2 t) (iblk2 V c 3 t) (iblk2 V c 4 t)
      (iblk2 V c 5 t) (iblk2 V c 6 t) (iblk2 V c 7 t) p q).trans ?_
  have hh : ∀ k : Fin 128, iblk2 V c 0 t (ix2 p k)
      = V c main_v65 (ix2 (((cfg2.win 8).blk t).view.emb (ix2 p q) 0) k) := fun k => by
    show V c main_v65 (((cfg2.win 0).blk t).view.emb (ix2 p k)) = _
    refine congrArg (V c main_v65) (funext fun a => Fin.ext ?_)
    match a with
    | ⟨0, _⟩ => show win2_0.index t (0 : Fin 2) * 2000 + 1 * p.val = win2_8.index t (0 : Fin 2) * 2000 + 1 * p.val; omega
    | ⟨1, _⟩ => show win2_0.index t (1 : Fin 2) * 128 + 1 * k.val = k.val; omega
  have ha : ∀ k : Fin 128, iblk2 V c 1 t (ix2 p k)
      = V c main_v75 (ix2 (((cfg2.win 8).blk t).view.emb (ix2 p q) 0) k) := fun k => by
    show V c main_v75 (((cfg2.win 1).blk t).view.emb (ix2 p k)) = _
    refine congrArg (V c main_v75) (funext fun a => Fin.ext ?_)
    match a with
    | ⟨0, _⟩ => show win2_1.index t (0 : Fin 2) * 2000 + 1 * p.val = win2_8.index t (0 : Fin 2) * 2000 + 1 * p.val; omega
    | ⟨1, _⟩ => show win2_1.index t (1 : Fin 2) * 128 + 1 * k.val = k.val; omega
  have hw1 : ∀ x y : Fin 128, iblk2 V c 2 t (ix2 x y) = V c main_v77 (ix2 x y) := fun x y => by
    show V c main_v77 (((cfg2.win 2).blk t).view.emb (ix2 x y)) = _
    refine congrArg (V c main_v77) (funext fun a => Fin.ext ?_)
    match a with
    | ⟨0, _⟩ => show win2_2.index t (0 : Fin 2) * 128 + 1 * x.val = x.val; omega
    | ⟨1, _⟩ => show win2_2.index t (1 : Fin 2) * 128 + 1 * y.val = y.val; omega
  have hw2 : ∀ x y : Fin 128, iblk2 V c 6 t (ix2 x y) = V c main_v85 (ix2 x y) := fun x y => by
    show V c main_v85 (((cfg2.win 6).blk t).view.emb (ix2 x y)) = _
    refine congrArg (V c main_v85) (funext fun a => Fin.ext ?_)
    match a with
    | ⟨0, _⟩ => show win2_6.index t (0 : Fin 2) * 128 + 1 * x.val = x.val; omega
    | ⟨1, _⟩ => show win2_6.index t (1 : Fin 2) * 128 + 1 * y.val = y.val; omega
  have hb1 : ∀ y : Fin 128, iblk2 V c 3 t (ix2 0 y) = V c main_v88 (ix2 0 y) := fun y => by
    show V c main_v88 (((cfg2.win 3).blk t).view.emb (ix2 0 y)) = _
    refine congrArg (V c main_v88) (funext fun a => Fin.ext ?_)
    match a with
    | ⟨0, _⟩ => show win2_3.index t (0 : Fin 2) * 1 + 1 * 0 = 0; omega
    | ⟨1, _⟩ => show win2_3.index t (1 : Fin 2) * 128 + 1 * y.val = y.val; omega
  have hs : ∀ y : Fin 128, iblk2 V c 4 t (ix2 0 y) = V c main_v89 (ix2 0 y) := fun y => by
    show V c main_v89 (((cfg2.win 4).blk t).view.emb (ix2 0 y)) = _
    refine congrArg (V c main_v89) (funext fun a => Fin.ext ?_)
    match a with
    | ⟨0, _⟩ => show win2_4.index t (0 : Fin 2) * 1 + 1 * 0 = 0; omega
    | ⟨1, _⟩ => show win2_4.index t (1 : Fin 2) * 128 + 1 * y.val = y.val; omega
  have hsh : ∀ y : Fin 128, iblk2 V c 5 t (ix2 0 y) = V c main_v90 (ix2 0 y) := fun y => by
    show V c main_v90 (((cfg2.win 5).blk t).view.emb (ix2 0 y)) = _
    refine congrArg (V c main_v90) (funext fun a => Fin.ext ?_)
    match a with
    | ⟨0, _⟩ => show win2_5.index t (0 : Fin 2) * 1 + 1 * 0 = 0; omega
    | ⟨1, _⟩ => show win2_5.index t (1 : Fin 2) * 128 + 1 * y.val = y.val; omega
  have hb2 : ∀ y : Fin 128, iblk2 V c 7 t (ix2 0 y) = V c main_v91 (ix2 0 y) := fun y => by
    show V c main_v91 (((cfg2.win 7).blk t).view.emb (ix2 0 y)) = _
    refine congrArg (V c main_v91) (funext fun a => Fin.ext ?_)
    match a with
    | ⟨0, _⟩ => show win2_7.index t (0 : Fin 2) * 1 + 1 * 0 = 0; omega
    | ⟨1, _⟩ => show win2_7.index t (1 : Fin 2) * 128 + 1 * y.val = y.val; omega
  have hq : ((cfg2.win 8).blk t).view.emb (ix2 p q) 1 = q :=
    Fin.ext (by show win2_8.index t (1 : Fin 2) * 128 + 1 * q.val = q.val; omega)
  unfold G bLayer bHid
  simp only [hh, ha, hw1, hw2, hb1, hs, hsh, hb2, hq]

/-- An index of the table is in point t's block iff its row is in the block's range. -/
theorem mem_blk (t : Fin cfg2.N) (i : S100000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v92).slice (win2_8.rect t)).set ↔ _
  rw [View.set_slice_whole, Rect.mem_set_unit]
  exact Iff.rfl

/-- Every index of the table is in the block of the point that holds its row. -/
theorem cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  obtain ⟨t, ht⟩ := onto ⟨(i 0).val / 2000, by omega⟩
  have q0 : win2_8.index t (0 : Fin 2) = (i 0).val / 2000 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

/-- After the launch the result array holds the layer on the whole table. -/
theorem final (c : Dev nD) : (dat2 V c).arrAt 8 cfg2.N = G V c :=
  (dat2 V c).arrAt_eq_of_cover 8 (G V c) (fun t _ => flushed V c t) cover

end Cert.Gin.Region2

end
-- ==== Proof.KRegion3.lean ====
/-
  The fourth launch on the whole table.

  The launch runs the layer of Block.lean on 50 blocks of 2000 rows. Block t of the node table, of the
  neighbour sums and of the result are rows 2000 t to 2000 t + 1999; the two matrices and the four rows
  are the same whole arrays at every point. So what point t writes back is block t of ONE function of the
  arrays as the launch finds them: the layer on all 100000 rows. The 50 blocks tile the table (row r lies in
  block r / 2000), so after the launch the result array holds that function.
-/
import proofs.«179956_j20864951124664_2_alg».proof.Proof.Gen.KernelIdeal.Frame
import proofs.«179956_j20864951124664_2_alg».proof.Proof.KBody

set_option maxRecDepth 16384

noncomputable section

open scoped BigOperators

namespace Cert.Gin.Region3

open Cert.KernelIdeal Cert.KernelIdeal.Gen Cert.Gin Cert.Gin.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three tables move with the point along the rows, the parameters stay. -/
theorem idx : ∀ t : Fin cfg3.N,
      win3_0.index t (0 : Fin 2) = win3_8.index t (0 : Fin 2) ∧ win3_0.index t (1 : Fin 2) = 0
    ∧ win3_1.index t (0 : Fin 2) = win3_8.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (1 : Fin 2) = 0 :=
  (by decide +kernel : ∀ t : Fin grid3.N, _)

/-- Every block of rows is some point's. -/
theorem onto : ∀ q0 : Fin 50, ∃ t : Fin cfg3.N, win3_8.index t = ![q0.val, 0] :=
  (by decide +kernel : ∀ q0 : Fin 50, ∃ t : Fin grid3.N, win3_8.index t = ![q0.val, 0])

/-- The layer on the whole table, of the arrays as the launch finds them. -/
def G (c : Dev nD) : S100000x128.Idx → EReal := fun i =>
  bLayer (n := 100000) (V c main_v92) (V c main_v102) (V c main_v104) (V c main_v115) (V c main_v116) (V c main_v117)
    (V c main_v112) (V c main_v118) (i 0) (i 1)

set_option maxHeartbeats 2000000 in
/-- What point t writes back is block t of that function. -/
theorem flushed (c : Dev nD) (t : Fin cfg3.N) :
    (dat3 V c).flushed 8 t = ((cfg3.win 8).blk t).view.read (Elt Ideal) (G V c) := by
  show (cfg3.win 8).cut (grid3.coords t) ((dat3 V c).after 8 t) = _
  rw [after3_8]
  unfold out3_8
  rw [View.canon_unit_zero hz]
  simp only [View.ld_unit_zero (S := S2000x128) hz, View.ld_unit_zero (S := S128x128) hz, View.ld_unit_zero (S := S1x128) hz]
  obtain ⟨a0, a1, b0, b1, c0, c1, d0, d1, e0, e1, f0, f1, g0, g1, h0, h1, o1⟩ := idx t
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (iblk3 V c 3 t) (iblk3 V c 4 t)
      (iblk3 V c 5 t) (iblk3 V c 6 t) (iblk3 V c 7 t) (ix2 p q)
    = G V c (((cfg3.win 8).blk t).view.emb (ix2 p q))
  refine (pay3 (iblk3 V c 0 t) (iblk3 V c 1 t) (iblk3 V c 2 t) (iblk3 V c 3 t) (iblk3 V c 4 t)
      (iblk3 V c 5 t) (iblk3 V c 6 t) (iblk3 V c 7 t) p q).trans ?_
  have hh : ∀ k : Fin 128, iblk3 V c 0 t (ix2 p k)
      = V c main_v92 (ix2 (((cfg3.win 8).blk t).view.emb (ix2 p q) 0) k) := fun k => by
    show V c main_v92 (((cfg3.win 0).blk t).view.emb (ix2 p k)) = _
    refine congrArg (V c main_v92) (funext fun a => Fin.ext ?_)
    match a with
    | ⟨0, _⟩ => show win3_0.index t (0 : Fin 2) * 2000 + 1 * p.val = win3_8.index t (0 : Fin 2) * 2000 + 1 * p.val; omega
    | ⟨1, _⟩ => show win3_0.index t (1 : Fin 2) * 128 + 1 * k.val = k.val; omega
  have ha : ∀ k : Fin 128, iblk3 V c 1 t (ix2 p k)
      = V c main_v102 (ix2 (((cfg3.win 8).blk t).view.emb (ix2 p q) 0) k) := fun k => by
    show V c main_v102 (((cfg3.win 1).blk t).view.emb (ix2 p k)) = _
    refine congrArg (V c main_v102) (funext fun a => Fin.ext ?_)
    match a with
    | ⟨0, _⟩ => show win3_1.index t (0 : Fin 2) * 2000 + 1 * p.val = win3_8.index t (0 : Fin 2) * 2000 + 1 * p.val; omega
    | ⟨1, _⟩ => show win3_1.index t (1 : Fin 2) * 128 + 1 * k.val = k.val; omega
  have hw1 : ∀ x y : Fin 128, iblk3 V c 2 t (ix2 x y) = V c main_v104 (ix2 x y) := fun x y => by
    show V c main_v104 (((cfg3.win 2).blk t).view.emb (ix2 x y)) = _
    refine congrArg (V c main_v104) (funext fun a => Fin.ext ?_)
    match a with
    | ⟨0, _⟩ => show win3_2.index t (0 : Fin 2) * 128 + 1 * x.val = x.val; omega
    | ⟨1, _⟩ => show win3_2.index t (1 : Fin 2) * 128 + 1 * y.val = y.val; omega
  have hw2 : ∀ x y : Fin 128, iblk3 V c 6 t (ix2 x y) = V c main_v112 (ix2 x y) := fun x y => by
    show V c main_v112 (((cfg3.win 6).blk t).view.emb (ix2 x y)) = _
    refine congrArg (V c main_v112) (funext fun a => Fin.ext ?_)
    match a with
    | ⟨0, _⟩ => show win3_6.index t (0 : Fin 2) * 128 + 1 * x.val = x.val; omega
    | ⟨1, _⟩ => show win3_6.index t (1 : Fin 2) * 128 + 1 * y.val = y.val; omega
  have hb1 : ∀ y : Fin 128, iblk3 V c 3 t (ix2 0 y) = V c main_v115 (ix2 0 y) := fun y => by
    show V c main_v115 (((cfg3.win 3).blk t).view.emb (ix2 0 y)) = _
    refine congrArg (V c main_v115) (funext fun a => Fin.ext ?_)
    match a with
    | ⟨0, _⟩ => show win3_3.index t (0 : Fin 2) * 1 + 1 * 0 = 0; omega
    | ⟨1, _⟩ => show win3_3.index t (1 : Fin 2) * 128 + 1 * y.val = y.val; omega
  have hs : ∀ y : Fin 128, iblk3 V c 4 t (ix2 0 y) = V c main_v116 (ix2 0 y) := fun y => by
    show V c main_v116 (((cfg3.win 4).blk t).view.emb (ix2 0 y)) = _
    refine congrArg (V c main_v116) (funext fun a => Fin.ext ?_)
    match a with
    | ⟨0, _⟩ => show win3_4.index t (0 : Fin 2) * 1 + 1 * 0 = 0; omega
    | ⟨1, _⟩ => show win3_4.index t (1 : Fin 2) * 128 + 1 * y.val = y.val; omega
  have hsh : ∀ y : Fin 128, iblk3 V c 5 t (ix2 0 y) = V c main_v117 (ix2 0 y) := fun y => by
    show V c main_v117 (((cfg3.win 5).blk t).view.emb (ix2 0 y)) = _
    refine congrArg (V c main_v117) (funext fun a => Fin.ext ?_)
    match a with
    | ⟨0, _⟩ => show win3_5.index t (0 : Fin 2) * 1 + 1 * 0 = 0; omega
    | ⟨1, _⟩ => show win3_5.index t (1 : Fin 2) * 128 + 1 * y.val = y.val; omega
  have hb2 : ∀ y : Fin 128, iblk3 V c 7 t (ix2 0 y) = V c main_v118 (ix2 0 y) := fun y => by
    show V c main_v118 (((cfg3.win 7).blk t).view.emb (ix2 0 y)) = _
    refine congrArg (V c main_v118) (funext fun a => Fin.ext ?_)
    match a with
    | ⟨0, _⟩ => show win3_7.index t (0 : Fin 2) * 1 + 1 * 0 = 0; omega
    | ⟨1, _⟩ => show win3_7.index t (1 : Fin 2) * 128 + 1 * y.val = y.val; omega
  have hq : ((cfg3.win 8).blk t).view.emb (ix2 p q) 1 = q :=
    Fin.ext (by show win3_8.index t (1 : Fin 2) * 128 + 1 * q.val = q.val; omega)
  unfold G bLayer bHid
  simp only [hh, ha, hw1, hw2, hb1, hs, hsh, hb2, hq]

/-- An index of the table is in point t's block iff its row is in the block's range. -/
theorem mem_blk (t : Fin cfg3.N) (i : S100000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v119).slice (win3_8.rect t)).set ↔ _
  rw [View.set_slice_whole, Rect.mem_set_unit]
  exact Iff.rfl

/-- Every index of the table is in the block of the point that holds its row. -/
theorem cover (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  obtain ⟨t, ht⟩ := onto ⟨(i 0).val / 2000, by omega⟩
  have q0 : win3_8.index t (0 : Fin 2) = (i 0).val / 2000 := congrFun ht 0
  have q1 : win3_8.index t (1 : Fin 2) = 0 := congrFun ht 1
  refine ⟨t, flush3_8 t, ?_⟩
  rw [mem_blk]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 128 ≤ (i 1).val ∧ (i 1).val < win3_8.index t (1 : Fin 2) * 128 + 128; omega

/-- After the launch the result array holds the layer on the whole table. -/
theorem final (c : Dev nD) : (dat3 V c).arrAt 8 cfg3.N = G V c :=
  (dat3 V c).arrAt_eq_of_cover 8 (G V c) (fun t _ => flushed V c t) cover

end Cert.Gin.Region3

end
-- ==== Proof.KRegion4.lean ====
/-
  The fifth launch on the whole table.

  It runs the layer of Block.lean and then, on the same rows, the head: a dense layer clamped at zero, a
  dense layer onto 128 lanes, the lanes from the tenth on filled with the bottom element, and the logarithm
  of the softmax along the lanes. Block t of the node table, of the neighbour sums and of the result are
  rows 2000 t to 2000 t + 1999; the four matrices and the six rows are the same whole arrays at every point.
  So what point t writes back is block t of one function of the arrays as the launch finds them, and since
  the 50 blocks tile the table, the result array ends holding that function.
-/
import proofs.«179956_j20864951124664_2_alg».proof.Proof.Gen.KernelIdeal.Frame
import proofs.«179956_j20864951124664_2_alg».proof.Proof.KBody

set_option maxRecDepth 16384

noncomputable section

open scoped BigOperators

namespace Cert.Gin.Region4

open Cert.KernelIdeal Cert.KernelIdeal.Gen Cert.Gin Cert.Gin.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three tables move with the point along the rows, the parameters stay. -/
theorem idx : ∀ t : Fin cfg4.N,
      win4_0.index t (0 : Fin 2) = win4_12.index t (0 : Fin 2) ∧ win4_0.index t (1 : Fin 2) = 0
    ∧ win4_1.index t (0 : Fin 2) = win4_12.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (1 : Fin 2) = 0 :=
  (by decide +kernel : ∀ t : Fin grid4.N, _)

/-- Every block of rows is some point's. -/
theorem onto : ∀ q0 : Fin 50, ∃ t : Fin cfg4.N, win4_12.index t = ![q0.val, 0] :=
  (by decide +kernel : ∀ q0 : Fin 50, ∃ t : Fin grid4.N, win4_12.index t = ![q0.val, 0])

/-- The layer and the head on the whole table, of the arrays as the launch finds them. -/
def G (c : Dev nD) : S100000x128.Idx → EReal := fun i =>
  bOut (n := 100000)
    (fun r k => bLayer (n := 100000) (V c main_v119) (V c main_v129) (V c main_v131) (V c main_v142) (V c main_v143) (V c main_v144)
      (V c main_v139) (V c main_v145) r k)
    (V c main_arg10) (V c main_v146) (V c main_v10) (V c main_v147) (i 0) (i 1)

set_option maxHeartbeats 4000000 in
/-- What point t writes back is block t of that function. -/
theorem flushed (c : Dev nD) (t : Fin cfg4.N) :
    (dat4 V c).flushed 12 t = ((cfg4.win 12).blk t).view.read (Elt Ideal) (G V c) := by
  show (cfg4.win 12).cut (grid4.coords t) ((dat4 V c).after 12 t) = _
  rw [after4_12]
  unfold out4_12
  rw [View.canon_unit_zero hz]
  simp only [View.ld_unit_zero (S := S2000x128) hz, View.ld_unit_zero (S := S128x128) hz, View.ld_unit_zero (S := S1x128) hz]
  obtain ⟨a0, a1, b0, b1, c0, c1, d0, d1, e0, e1, f0, f1, g0, g1, h0, h1, i0, i1, j0, j1, k0, k1, l0, l1, o1⟩ := idx t
  funext j
  obtain ⟨p, q, rfl⟩ : ∃ (p : Fin 2000) (q : Fin 128), j = ix2 p q := ⟨j 0, j 1, eq_ix2 j⟩
  show k4_pay1 (k4_pay2 (iblk4 V c 0 t) (iblk4 V c 1 t) (iblk4 V c 2 t) (iblk4 V c 3 t) (iblk4 V c 4 t)
        (iblk4 V c 5 t) (iblk4 V c 6 t) (iblk4 V c 7 t))
      (iblk4 V c 8 t) (iblk4 V c 9 t) (iblk4 V c 10 t) (iblk4 V c 11 t) (ix2 p q)
    = G V c (((cfg4.win 12).blk t).view.emb (ix2 p q))
  refine (pay4 (k4_pay2 (iblk4 V c 0 t) (iblk4 V c 1 t) (iblk4 V c 2 t) (iblk4 V c 3 t) (iblk4 V c 4 t)
        (iblk4 V c 5 t) (iblk4 V c 6 t) (iblk4 V c 7 t))
      (iblk4 V c 8 t) (iblk4 V c 9 t) (iblk4 V c 10 t) (iblk4 V c 11 t) p q).trans ?_
  have hh : ∀ k : Fin 128, iblk4 V c 0 t (ix2 p k)
      = V c main_v119 (ix2 (((cfg4.win 12).blk t).view.emb (ix2 p q) 0) k) := fun k => by
    show V c main_v119 (((cfg4.win 0).blk t).view.emb (ix2 p k)) = _
    refine congrArg (V c main_v119) (funext fun a => Fin.ext ?_)
    match a with
    | ⟨0, _⟩ => show win4_0.index t (0 : Fin 2) * 2000 + 1 * p.val = win4_12.index t (0 : Fin 2) * 2000 + 1 * p.val; omega
    | ⟨1, _⟩ => show win4_0.index t (1 : Fin 2) * 128 + 1 * k.val = k.val; omega
  have ha : ∀ k : Fin 128, iblk4 V c 1 t (ix2 p k)
      = V c main_v129 (ix2 (((cfg4.win 12).blk t).view.emb (ix2 p q) 0) k) := fun k => by
    show V c main_v129 (((cfg4.win 1).blk t).view.emb (ix2 p k)) = _
    refine congrArg (V c main_v129) (funext fun a => Fin.ext ?_)
    match a with
    | ⟨0, _⟩ => show win4_1.index t (0 : Fin 2) * 2000 + 1 * p.val = win4_12.index t (0 : Fin 2) * 2000 + 1 * p.val; omega
    | ⟨1, _⟩ => show win4_1.index t (1 : Fin 2) * 128 + 1 * k.val = k.val; omega
  have hw1 : ∀ x y : Fin 128, iblk4 V c 2 t (ix2 x y) = V c main_v131 (ix2 x y) := fun x y => by
    show V c main_v131 (((cfg4.win 2).blk t).view.emb (ix2 x y)) = _
    refine congrArg (V c main_v131) (funext fun a => Fin.ext ?_)
    match a with
    | ⟨0, _⟩ => show win4_2.index t (0 : Fin 2) * 128 + 1 * x.val = x.val; omega
    | ⟨1, _⟩ => show win4_2.index t (1 : Fin 2) * 128 + 1 * y.val = y.val; omega
  have hb1 : ∀ y : Fin 128, iblk4 V c 3 t (ix2 0 y) = V c main_v142 (ix2 0 y) := fun y => by
    show V c main_v142 (((cfg4.win 3).blk t).view.emb (ix2 0 y)) = _
    refine congrArg (V c main_v142) (funext fun a => Fin.ext ?_)
    match a with
    | ⟨0, _⟩ => show win4_3.index t (0 : Fin 2) * 1 + 1 * 0 = 0; omega
    | ⟨1, _⟩ => show win4_3.index t (1 : Fin 2) * 128 + 1 * y.val = y.val; omega
  have hs : ∀ y : Fin 128, iblk4 V c 4 t (ix2 0 y) = V c main_v143 (ix2 0 y) := fun y => by
    show V c main_v143 (((cfg4.win 4).blk t).view.emb (ix2 0 y)) = _
    refine congrArg (V c main_v143) (funext fun a => Fin.ext ?_)
    match a with
    | ⟨0, _⟩ => show win4_4.index t (0 : Fin 2) * 1 + 1 * 0 = 0; omega
    | ⟨1, _⟩ => show win4_4.index t (1 : Fin 2) * 128 + 1 * y.val = y.val; omega
  have hsh : ∀ y : Fin 128, iblk4 V c 5 t (ix2 0 y) = V c main_v144 (ix2 0 y) := fun y => by
    show V c main_v144 (((cfg4.win 5).blk t).view.emb (ix2 0 y)) = _
    refine congrArg (V c main_v144) (funext fun a => Fin.ext ?_)
    match a with
    | ⟨0, _⟩ => show win4_5.index t (0 : Fin 2) * 1 + 1 * 0 = 0; omega
    | ⟨1, _⟩ => show win4_5.index t (1 : Fin 2) * 128 + 1 * y.val = y.val; omega
  have hw2 : ∀ x y : Fin 128, iblk4 V c 6 t (ix2 x y) = V c main_v139 (ix2 x y) := fun x y => by
    show V c main_v139 (((cfg4.win 6).blk t).view.emb (ix2 x y)) = _
    refine congrArg (V c main_v139) (funext fun a => Fin.ext ?_)
    match a with
    | ⟨0, _⟩ => show win4_6.index t (0 : Fin 2) * 128 + 1 * x.val = x.val; omega
    | ⟨1, _⟩ => show win4_6.index t (1 : Fin 2) * 128 + 1 * y.val = y.val; omega
  have hb2 : ∀ y : Fin 128, iblk4 V c 7 t (ix2 0 y) = V c main_v145 (ix2 0 y) := fun y => by
    show V c main_v145 (((cfg4.win 7).blk t).view.emb (ix2 0 y)) = _
    refine congrArg (V c main_v145) (funext fun a => Fin.ext ?_)
    match a with
    | ⟨0, _⟩ => show win4_7.index t (0 : Fin 2) * 1 + 1 * 0 = 0; omega
    | ⟨1, _⟩ => show win4_7.index t (1 : Fin 2) * 128 + 1 * y.val = y.val; omega
  have hl1 : ∀ x y : Fin 128, iblk4 V c 8 t (ix2 x y) = V c main_arg10 (ix2 x y) := fun x y => by
    show V c main_arg10 (((cfg4.win 8).blk t).view.emb (ix2 x y)) = _
    refine congrArg (V c main_arg10) (funext fun a => Fin.ext ?_)
    match a with
    | ⟨0, _⟩ => show win4_8.index t (0 : Fin 2) * 128 + 1 * x.val = x.val; omega
    | ⟨1, _⟩ => show win4_8.index t (1 : Fin 2) * 128 + 1 * y.val = y.val; omega
  have hlb1 : ∀ y : Fin 128, iblk4 V c 9 t (ix2 0 y) = V c main_v146 (ix2 0 y) := fun y => by
    show V c main_v146 (((cfg4.win 9).blk t).view.emb (ix2 0 y)) = _
    refine congrArg (V c main_v146) (funext fun a => Fin.ext ?_)
    match a with
    | ⟨0, _⟩ => show win4_9.index t (0 : Fin 2) * 1 + 1 * 0 = 0; omega
    | ⟨1, _⟩ => show win4_9.index t (1 : Fin 2) * 128 + 1 * y.val = y.val; omega
  have hl2 : ∀ x y : Fin 128, iblk4 V c 10 t (ix2 x y) = V c main_v10 (ix2 x y) := fun x y => by
    show V c main_v10 (((cfg4.win 10).blk t).view.emb (ix2 x y)) = _
    refine congrArg (V c main_v10) (funext fun a => Fin.ext ?_)
    match a with
    | ⟨0, _⟩ => show win4_10.index t (0 : Fin 2) * 128 + 1 * x.val = x.val; omega
    | ⟨1, _⟩ => show win4_10.index t (1 : Fin 2) * 128 + 1 * y.val = y.val; omega
  have hlb2 : ∀ y : Fin 128, iblk4 V c 11 t (ix2 0 y) = V c main_v147 (ix2 0 y) := fun y => by
    show V c main_v147 (((cfg4.win 11).blk t).view.emb (ix2 0 y)) = _
    refine congrArg (V c main_v147) (funext fun a => Fin.ext ?_)
    match a with
    | ⟨0, _⟩ => show win4_11.index t (0 : Fin 2) * 1 + 1 * 0 = 0; omega
    | ⟨1, _⟩ => show win4_11.index t (1 : Fin 2) * 128 + 1 * y.val = y.val; omega
  have hq : ((cfg4.win 12).blk t).view.emb (ix2 p q) 1 = q :=
    Fin.ext (by show win4_12.index t (1 : Fin 2) * 128 + 1 * q.val = q.val; omega)
  unfold G bOut bMask bLogit bHead1
  simp only [pay4a]
  unfold bLayer bHid
  simp only [hh, ha, hw1, hw2, hb1, hs, hsh, hb2, hl1, hlb1, hl2, hlb2, hq]

/-- An index of the table is in point t's block iff its row is in the block's range. -/
theorem mem_blk (t : Fin cfg4.N) (i : S100000x128.Idx) :
    i ∈ ((cfg4.win 12).blk t).view.set ↔ ∀ a : Fin 2, win4_12.index t a * S2000x128.size a ≤ (i a).val
      ∧ (i a).val < win4_12.index t a * S2000x128.size a + S2000x128.size a := by
  show i ∈ ((View.whole main_v148).slice (win4_12.rect t)).set ↔ _
  rw [View.set_slice_whole, Rect.mem_set_unit]
  exact Iff.rfl

/-- Every index of the table is in the block of the point that holds its row. -/
theorem cover (i : S100000x128.Idx) :
    ∃ t : Fin cfg4.N, (cfg4.win 12).flush t = true ∧ i ∈ ((cfg4.win 12).blk t).view.set := by
  have hi0 : (i 0).val < 100000 := (i 0).isLt
  have hi1 : (i 1).val < 128 := (i 1).isLt
  obtain ⟨t, ht⟩ := onto ⟨(i 0).val / 2000, by omega⟩
  have q0 : win4_12.index t (0 : Fin 2) = (i 0).val / 2000 := congrFun ht 0
  have q1 : win4_12.index t (1 : Fin 2) = 0 := congrFun ht 1
  refine ⟨t, flush4_12 t, ?_⟩
  rw [mem_blk]
  intro a
  match a with
  | ⟨0, _⟩ => show win4_12.index t (0 : Fin 2) * 2000 ≤ (i 0).val ∧ (i 0).val < win4_12.index t (0 : Fin 2) * 2000 + 2000; omega
  | ⟨1, _⟩ => show win4_12.index t (1 : Fin 2) * 128 ≤ (i 1).val ∧ (i 1).val < win4_12.index t (1 : Fin 2) * 128 + 128; omega

/-- After the launch the result array holds the layer and the head on the whole table. -/
theorem final (c : Dev nD) : (dat4 V c).arrAt 12 cfg4.N = G V c :=
  (dat4 V c).arrAt_eq_of_cover 12 (G V c) (fun t _ => flushed V c t) cover

end Cert.Gin.Region4

end
-- ==== Proof.KTerms.lean ====
/-
  The host side of the kernel program, as terms.

  Between the launches the program prepares each launch's operands on the host: the edge list's two
  rows (source and destination nodes), the neighbour sums (gather the source rows of the table, add
  them into the destination rows of a zero table), the folded normalisation's scale
  gamma / sqrt(var + eps) and shift beta - mean * scale on all five layers at once, layer l's matrices
  and rows cut out of the stacked parameters, and the last dense layer's weights and bias extended by
  zero columns. Each is named here once, as the composition of library operations the program prints.
-/
import proofs.«179956_j20864951124664_2_alg».proof.Proof.Gen.KernelIdeal

noncomputable section

namespace Cert.Gin.K

open Cert.KernelIdeal Cert.KernelIdeal.Gen Idealize.ShloMosaic Idealize.ShloMosaic.TcCoe

/-- The edge list's first row: the source node of every edge. -/
def srcIx (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edge list's second row: the destination node of every edge. -/
def dstIx (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The neighbour sums of a table: the rows at the (wrapped) source nodes, added into a zero table at the
    destination nodes. -/
def aggOf (src dst : (⟨S1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The folded scale on all five layers: gamma / sqrt(var + eps). -/
def scaleArr (gamma var : (⟨S5x128, .f32⟩ : BufTy).Contents (Elt Ideal)) : (⟨S5x128, .f32⟩ : BufTy).Contents (Elt Ideal) :=
  Host.divf (F := Ideal) gamma (Host.sqrt (F := Ideal) (addf var (broadcastInDim S5x128 ![] bcast_S_S5x128 (constant (F := Ideal) S_ .f32 0x3727C5AC#32))))

/-- The folded shift on all five layers: beta - mean * scale. -/
def shiftArr (beta mean sc : (⟨S5x128, .f32⟩ : BufTy).Contents (Elt Ideal)) : (⟨S5x128, .f32⟩ : BufTy).Contents (Elt Ideal) :=
  subf (F := Ideal) (s := S5x128) (φ := .f32) beta (mulf mean sc)

/-- One square matrix cut out of a stack of five. -/
def sqSlice (off : Fin 3 → Nat) (hs : S5x128x128.Slices off S1x128x128) (A : (⟨S5x128x128, .f32⟩ : BufTy).Contents (Elt Ideal)) :
    (⟨S128x128, .f32⟩ : BufTy).Contents (Elt Ideal) :=
  shapeCast S128x128 (extractStridedSlice S1x128x128 off A hs) shapeCasts_S1x128x128_S128x128

/-- One row cut out of a stack of five, as a 1 x 128 array. -/
def rowSlice (off : Fin 2 → Nat) (hs : S5x128.Slices off S1x128) (A : (⟨S5x128, .f32⟩ : BufTy).Contents (Elt Ideal)) :
    (⟨S1x128, .f32⟩ : BufTy).Contents (Elt Ideal) :=
  shapeCast S1x128 (shapeCast S128 (extractStridedSlice S1x128 off A hs) shapeCasts_S1x128_S128) shapeCasts_S128_S1x128

/-- The last dense layer's weights extended to 128 columns by zeros. -/
def padWArr (w : (⟨S128x10, .f32⟩ : BufTy).Contents (Elt Ideal)) : (⟨S128x128, .f32⟩ : BufTy).Contents (Elt Ideal) :=
  pad S128x128 ![0, 0] ![0, 118] ![0, 0] w (sitofp (F := Ideal) .f32 (constantI S_ 32 0#32)) pads_S128x10_S128x128_000_01180 h_S_

/-- The last dense layer's bias extended to 128 entries by zeros. -/
def padBArr (b : (⟨S10, .f32⟩ : BufTy).Contents (Elt Ideal)) : (⟨S128, .f32⟩ : BufTy).Contents (Elt Ideal) :=
  pad S128 ![0] ![118] ![0] b (sitofp (F := Ideal) .f32 (constantI S_ 32 0#32)) pads_S10_S128_01180 h_S_

end Cert.Gin.K

end
-- ==== Proof.KStage0.lean ====
/-
  What the first launch finds.

  Before the first launch the host has prepared, from the argument arrays: the edge list's two rows, the
  folded scale and shift of all five layers, the padded last layer, the neighbour sums of the input
  table, and the first layer's matrices and rows. Each buffer is read here as its term of the arguments.
-/
import proofs.«179956_j20864951124664_2_alg».proof.Proof.Gen.KernelIdeal.Frame
import proofs.«179956_j20864951124664_2_alg».proof.Proof.KTerms
import Idealize.ShloMosaic.Lib.StableHlo.Run

set_option maxRecDepth 16384

noncomputable section

namespace Cert.Gin.Stage0

open Cert.KernelIdeal Cert.KernelIdeal.Gen Cert.Gin.K
open Idealize.ShloMosaic Idealize.ShloMosaic.TcCoe Idealize.SL.Sem Idealize.ShloMosaic.StableHlo

variable (m : (ℓ : Loc nD τ sig) → Buf (Elt Ideal) ℓ) (ρ : Dev nD → PrngReg)

/-- Read a buffer after the first five host stretches: every operation's result rewritten in turn. -/
macro "read5" : tactic =>
  `(tactic| (dsimp only [W5, W4, W3, W2, W1, W0]
             simp only [hostOps0, hostOps0_1, hostOps0_2, hostOps0_3, hostOps0_4]
             after_results_simp))

set_option maxHeartbeats 4000000 in
theorem x (c : Dev nD) : W5 m ρ c (Proc.devRef .tc main_arg0) = m ((c : Thread nD τ).loc main_arg0) := by
  read5

set_option maxHeartbeats 4000000 in
theorem src (c : Dev nD) : W5 m ρ c (Proc.devRef .tc main_v1) = srcIx (m ((c : Thread nD τ).loc main_arg1)) := by
  read5
  set_option maxRecDepth 200000 in rfl

set_option maxHeartbeats 4000000 in
theorem dst (c : Dev nD) : W5 m ρ c (Proc.devRef .tc main_v3) = dstIx (m ((c : Thread nD τ).loc main_arg1)) := by
  read5
  set_option maxRecDepth 200000 in rfl

set_option maxHeartbeats 4000000 in
theorem sc (c : Dev nD) : W5 m ρ c (Proc.devRef .tc main_v7) = scaleArr (m ((c : Thread nD τ).loc main_arg4)) (m ((c : Thread nD τ).loc main_arg7)) := by
  read5
  set_option maxRecDepth 200000 in rfl

set_option maxHeartbeats 4000000 in
theorem shf (c : Dev nD) : W5 m ρ c (Proc.devRef .tc main_v9) = shiftArr (m ((c : Thread nD τ).loc main_arg5)) (m ((c : Thread nD τ).loc main_arg6)) (scaleArr (m ((c : Thread nD τ).loc main_arg4)) (m ((c : Thread nD τ).loc main_arg7))) := by
  read5
  set_option maxRecDepth 200000 in rfl

set_option maxHeartbeats 4000000 in
theorem padw (c : Dev nD) : W5 m ρ c (Proc.devRef .tc main_v10) = padWArr (m ((c : Thread nD τ).loc main_arg12)) := by
  read5
  set_option maxRecDepth 200000 in rfl

set_option maxHeartbeats 4000000 in
theorem padb (c : Dev nD) : W5 m ρ c (Proc.devRef .tc main_v11) = padBArr (m ((c : Thread nD τ).loc main_arg13)) := by
  read5
  set_option maxRecDepth 200000 in rfl

set_option maxHeartbeats 4000000 in
theorem agg (c : Dev nD) : W5 m ρ c (Proc.devRef .tc main_v21) = aggOf (srcIx (m ((c : Thread nD τ).loc main_arg1))) (dstIx (m ((c : Thread nD τ).loc main_arg1))) (m ((c : Thread nD τ).loc main_arg0)) := by
  read5
  set_option maxRecDepth 200000 in rfl

set_option maxHeartbeats 4000000 in
theorem w1 (c : Dev nD) : W5 m ρ c (Proc.devRef .tc main_v23) = sqSlice ![0, 0, 0] slices_S5x128x128_S1x128x128_0_0_0 (m ((c : Thread nD τ).loc main_arg2)) := by
  read5
  set_option maxRecDepth 200000 in rfl

set_option maxHeartbeats 4000000 in
theorem b1 (c : Dev nD) : W5 m ρ c (Proc.devRef .tc main_v34) = rowSlice ![0, 0] slices_S5x128_S1x128_0_0 (m ((c : Thread nD τ).loc main_arg3)) := by
  read5
  set_option maxRecDepth 200000 in rfl

set_option maxHeartbeats 4000000 in
theorem s (c : Dev nD) : W5 m ρ c (Proc.devRef .tc main_v35) = rowSlice ![0, 0] slices_S5x128_S1x128_0_0 (scaleArr (m ((c : Thread nD τ).loc main_arg4)) (m ((c : Thread nD τ).loc main_arg7))) := by
  read5
  set_option maxRecDepth 200000 in rfl

set_option maxHeartbeats 4000000 in
theorem sh (c : Dev nD) : W5 m ρ c (Proc.devRef .tc main_v36) = rowSlice ![0, 0] slices_S5x128_S1x128_0_0 (shiftArr (m ((c : Thread nD τ).loc main_arg5)) (m ((c : Thread nD τ).loc main_arg6)) (scaleArr (m ((c : Thread nD τ).loc main_arg4)) (m ((c : Thread nD τ).loc main_arg7)))) := by
  read5
  set_option maxRecDepth 200000 in rfl

set_option maxHeartbeats 4000000 in
theorem w2 (c : Dev nD) : W5 m ρ c (Proc.devRef .tc main_v31) = sqSlice ![0, 0, 0] slices_S5x128x128_S1x128x128_0_0_0 (m ((c : Thread nD τ).loc main_arg8)) := by
  read5
  set_option maxRecDepth 200000 in rfl

set_option maxHeartbeats 4000000 in
theorem b2 (c : Dev nD) : W5 m ρ c (Proc.devRef .tc main_v37) = rowSlice ![0, 0] slices_S5x128_S1x128_0_0 (m ((c : Thread nD τ).loc main_arg9)) := by
  read5
  set_option maxRecDepth 200000 in rfl

set_option maxHeartbeats 4000000 in
theorem arg2 (c : Dev nD) : W5 m ρ c (Proc.devRef .tc main_arg2) = m ((c : Thread nD τ).loc main_arg2) := by
  read5

set_option maxHeartbeats 4000000 in
theorem arg3 (c : Dev nD) : W5 m ρ c (Proc.devRef .tc main_arg3) = m ((c : Thread nD τ).loc main_arg3) := by
  read5

set_option maxHeartbeats 4000000 in
theorem arg8 (c : Dev nD) : W5 m ρ c (Proc.devRef .tc main_arg8) = m ((c : Thread nD τ).loc main_arg8) := by
  read5

set_option maxHeartbeats 4000000 in
theorem arg9 (c : Dev nD) : W5 m ρ c (Proc.devRef .tc main_arg9) = m ((c : Thread nD τ).loc main_arg9) := by
  read5

set_option maxHeartbeats 4000000 in
theorem arg10 (c : Dev nD) : W5 m ρ c (Proc.devRef .tc main_arg10) = m ((c : Thread nD τ).loc main_arg10) := by
  read5

set_option maxHeartbeats 4000000 in
theorem arg11 (c : Dev nD) : W5 m ρ c (Proc.devRef .tc main_arg11) = m ((c : Thread nD τ).loc main_arg11) := by
  read5

end Cert.Gin.Stage0

end
-- ==== Proof.KKeep.lean ====
/-
  Buffers that keep their contents through the kernel program's run.

  The kernel program's @main is five regions among stretches of host operations; the contents of
  every buffer at each boundary are a fold from the launch memory. A buffer that no operation of a
  stretch writes keeps its contents through the stretch, and a buffer that is not one of a region's
  arrays keeps its contents through the region. Hence the argument arrays hold their launch
  contents at the first region's entry, and the values the first stretches compute once (the two
  rows of the edge list, the gathered rows, the zero table, the destination column) and the
  parameter arrays still hold at the entry of each later region what they held at the first
  region's entry.
-/
import proofs.«179956_j20864951124664_2_alg».proof.Proof.Gen.KernelIdeal.Frame
import Idealize.ShloMosaic.Lib.StableHlo.Run

set_option maxRecDepth 16384

noncomputable section

namespace Cert.Gin.Keep

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments at the first region's entry

No operation of the stretches before the first region writes an argument array: read through the
fold, each holds its launch contents. -/

set_option maxHeartbeats 4000000 in
theorem arg5_0 (c : Dev nD) : W5 m ρ c (Proc.devRef .tc main_arg0) = m ((c : Thread nD τ).loc main_arg0) := by
  dsimp only [W5, W4, W3, W2, W1, W0]
  simp only [hostOps0, hostOps0_1, hostOps0_2, hostOps0_3, hostOps0_4]
  after_results_simp

set_option maxHeartbeats 4000000 in
theorem arg5_1 (c : Dev nD) : W5 m ρ c (Proc.devRef .tc main_arg1) = m ((c : Thread nD τ).loc main_arg1) := by
  dsimp only [W5, W4, W3, W2, W1, W0]
  simp only [hostOps0, hostOps0_1, hostOps0_2, hostOps0_3, hostOps0_4]
  after_results_simp

set_option maxHeartbeats 4000000 in
theorem arg5_2 (c : Dev nD) : W5 m ρ c (Proc.devRef .tc main_arg2) = m ((c : Thread nD τ).loc main_arg2) := by
  dsimp only [W5, W4, W3, W2, W1, W0]
  simp only [hostOps0, hostOps0_1, hostOps0_2, hostOps0_3, hostOps0_4]
  after_results_simp

set_option maxHeartbeats 4000000 in
theorem arg5_3 (c : Dev nD) : W5 m ρ c (Proc.devRef .tc main_arg3) = m ((c : Thread nD τ).loc main_arg3) := by
  dsimp only [W5, W4, W3, W2, W1, W0]
  simp only [hostOps0, hostOps0_1, hostOps0_2, hostOps0_3, hostOps0_4]
  after_results_simp

set_option maxHeartbeats 4000000 in
theorem arg5_4 (c : Dev nD) : W5 m ρ c (Proc.devRef .tc main_arg4) = m ((c : Thread nD τ).loc main_arg4) := by
  dsimp only [W5, W4, W3, W2, W1, W0]
  simp only [hostOps0, hostOps0_1, hostOps0_2, hostOps0_3, hostOps0_4]
  after_results_simp

set_option maxHeartbeats 4000000 in
theorem arg5_5 (c : Dev nD) : W5 m ρ c (Proc.devRef .tc main_arg5) = m ((c : Thread nD τ).loc main_arg5) := by
  dsimp only [W5, W4, W3, W2, W1, W0]
  simp only [hostOps0, hostOps0_1, hostOps0_2, hostOps0_3, hostOps0_4]
  after_results_simp

set_option maxHeartbeats 4000000 in
theorem arg5_6 (c : Dev nD) : W5 m ρ c (Proc.devRef .tc main_arg6) = m ((c : Thread nD τ).loc main_arg6) := by
  dsimp only [W5, W4, W3, W2, W1, W0]
  simp only [hostOps0, hostOps0_1, hostOps0_2, hostOps0_3, hostOps0_4]
  after_results_simp

set_option maxHeartbeats 4000000 in
theorem arg5_7 (c : Dev nD) : W5 m ρ c (Proc.devRef .tc main_arg7) = m ((c : Thread nD τ).loc main_arg7) := by
  dsimp only [W5, W4, W3, W2, W1, W0]
  simp only [hostOps0, hostOps0_1, hostOps0_2, hostOps0_3, hostOps0_4]
  after_results_simp

set_option maxHeartbeats 4000000 in
theorem arg5_8 (c : Dev nD) : W5 m ρ c (Proc.devRef .tc main_arg8) = m ((c : Thread nD τ).loc main_arg8) := by
  dsimp only [W5, W4, W3, W2, W1, W0]
  simp only [hostOps0, hostOps0_1, hostOps0_2, hostOps0_3, hostOps0_4]
  after_results_simp

set_option maxHeartbeats 4000000 in
theorem arg5_9 (c : Dev nD) : W5 m ρ c (Proc.devRef .tc main_arg9) = m ((c : Thread nD τ).loc main_arg9) := by
  dsimp only [W5, W4, W3, W2, W1, W0]
  simp only [hostOps0, hostOps0_1, hostOps0_2, hostOps0_3, hostOps0_4]
  after_results_simp

set_option maxHeartbeats 4000000 in
theorem arg5_10 (c : Dev nD) : W5 m ρ c (Proc.devRef .tc main_arg10) = m ((c : Thread nD τ).loc main_arg10) := by
  dsimp only [W5, W4, W3, W2, W1, W0]
  simp only [hostOps0, hostOps0_1, hostOps0_2, hostOps0_3, hostOps0_4]
  after_results_simp

set_option maxHeartbeats 4000000 in
theorem arg5_11 (c : Dev nD) : W5 m ρ c (Proc.devRef .tc main_arg11) = m ((c : Thread nD τ).loc main_arg11) := by
  dsimp only [W5, W4, W3, W2, W1, W0]
  simp only [hostOps0, hostOps0_1, hostOps0_2, hostOps0_3, hostOps0_4]
  after_results_simp

set_option maxHeartbeats 4000000 in
theorem arg5_12 (c : Dev nD) : W5 m ρ c (Proc.devRef .tc main_arg12) = m ((c : Thread nD τ).loc main_arg12) := by
  dsimp only [W5, W4, W3, W2, W1, W0]
  simp only [hostOps0, hostOps0_1, hostOps0_2, hostOps0_3, hostOps0_4]
  after_results_simp

set_option maxHeartbeats 4000000 in
theorem arg5_13 (c : Dev nD) : W5 m ρ c (Proc.devRef .tc main_arg13) = m ((c : Thread nD τ).loc main_arg13) := by
  dsimp only [W5, W4, W3, W2, W1, W0]
  simp only [hostOps0, hostOps0_1, hostOps0_2, hostOps0_3, hostOps0_4]
  after_results_simp

/-! ## Buffers written once, read at every later region's entry -/

/-- The buffer main_v1 is written by no operation of the host stretches after the first region's entry and is an
    array of none of the first four regions: at the entry of each later region it holds what it held at the
    first region's entry. -/
theorem keep7_main_v1 (c : Dev nD) : W7 m ρ c (Proc.devRef .tc main_v1) = W5 m ρ c (Proc.devRef .tc main_v1) :=
  calc W7 m ρ c (Proc.devRef .tc main_v1)
    _ = W6 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
theorem keep9_main_v1 (c : Dev nD) : W9 m ρ c (Proc.devRef .tc main_v1) = W5 m ρ c (Proc.devRef .tc main_v1) :=
  calc W9 m ρ c (Proc.devRef .tc main_v1)
    _ = W8 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W5 m ρ c (Proc.devRef .tc main_v1) := keep7_main_v1 m ρ c
theorem keep11_main_v1 (c : Dev nD) : W11 m ρ c (Proc.devRef .tc main_v1) = W5 m ρ c (Proc.devRef .tc main_v1) :=
  calc W11 m ρ c (Proc.devRef .tc main_v1)
    _ = W10 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := W10_of_ne m ρ c main_v1 (by decide)
    _ = W5 m ρ c (Proc.devRef .tc main_v1) := keep9_main_v1 m ρ c
theorem keep13_main_v1 (c : Dev nD) : W13 m ρ c (Proc.devRef .tc main_v1) = W5 m ρ c (Proc.devRef .tc main_v1) :=
  calc W13 m ρ c (Proc.devRef .tc main_v1)
    _ = W12 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v1) := W12_of_ne m ρ c main_v1 (by decide)
    _ = W5 m ρ c (Proc.devRef .tc main_v1) := keep11_main_v1 m ρ c

/-- The buffer main_v3 is written by no operation of the host stretches after the first region's entry and is an
    array of none of the first four regions: at the entry of each later region it holds what it held at the
    first region's entry. -/
theorem keep7_main_v3 (c : Dev nD) : W7 m ρ c (Proc.devRef .tc main_v3) = W5 m ρ c (Proc.devRef .tc main_v3) :=
  calc W7 m ρ c (Proc.devRef .tc main_v3)
    _ = W6 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
theorem keep9_main_v3 (c : Dev nD) : W9 m ρ c (Proc.devRef .tc main_v3) = W5 m ρ c (Proc.devRef .tc main_v3) :=
  calc W9 m ρ c (Proc.devRef .tc main_v3)
    _ = W8 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W5 m ρ c (Proc.devRef .tc main_v3) := keep7_main_v3 m ρ c
theorem keep11_main_v3 (c : Dev nD) : W11 m ρ c (Proc.devRef .tc main_v3) = W5 m ρ c (Proc.devRef .tc main_v3) :=
  calc W11 m ρ c (Proc.devRef .tc main_v3)
    _ = W10 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W5 m ρ c (Proc.devRef .tc main_v3) := keep9_main_v3 m ρ c
theorem keep13_main_v3 (c : Dev nD) : W13 m ρ c (Proc.devRef .tc main_v3) = W5 m ρ c (Proc.devRef .tc main_v3) :=
  calc W13 m ρ c (Proc.devRef .tc main_v3)
    _ = W12 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v3) := W12_of_ne m ρ c main_v3 (by decide)
    _ = W5 m ρ c (Proc.devRef .tc main_v3) := keep11_main_v3 m ρ c

/-- The buffer main_v7 is written by no operation of the host stretches after the first region's entry and is an
    array of none of the first four regions: at the entry of each later region it holds what it held at the
    first region's entry. -/
theorem keep7_main_v7 (c : Dev nD) : W7 m ρ c (Proc.devRef .tc main_v7) = W5 m ρ c (Proc.devRef .tc main_v7) :=
  calc W7 m ρ c (Proc.devRef .tc main_v7)
    _ = W6 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v7) := W6_of_ne m ρ c main_v7 (by decide)
theorem keep9_main_v7 (c : Dev nD) : W9 m ρ c (Proc.devRef .tc main_v7) = W5 m ρ c (Proc.devRef .tc main_v7) :=
  calc W9 m ρ c (Proc.devRef .tc main_v7)
    _ = W8 m ρ c (Proc.devRef .tc main_v7) := StableHlo.after_of_forall_not_mem (b := Proc.devRef .tc main_v7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v7) := W8_of_ne m ρ c main_v7 (by decide)
    _ = W5 m ρ c (Proc.devRef .tc main_v7) := keep7_main_v7 m ρ c
theorem keep11_main_v7 (c : Dev nD) : W11 m ρ c (Proc.devRef .tc main_v7) = W5 m ρ c (Proc.devRef .tc main_v7) :=
  calc W11 m ρ c (Proc.devRef .tc main_v7)
    _ = W10 m ρ c (Proc.devRef .tc main_v7) := StableHlo.after_of_forall_not_mem (b := Proc.devRef .tc main_v7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v7) := W10_of_ne m ρ c main_v7 (by decide)
    _ = W5 m ρ c (Proc.devRef .tc main_v7) := keep9_main_v7 m ρ c
theorem keep13_main_v7 (c : Dev nD) : W13 m ρ c (Proc.devRef .tc main_v7) = W5 m ρ c (Proc.devRef .tc main_v7) :=
  calc W13 m ρ c (Proc.devRef .tc main_v7)
    _ = W12 m ρ c (Proc.devRef .tc main_v7) := StableHlo.after_of_forall_not_mem (b := Proc.devRef .tc main_v7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v7) := W12_of_ne m ρ c main_v7 (by decide)
    _ = W5 m ρ c (Proc.devRef .tc main_v7) := keep11_main_v7 m ρ c

/-- The buffer main_v9 is written by no operation of the host stretches after the first region's entry and is an
    array of none of the first four regions: at the entry of each later region it holds what it held at the
    first region's entry. -/
theorem keep7_main_v9 (c : Dev nD) : W7 m ρ c (Proc.devRef .tc main_v9) = W5 m ρ c (Proc.devRef .tc main_v9) :=
  calc W7 m ρ c (Proc.devRef .tc main_v9)
    _ = W6 m ρ c (Proc.devRef .tc main_v9) := StableHlo.after_of_forall_not_mem (b := Proc.devRef .tc main_v9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v9) := W6_of_ne m ρ c main_v9 (by decide)
theorem keep9_main_v9 (c : Dev nD) : W9 m ρ c (Proc.devRef .tc main_v9) = W5 m ρ c (Proc.devRef .tc main_v9) :=
  calc W9 m ρ c (Proc.devRef .tc main_v9)
    _ = W8 m ρ c (Proc.devRef .tc main_v9) := StableHlo.after_of_forall_not_mem (b := Proc.devRef .tc main_v9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v9) := W8_of_ne m ρ c main_v9 (by decide)
    _ = W5 m ρ c (Proc.devRef .tc main_v9) := keep7_main_v9 m ρ c
theorem keep11_main_v9 (c : Dev nD) : W11 m ρ c (Proc.devRef .tc main_v9) = W5 m ρ c (Proc.devRef .tc main_v9) :=
  calc W11 m ρ c (Proc.devRef .tc main_v9)
    _ = W10 m ρ c (Proc.devRef .tc main_v9) := StableHlo.after_of_forall_not_mem (b := Proc.devRef .tc main_v9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v9) := W10_of_ne m ρ c main_v9 (by decide)
    _ = W5 m ρ c (Proc.devRef .tc main_v9) := keep9_main_v9 m ρ c
theorem keep13_main_v9 (c : Dev nD) : W13 m ρ c (Proc.devRef .tc main_v9) = W5 m ρ c (Proc.devRef .tc main_v9) :=
  calc W13 m ρ c (Proc.devRef .tc main_v9)
    _ = W12 m ρ c (Proc.devRef .tc main_v9) := StableHlo.after_of_forall_not_mem (b := Proc.devRef .tc main_v9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v9) := W12_of_ne m ρ c main_v9 (by decide)
    _ = W5 m ρ c (Proc.devRef .tc main_v9) := keep11_main_v9 m ρ c

/-- The buffer main_v10 is written by no operation of the host stretches after the first region's entry and is an
    array of none of the first four regions: at the entry of each later region it holds what it held at the
    first region's entry. -/
theorem keep7_main_v10 (c : Dev nD) : W7 m ρ c (Proc.devRef .tc main_v10) = W5 m ρ c (Proc.devRef .tc main_v10) :=
  calc W7 m ρ c (Proc.devRef .tc main_v10)
    _ = W6 m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v10) := W6_of_ne m ρ c main_v10 (by decide)
theorem keep9_main_v10 (c : Dev nD) : W9 m ρ c (Proc.devRef .tc main_v10) = W5 m ρ c (Proc.devRef .tc main_v10) :=
  calc W9 m ρ c (Proc.devRef .tc main_v10)
    _ = W8 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v10) := W8_of_ne m ρ c main_v10 (by decide)
    _ = W5 m ρ c (Proc.devRef .tc main_v10) := keep7_main_v10 m ρ c
theorem keep11_main_v10 (c : Dev nD) : W11 m ρ c (Proc.devRef .tc main_v10) = W5 m ρ c (Proc.devRef .tc main_v10) :=
  calc W11 m ρ c (Proc.devRef .tc main_v10)
    _ = W10 m ρ c (Proc.devRef .tc main_v10) := StableHlo.after_of_forall_not_mem (b := Proc.devRef .tc main_v10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v10) := W10_of_ne m ρ c main_v10 (by decide)
    _ = W5 m ρ c (Proc.devRef .tc main_v10) := keep9_main_v10 m ρ c
theorem keep13_main_v10 (c : Dev nD) : W13 m ρ c (Proc.devRef .tc main_v10) = W5 m ρ c (Proc.devRef .tc main_v10) :=
  calc W13 m ρ c (Proc.devRef .tc main_v10)
    _ = W12 m ρ c (Proc.devRef .tc main_v10) := StableHlo.after_of_forall_not_mem (b := Proc.devRef .tc main_v10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v10) := W12_of_ne m ρ c main_v10 (by decide)
    _ = W5 m ρ c (Proc.devRef .tc main_v10) := keep11_main_v10 m ρ c

/-- The buffer main_v11 is written by no operation of the host stretches after the first region's entry and is an
    array of none of the first four regions: at the entry of each later region it holds what it held at the
    first region's entry. -/
theorem keep7_main_v11 (c : Dev nD) : W7 m ρ c (Proc.devRef .tc main_v11) = W5 m ρ c (Proc.devRef .tc main_v11) :=
  calc W7 m ρ c (Proc.devRef .tc main_v11)
    _ = W6 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)
theorem keep9_main_v11 (c : Dev nD) : W9 m ρ c (Proc.devRef .tc main_v11) = W5 m ρ c (Proc.devRef .tc main_v11) :=
  calc W9 m ρ c (Proc.devRef .tc main_v11)
    _ = W8 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := W8_of_ne m ρ c main_v11 (by decide)
    _ = W5 m ρ c (Proc.devRef .tc main_v11) := keep7_main_v11 m ρ c
theorem keep11_main_v11 (c : Dev nD) : W11 m ρ c (Proc.devRef .tc main_v11) = W5 m ρ c (Proc.devRef .tc main_v11) :=
  calc W11 m ρ c (Proc.devRef .tc main_v11)
    _ = W10 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := W10_of_ne m ρ c main_v11 (by decide)
    _ = W5 m ρ c (Proc.devRef .tc main_v11) := keep9_main_v11 m ρ c
theorem keep13_main_v11 (c : Dev nD) : W13 m ρ c (Proc.devRef .tc main_v11) = W5 m ρ c (Proc.devRef .tc main_v11) :=
  calc W13 m ρ c (Proc.devRef .tc main_v11)
    _ = W12 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v11) := W12_of_ne m ρ c main_v11 (by decide)
    _ = W5 m ρ c (Proc.devRef .tc main_v11) := keep11_main_v11 m ρ c

/-- The buffer main_arg2 is written by no operation of the host stretches after the first region's entry and is an
    array of none of the first four regions: at the entry of each later region it holds what it held at the
    first region's entry. -/
theorem keep7_main_arg2 (c : Dev nD) : W7 m ρ c (Proc.devRef .tc main_arg2) = W5 m ρ c (Proc.devRef .tc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
theorem keep9_main_arg2 (c : Dev nD) : W9 m ρ c (Proc.devRef .tc main_arg2) = W5 m ρ c (Proc.devRef .tc main_arg2) :=
  calc W9 m ρ c (Proc.devRef .tc main_arg2)
    _ = W8 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W5 m ρ c (Proc.devRef .tc main_arg2) := keep7_main_arg2 m ρ c
theorem keep11_main_arg2 (c : Dev nD) : W11 m ρ c (Proc.devRef .tc main_arg2) = W5 m ρ c (Proc.devRef .tc main_arg2) :=
  calc W11 m ρ c (Proc.devRef .tc main_arg2)
    _ = W10 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W5 m ρ c (Proc.devRef .tc main_arg2) := keep9_main_arg2 m ρ c
theorem keep13_main_arg2 (c : Dev nD) : W13 m ρ c (Proc.devRef .tc main_arg2) = W5 m ρ c (Proc.devRef .tc main_arg2) :=
  calc W13 m ρ c (Proc.devRef .tc main_arg2)
    _ = W12 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W5 m ρ c (Proc.devRef .tc main_arg2) := keep11_main_arg2 m ρ c

/-- The buffer main_arg3 is written by no operation of the host stretches after the first region's entry and is an
    array of none of the first four regions: at the entry of each later region it holds what it held at the
    first region's entry. -/
theorem keep7_main_arg3 (c : Dev nD) : W7 m ρ c (Proc.devRef .tc main_arg3) = W5 m ρ c (Proc.devRef .tc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
theorem keep9_main_arg3 (c : Dev nD) : W9 m ρ c (Proc.devRef .tc main_arg3) = W5 m ρ c (Proc.devRef .tc main_arg3) :=
  calc W9 m ρ c (Proc.devRef .tc main_arg3)
    _ = W8 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W5 m ρ c (Proc.devRef .tc main_arg3) := keep7_main_arg3 m ρ c
theorem keep11_main_arg3 (c : Dev nD) : W11 m ρ c (Proc.devRef .tc main_arg3) = W5 m ρ c (Proc.devRef .tc main_arg3) :=
  calc W11 m ρ c (Proc.devRef .tc main_arg3)
    _ = W10 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W5 m ρ c (Proc.devRef .tc main_arg3) := keep9_main_arg3 m ρ c
theorem keep13_main_arg3 (c : Dev nD) : W13 m ρ c (Proc.devRef .tc main_arg3) = W5 m ρ c (Proc.devRef .tc main_arg3) :=
  calc W13 m ρ c (Proc.devRef .tc main_arg3)
    _ = W12 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg3) := W12_of_ne m ρ c main_arg3 (by decide)
    _ = W5 m ρ c (Proc.devRef .tc main_arg3) := keep11_main_arg3 m ρ c

/-- The buffer main_arg8 is written by no operation of the host stretches after the first region's entry and is an
    array of none of the first four regions: at the entry of each later region it holds what it held at the
    first region's entry. -/
theorem keep7_main_arg8 (c : Dev nD) : W7 m ρ c (Proc.devRef .tc main_arg8) = W5 m ρ c (Proc.devRef .tc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
theorem keep9_main_arg8 (c : Dev nD) : W9 m ρ c (Proc.devRef .tc main_arg8) = W5 m ρ c (Proc.devRef .tc main_arg8) :=
  calc W9 m ρ c (Proc.devRef .tc main_arg8)
    _ = W8 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W5 m ρ c (Proc.devRef .tc main_arg8) := keep7_main_arg8 m ρ c
theorem keep11_main_arg8 (c : Dev nD) : W11 m ρ c (Proc.devRef .tc main_arg8) = W5 m ρ c (Proc.devRef .tc main_arg8) :=
  calc W11 m ρ c (Proc.devRef .tc main_arg8)
    _ = W10 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W5 m ρ c (Proc.devRef .tc main_arg8) := keep9_main_arg8 m ρ c
theorem keep13_main_arg8 (c : Dev nD) : W13 m ρ c (Proc.devRef .tc main_arg8) = W5 m ρ c (Proc.devRef .tc main_arg8) :=
  calc W13 m ρ c (Proc.devRef .tc main_arg8)
    _ = W12 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W5 m ρ c (Proc.devRef .tc main_arg8) := keep11_main_arg8 m ρ c

/-- The buffer main_arg9 is written by no operation of the host stretches after the first region's entry and is an
    array of none of the first four regions: at the entry of each later region it holds what it held at the
    first region's entry. -/
theorem keep7_main_arg9 (c : Dev nD) : W7 m ρ c (Proc.devRef .tc main_arg9) = W5 m ρ c (Proc.devRef .tc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
theorem keep9_main_arg9 (c : Dev nD) : W9 m ρ c (Proc.devRef .tc main_arg9) = W5 m ρ c (Proc.devRef .tc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W5 m ρ c (Proc.devRef .tc main_arg9) := keep7_main_arg9 m ρ c
theorem keep11_main_arg9 (c : Dev nD) : W11 m ρ c (Proc.devRef .tc main_arg9) = W5 m ρ c (Proc.devRef .tc main_arg9) :=
  calc W11 m ρ c (Proc.devRef .tc main_arg9)
    _ = W10 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W5 m ρ c (Proc.devRef .tc main_arg9) := keep9_main_arg9 m ρ c
theorem keep13_main_arg9 (c : Dev nD) : W13 m ρ c (Proc.devRef .tc main_arg9) = W5 m ρ c (Proc.devRef .tc main_arg9) :=
  calc W13 m ρ c (Proc.devRef .tc main_arg9)
    _ = W12 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W5 m ρ c (Proc.devRef .tc main_arg9) := keep11_main_arg9 m ρ c

/-- The buffer main_arg10 is written by no operation of the host stretches after the first region's entry and is an
    array of none of the first four regions: at the entry of each later region it holds what it held at the
    first region's entry. -/
theorem keep7_main_arg10 (c : Dev nD) : W7 m ρ c (Proc.devRef .tc main_arg10) = W5 m ρ c (Proc.devRef .tc main_arg10) :=
  calc W7 m ρ c (Proc.devRef .tc main_arg10)
    _ = W6 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
theorem keep9_main_arg10 (c : Dev nD) : W9 m ρ c (Proc.devRef .tc main_arg10) = W5 m ρ c (Proc.devRef .tc main_arg10) :=
  calc W9 m ρ c (Proc.devRef .tc main_arg10)
    _ = W8 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W5 m ρ c (Proc.devRef .tc main_arg10) := keep7_main_arg10 m ρ c
theorem keep11_main_arg10 (c : Dev nD) : W11 m ρ c (Proc.devRef .tc main_arg10) = W5 m ρ c (Proc.devRef .tc main_arg10) :=
  calc W11 m ρ c (Proc.devRef .tc main_arg10)
    _ = W10 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W5 m ρ c (Proc.devRef .tc main_arg10) := keep9_main_arg10 m ρ c
theorem keep13_main_arg10 (c : Dev nD) : W13 m ρ c (Proc.devRef .tc main_arg10) = W5 m ρ c (Proc.devRef .tc main_arg10) :=
  calc W13 m ρ c (Proc.devRef .tc main_arg10)
    _ = W12 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W5 m ρ c (Proc.devRef .tc main_arg10) := keep11_main_arg10 m ρ c

/-- The buffer main_arg11 is written by no operation of the host stretches after the first region's entry and is an
    array of none of the first four regions: at the entry of each later region it holds what it held at the
    first region's entry. -/
theorem keep7_main_arg11 (c : Dev nD) : W7 m ρ c (Proc.devRef .tc main_arg11) = W5 m ρ c (Proc.devRef .tc main_arg11) :=
  calc W7 m ρ c (Proc.devRef .tc main_arg11)
    _ = W6 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
theorem keep9_main_arg11 (c : Dev nD) : W9 m ρ c (Proc.devRef .tc main_arg11) = W5 m ρ c (Proc.devRef .tc main_arg11) :=
  calc W9 m ρ c (Proc.devRef .tc main_arg11)
    _ = W8 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W5 m ρ c (Proc.devRef .tc main_arg11) := keep7_main_arg11 m ρ c
theorem keep11_main_arg11 (c : Dev nD) : W11 m ρ c (Proc.devRef .tc main_arg11) = W5 m ρ c (Proc.devRef .tc main_arg11) :=
  calc W11 m ρ c (Proc.devRef .tc main_arg11)
    _ = W10 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W5 m ρ c (Proc.devRef .tc main_arg11) := keep9_main_arg11 m ρ c
theorem keep13_main_arg11 (c : Dev nD) : W13 m ρ c (Proc.devRef .tc main_arg11) = W5 m ρ c (Proc.devRef .tc main_arg11) :=
  calc W13 m ρ c (Proc.devRef .tc main_arg11)
    _ = W12 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W5 m ρ c (Proc.devRef .tc main_arg11) := keep11_main_arg11 m ρ c

end Cert.Gin.Keep

end
-- ==== Proof.KStage1.lean ====
/-
  What the second launch finds.

  Before the second launch the host has prepared, from the previous launch's result and from buffers no
  later operation writes, the neighbour sums of the current table and layer 1's matrices and rows. Each
  buffer is read here as its term of the arguments and of the previous launch's result.
-/
import proofs.«179956_j20864951124664_2_alg».proof.Proof.Gen.KernelIdeal.Frame
import proofs.«179956_j20864951124664_2_alg».proof.Proof.KTerms
import proofs.«179956_j20864951124664_2_alg».proof.Proof.KStage0
import proofs.«179956_j20864951124664_2_alg».proof.Proof.KKeep
import Idealize.ShloMosaic.Lib.StableHlo.Run

set_option maxRecDepth 16384

noncomputable section

namespace Cert.Gin.Stage1

open Cert.KernelIdeal Cert.KernelIdeal.Gen Cert.Gin Cert.Gin.K
open Idealize.ShloMosaic Idealize.ShloMosaic.TcCoe Idealize.SL.Sem Idealize.ShloMosaic.StableHlo

variable (m : (ℓ : Loc nD τ sig) → Buf (Elt Ideal) ℓ) (ρ : Dev nD → PrngReg)

/-- Read a buffer after the host stretch before the launch: every operation's result rewritten in turn. -/
macro "read7" : tactic =>
  `(tactic| (dsimp only [W7]
             simp only [hostOps1]
             after_results_simp))

set_option maxHeartbeats 4000000 in
/-- The table the launch reads is the previous launch's result. -/
theorem tbl (c : Dev nD) : W7 m ρ c (Proc.devRef .tc main_v38) = W6 m ρ c (Proc.devRef .tc main_v38) := by
  read7

set_option maxHeartbeats 4000000 in
/-- The neighbour sums of that table. -/
theorem agg (c : Dev nD) : W7 m ρ c (Proc.devRef .tc main_v48)
    = aggOf (srcIx (m ((c : Thread nD τ).loc main_arg1))) (dstIx (m ((c : Thread nD τ).loc main_arg1))) (W6 m ρ c (Proc.devRef .tc main_v38)) := by
  read7
  rw [W6_of_ne m ρ c main_v1 (by decide), Stage0.src m ρ c, W6_of_ne m ρ c main_v3 (by decide), Stage0.dst m ρ c]
  set_option maxRecDepth 200000 in rfl

set_option maxHeartbeats 4000000 in
theorem w1 (c : Dev nD) : W7 m ρ c (Proc.devRef .tc main_v50)
    = sqSlice ![1, 0, 0] slices_S5x128x128_S1x128x128_1_0_0 (m ((c : Thread nD τ).loc main_arg2)) := by
  read7
  rw [W6_of_ne m ρ c main_arg2 (by decide), Stage0.arg2 m ρ c]
  set_option maxRecDepth 200000 in rfl

set_option maxHeartbeats 4000000 in
theorem b1 (c : Dev nD) : W7 m ρ c (Proc.devRef .tc main_v61)
    = rowSlice ![1, 0] slices_S5x128_S1x128_1_0 (m ((c : Thread nD τ).loc main_arg3)) := by
  read7
  rw [W6_of_ne m ρ c main_arg3 (by decide), Stage0.arg3 m ρ c]
  set_option maxRecDepth 200000 in rfl

set_option maxHeartbeats 4000000 in
theorem s (c : Dev nD) : W7 m ρ c (Proc.devRef .tc main_v62)
    = rowSlice ![1, 0] slices_S5x128_S1x128_1_0 (scaleArr (m ((c : Thread nD τ).loc main_arg4)) (m ((c : Thread nD τ).loc main_arg7))) := by
  read7
  rw [W6_of_ne m ρ c main_v7 (by decide), Stage0.sc m ρ c]
  set_option maxRecDepth 200000 in rfl

set_option maxHeartbeats 4000000 in
theorem sh (c : Dev nD) : W7 m ρ c (Proc.devRef .tc main_v63)
    = rowSlice ![1, 0] slices_S5x128_S1x128_1_0 (shiftArr (m ((c : Thread nD τ).loc main_arg5)) (m ((c : Thread nD τ).loc main_arg6)) (scaleArr (m ((c : Thread nD τ).loc main_arg4)) (m ((c : Thread nD τ).loc main_arg7)))) := by
  read7
  rw [W6_of_ne m ρ c main_v9 (by decide), Stage0.shf m ρ c]
  set_option maxRecDepth 200000 in rfl

set_option maxHeartbeats 4000000 in
theorem w2 (c : Dev nD) : W7 m ρ c (Proc.devRef .tc main_v58)
    = sqSlice ![1, 0, 0] slices_S5x128x128_S1x128x128_1_0_0 (m ((c : Thread nD τ).loc main_arg8)) := by
  read7
  rw [W6_of_ne m ρ c main_arg8 (by decide), Stage0.arg8 m ρ c]
  set_option maxRecDepth 200000 in rfl

set_option maxHeartbeats 4000000 in
theorem b2 (c : Dev nD) : W7 m ρ c (Proc.devRef .tc main_v64)
    = rowSlice ![1, 0] slices_S5x128_S1x128_1_0 (m ((c : Thread nD τ).loc main_arg9)) := by
  read7
  rw [W6_of_ne m ρ c main_arg9 (by decide), Stage0.arg9 m ρ c]
  set_option maxRecDepth 200000 in rfl

end Cert.Gin.Stage1

end
-- ==== Proof.KStage2.lean ====
/-
  What the third launch finds.

  Before the third launch the host has prepared, from the previous launch's result and from buffers no
  later operation writes, the neighbour sums of the current table and layer 2's matrices and rows. Each
  buffer is read here as its term of the arguments and of the previous launch's result.
-/
import proofs.«179956_j20864951124664_2_alg».proof.Proof.Gen.KernelIdeal.Frame
import proofs.«179956_j20864951124664_2_alg».proof.Proof.KTerms
import proofs.«179956_j20864951124664_2_alg».proof.Proof.KStage0
import proofs.«179956_j20864951124664_2_alg».proof.Proof.KKeep
import Idealize.ShloMosaic.Lib.StableHlo.Run

set_option maxRecDepth 16384

noncomputable section

namespace Cert.Gin.Stage2

open Cert.KernelIdeal Cert.KernelIdeal.Gen Cert.Gin Cert.Gin.K
open Idealize.ShloMosaic Idealize.ShloMosaic.TcCoe Idealize.SL.Sem Idealize.ShloMosaic.StableHlo

variable (m : (ℓ : Loc nD τ sig) → Buf (Elt Ideal) ℓ) (ρ : Dev nD → PrngReg)

/-- Read a buffer after the host stretch before the launch: every operation's result rewritten in turn. -/
macro "read9" : tactic =>
  `(tactic| (dsimp only [W9]
             simp only [hostOps2]
             after_results_simp))

set_option maxHeartbeats 4000000 in
/-- The table the launch reads is the previous launch's result. -/
theorem tbl (c : Dev nD) : W9 m ρ c (Proc.devRef .tc main_v65) = W8 m ρ c (Proc.devRef .tc main_v65) := by
  read9

set_option maxHeartbeats 4000000 in
/-- The neighbour sums of that table. -/
theorem agg (c : Dev nD) : W9 m ρ c (Proc.devRef .tc main_v75)
    = aggOf (srcIx (m ((c : Thread nD τ).loc main_arg1))) (dstIx (m ((c : Thread nD τ).loc main_arg1))) (W8 m ρ c (Proc.devRef .tc main_v65)) := by
  read9
  rw [W8_of_ne m ρ c main_v1 (by decide), Keep.keep7_main_v1 m ρ c, Stage0.src m ρ c, W8_of_ne m ρ c main_v3 (by decide), Keep.keep7_main_v3 m ρ c, Stage0.dst m ρ c]
  set_option maxRecDepth 200000 in rfl

set_option maxHeartbeats 4000000 in
theorem w1 (c : Dev nD) : W9 m ρ c (Proc.devRef .tc main_v77)
    = sqSlice ![2, 0, 0] slices_S5x128x128_S1x128x128_2_0_0 (m ((c : Thread nD τ).loc main_arg2)) := by
  read9
  rw [W8_of_ne m ρ c main_arg2 (by decide), Keep.keep7_main_arg2 m ρ c, Stage0.arg2 m ρ c]
  set_option maxRecDepth 200000 in rfl

set_option maxHeartbeats 4000000 in
theorem b1 (c : Dev nD) : W9 m ρ c (Proc.devRef .tc main_v88)
    = rowSlice ![2, 0] slices_S5x128_S1x128_2_0 (m ((c : Thread nD τ).loc main_arg3)) := by
  read9
  rw [W8_of_ne m ρ c main_arg3 (by decide), Keep.keep7_main_arg3 m ρ c, Stage0.arg3 m ρ c]
  set_option maxRecDepth 200000 in rfl

set_option maxHeartbeats 4000000 in
theorem s (c : Dev nD) : W9 m ρ c (Proc.devRef .tc main_v89)
    = rowSlice ![2, 0] slices_S5x128_S1x128_2_0 (scaleArr (m ((c : Thread nD τ).loc main_arg4)) (m ((c : Thread nD τ).loc main_arg7))) := by
  read9
  rw [W8_of_ne m ρ c main_v7 (by decide), Keep.keep7_main_v7 m ρ c, Stage0.sc m ρ c]
  set_option maxRecDepth 200000 in rfl

set_option maxHeartbeats 4000000 in
theorem sh (c : Dev nD) : W9 m ρ c (Proc.devRef .tc main_v90)
    = rowSlice ![2, 0] slices_S5x128_S1x128_2_0 (shiftArr (m ((c : Thread nD τ).loc main_arg5)) (m ((c : Thread nD τ).loc main_arg6)) (scaleArr (m ((c : Thread nD τ).loc main_arg4)) (m ((c : Thread nD τ).loc main_arg7)))) := by
  read9
  rw [W8_of_ne m ρ c main_v9 (by decide), Keep.keep7_main_v9 m ρ c, Stage0.shf m ρ c]
  set_option maxRecDepth 200000 in rfl

set_option maxHeartbeats 4000000 in
theorem w2 (c : Dev nD) : W9 m ρ c (Proc.devRef .tc main_v85)
    = sqSlice ![2, 0, 0] slices_S5x128x128_S1x128x128_2_0_0 (m ((c : Thread nD τ).loc main_arg8)) := by
  read9
  rw [W8_of_ne m ρ c main_arg8 (by decide), Keep.keep7_main_arg8 m ρ c, Stage0.arg8 m ρ c]
  set_option maxRecDepth 200000 in rfl

set_option maxHeartbeats 4000000 in
theorem b2 (c : Dev nD) : W9 m ρ c (Proc.devRef .tc main_v91)
    = rowSlice ![2, 0] slices_S5x128_S1x128_2_0 (m ((c : Thread nD τ).loc main_arg9)) := by
  read9
  rw [W8_of_ne m ρ c main_arg9 (by decide), Keep.keep7_main_arg9 m ρ c, Stage0.arg9 m ρ c]
  set_option maxRecDepth 200000 in rfl

end Cert.Gin.Stage2

end
-- ==== Proof.KStage3.lean ====
/-
  What the fourth launch finds.

  Before the fourth launch the host has prepared, from the previous launch's result and from buffers no
  later operation writes, the neighbour sums of the current table and layer 3's matrices and rows. Each
  buffer is read here as its term of the arguments and of the previous launch's result.
-/
import proofs.«179956_j20864951124664_2_alg».proof.Proof.Gen.KernelIdeal.Frame
import proofs.«179956_j20864951124664_2_alg».proof.Proof.KTerms
import proofs.«179956_j20864951124664_2_alg».proof.Proof.KStage0
import proofs.«179956_j20864951124664_2_alg».proof.Proof.KKeep
import Idealize.ShloMosaic.Lib.StableHlo.Run

set_option maxRecDepth 16384

noncomputable section

namespace Cert.Gin.Stage3

open Cert.KernelIdeal Cert.KernelIdeal.Gen Cert.Gin Cert.Gin.K
open Idealize.ShloMosaic Idealize.ShloMosaic.TcCoe Idealize.SL.Sem Idealize.ShloMosaic.StableHlo

variable (m : (ℓ : Loc nD τ sig) → Buf (Elt Ideal) ℓ) (ρ : Dev nD → PrngReg)

/-- Read a buffer after the host stretch before the launch: every operation's result rewritten in turn. -/
macro "read11" : tactic =>
  `(tactic| (dsimp only [W11]
             simp only [hostOps3]
             after_results_simp))

set_option maxHeartbeats 4000000 in
/-- The table the launch reads is the previous launch's result. -/
theorem tbl (c : Dev nD) : W11 m ρ c (Proc.devRef .tc main_v92) = W10 m ρ c (Proc.devRef .tc main_v92) := by
  read11

set_option maxHeartbeats 4000000 in
/-- The neighbour sums of that table. -/
theorem agg (c : Dev nD) : W11 m ρ c (Proc.devRef .tc main_v102)
    = aggOf (srcIx (m ((c : Thread nD τ).loc main_arg1))) (dstIx (m ((c : Thread nD τ).loc main_arg1))) (W10 m ρ c (Proc.devRef .tc main_v92)) := by
  read11
  rw [W10_of_ne m ρ c main_v1 (by decide), Keep.keep9_main_v1 m ρ c, Stage0.src m ρ c, W10_of_ne m ρ c main_v3 (by decide), Keep.keep9_main_v3 m ρ c, Stage0.dst m ρ c]
  set_option maxRecDepth 200000 in rfl

set_option maxHeartbeats 4000000 in
theorem w1 (c : Dev nD) : W11 m ρ c (Proc.devRef .tc main_v104)
    = sqSlice ![3, 0, 0] slices_S5x128x128_S1x128x128_3_0_0 (m ((c : Thread nD τ).loc main_arg2)) := by
  read11
  rw [W10_of_ne m ρ c main_arg2 (by decide), Keep.keep9_main_arg2 m ρ c, Stage0.arg2 m ρ c]
  set_option maxRecDepth 200000 in rfl

set_option maxHeartbeats 4000000 in
theorem b1 (c : Dev nD) : W11 m ρ c (Proc.devRef .tc main_v115)
    = rowSlice ![3, 0] slices_S5x128_S1x128_3_0 (m ((c : Thread nD τ).loc main_arg3)) := by
  read11
  rw [W10_of_ne m ρ c main_arg3 (by decide), Keep.keep9_main_arg3 m ρ c, Stage0.arg3 m ρ c]
  set_option maxRecDepth 200000 in rfl

set_option maxHeartbeats 4000000 in
theorem s (c : Dev nD) : W11 m ρ c (Proc.devRef .tc main_v116)
    = rowSlice ![3, 0] slices_S5x128_S1x128_3_0 (scaleArr (m ((c : Thread nD τ).loc main_arg4)) (m ((c : Thread nD τ).loc main_arg7))) := by
  read11
  rw [W10_of_ne m ρ c main_v7 (by decide), Keep.keep9_main_v7 m ρ c, Stage0.sc m ρ c]
  set_option maxRecDepth 200000 in rfl

set_option maxHeartbeats 4000000 in
theorem sh (c : Dev nD) : W11 m ρ c (Proc.devRef .tc main_v117)
    = rowSlice ![3, 0] slices_S5x128_S1x128_3_0 (shiftArr (m ((c : Thread nD τ).loc main_arg5)) (m ((c : Thread nD τ).loc main_arg6)) (scaleArr (m ((c : Thread nD τ).loc main_arg4)) (m ((c : Thread nD τ).loc main_arg7)))) := by
  read11
  rw [W10_of_ne m ρ c main_v9 (by decide), Keep.keep9_main_v9 m ρ c, Stage0.shf m ρ c]
  set_option maxRecDepth 200000 in rfl

set_option maxHeartbeats 4000000 in
theorem w2 (c : Dev nD) : W11 m ρ c (Proc.devRef .tc main_v112)
    = sqSlice ![3, 0, 0] slices_S5x128x128_S1x128x128_3_0_0 (m ((c : Thread nD τ).loc main_arg8)) := by
  read11
  rw [W10_of_ne m ρ c main_arg8 (by decide), Keep.keep9_main_arg8 m ρ c, Stage0.arg8 m ρ c]
  set_option maxRecDepth 200000 in rfl

set_option maxHeartbeats 4000000 in
theorem b2 (c : Dev nD) : W11 m ρ c (Proc.devRef .tc main_v118)
    = rowSlice ![3, 0] slices_S5x128_S1x128_3_0 (m ((c : Thread nD τ).loc main_arg9)) := by
  read11
  rw [W10_of_ne m ρ c main_arg9 (by decide), Keep.keep9_main_arg9 m ρ c, Stage0.arg9 m ρ c]
  set_option maxRecDepth 200000 in rfl

end Cert.Gin.Stage3

end
-- ==== Proof.KStage4.lean ====
/-
  What the fifth launch finds.

  Before the fifth launch the host has prepared, from the previous launch's result and from buffers no
  later operation writes, the neighbour sums of the current table and layer 4's matrices and rows. Each
  buffer is read here as its term of the arguments and of the previous launch's result.
-/
import proofs.«179956_j20864951124664_2_alg».proof.Proof.Gen.KernelIdeal.Frame
import proofs.«179956_j20864951124664_2_alg».proof.Proof.KTerms
import proofs.«179956_j20864951124664_2_alg».proof.Proof.KStage0
import proofs.«179956_j20864951124664_2_alg».proof.Proof.KKeep
import Idealize.ShloMosaic.Lib.StableHlo.Run

set_option maxRecDepth 16384

noncomputable section

namespace Cert.Gin.Stage4

open Cert.KernelIdeal Cert.KernelIdeal.Gen Cert.Gin Cert.Gin.K
open Idealize.ShloMosaic Idealize.ShloMosaic.TcCoe Idealize.SL.Sem Idealize.ShloMosaic.StableHlo

variable (m : (ℓ : Loc nD τ sig) → Buf (Elt Ideal) ℓ) (ρ : Dev nD → PrngReg)

/-- Read a buffer after the host stretch before the launch: every operation's result rewritten in turn. -/
macro "read13" : tactic =>
  `(tactic| (dsimp only [W13]
             simp only [hostOps4]
             after_results_simp))

set_option maxHeartbeats 4000000 in
/-- The table the launch reads is the previous launch's result. -/
theorem tbl (c : Dev nD) : W13 m ρ c (Proc.devRef .tc main_v119) = W12 m ρ c (Proc.devRef .tc main_v119) := by
  read13

set_option maxHeartbeats 4000000 in
/-- The neighbour sums of that table. -/
theorem agg (c : Dev nD) : W13 m ρ c (Proc.devRef .tc main_v129)
    = aggOf (srcIx (m ((c : Thread nD τ).loc main_arg1))) (dstIx (m ((c : Thread nD τ).loc main_arg1))) (W12 m ρ c (Proc.devRef .tc main_v119)) := by
  read13
  rw [W12_of_ne m ρ c main_v1 (by decide), Keep.keep11_main_v1 m ρ c, Stage0.src m ρ c, W12_of_ne m ρ c main_v3 (by decide), Keep.keep11_main_v3 m ρ c, Stage0.dst m ρ c]
  set_option maxRecDepth 200000 in rfl

set_option maxHeartbeats 4000000 in
theorem w1 (c : Dev nD) : W13 m ρ c (Proc.devRef .tc main_v131)
    = sqSlice ![4, 0, 0] slices_S5x128x128_S1x128x128_4_0_0 (m ((c : Thread nD τ).loc main_arg2)) := by
  read13
  rw [W12_of_ne m ρ c main_arg2 (by decide), Keep.keep11_main_arg2 m ρ c, Stage0.arg2 m ρ c]
  set_option maxRecDepth 200000 in rfl

set_option maxHeartbeats 4000000 in
theorem b1 (c : Dev nD) : W13 m ρ c (Proc.devRef .tc main_v142)
    = rowSlice ![4, 0] slices_S5x128_S1x128_4_0 (m ((c : Thread nD τ).loc main_arg3)) := by
  read13
  rw [W12_of_ne m ρ c main_arg3 (by decide), Keep.keep11_main_arg3 m ρ c, Stage0.arg3 m ρ c]
  set_option maxRecDepth 200000 in rfl

set_option maxHeartbeats 4000000 in
theorem s (c : Dev nD) : W13 m ρ c (Proc.devRef .tc main_v143)
    = rowSlice ![4, 0] slices_S5x128_S1x128_4_0 (scaleArr (m ((c : Thread nD τ).loc main_arg4)) (m ((c : Thread nD τ).loc main_arg7))) := by
  read13
  rw [W12_of_ne m ρ c main_v7 (by decide), Keep.keep11_main_v7 m ρ c, Stage0.sc m ρ c]
  set_option maxRecDepth 200000 in rfl

set_option maxHeartbeats 4000000 in
theorem sh (c : Dev nD) : W13 m ρ c (Proc.devRef .tc main_v144)
    = rowSlice ![4, 0] slices_S5x128_S1x128_4_0 (shiftArr (m ((c : Thread nD τ).loc main_arg5)) (m ((c : Thread nD τ).loc main_arg6)) (scaleArr (m ((c : Thread nD τ).loc main_arg4)) (m ((c : Thread nD τ).loc main_arg7)))) := by
  read13
  rw [W12_of_ne m ρ c main_v9 (by decide), Keep.keep11_main_v9 m ρ c, Stage0.shf m ρ c]
  set_option maxRecDepth 200000 in rfl

set_option maxHeartbeats 4000000 in
theorem w2 (c : Dev nD) : W13 m ρ c (Proc.devRef .tc main_v139)
    = sqSlice ![4, 0, 0] slices_S5x128x128_S1x128x128_4_0_0 (m ((c : Thread nD τ).loc main_arg8)) := by
  read13
  rw [W12_of_ne m ρ c main_arg8 (by decide), Keep.keep11_main_arg8 m ρ c, Stage0.arg8 m ρ c]
  set_option maxRecDepth 200000 in rfl

set_option maxHeartbeats 4000000 in
theorem b2 (c : Dev nD) : W13 m ρ c (Proc.devRef .tc main_v145)
    = rowSlice ![4, 0] slices_S5x128_S1x128_4_0 (m ((c : Thread nD τ).loc main_arg9)) := by
  read13
  rw [W12_of_ne m ρ c main_arg9 (by decide), Keep.keep11_main_arg9 m ρ c, Stage0.arg9 m ρ c]
  set_option maxRecDepth 200000 in rfl

set_option maxHeartbeats 4000000 in
theorem l1 (c : Dev nD) : W13 m ρ c (Proc.devRef .tc main_arg10) = m ((c : Thread nD τ).loc main_arg10) := by
  read13
  rw [W12_of_ne m ρ c main_arg10 (by decide), Keep.keep11_main_arg10 m ρ c, Stage0.arg10 m ρ c]

set_option maxHeartbeats 4000000 in
theorem lb1 (c : Dev nD) : W13 m ρ c (Proc.devRef .tc main_v146)
    = shapeCast S1x128 (m ((c : Thread nD τ).loc main_arg11)) shapeCasts_S128_S1x128 := by
  read13
  rw [W12_of_ne m ρ c main_arg11 (by decide), Keep.keep11_main_arg11 m ρ c, Stage0.arg11 m ρ c]
  set_option maxRecDepth 200000 in rfl

set_option maxHeartbeats 4000000 in
theorem l2 (c : Dev nD) : W13 m ρ c (Proc.devRef .tc main_v10) = padWArr (m ((c : Thread nD τ).loc main_arg12)) := by
  read13
  rw [W12_of_ne m ρ c main_v10 (by decide), Keep.keep11_main_v10 m ρ c, Stage0.padw m ρ c]

set_option maxHeartbeats 4000000 in
theorem lb2 (c : Dev nD) : W13 m ρ c (Proc.devRef .tc main_v147)
    = shapeCast S1x128 (padBArr (m ((c : Thread nD τ).loc main_arg13))) shapeCasts_S128_S1x128 := by
  read13
  rw [W12_of_ne m ρ c main_v11 (by decide), Keep.keep11_main_v11 m ρ c, Stage0.padb m ρ c]
  set_option maxRecDepth 200000 in rfl

end Cert.Gin.Stage4

end
-- ==== Proof.Spec.lean ====
/-
  The network both programs compute, as functions of the argument arrays, index by index.

  A graph network of five layers over a table of 100000 nodes with 128 features. One layer takes
  the table h and the neighbour sums A h (A is the aggregation over the edge list, the same
  gather-then-scatter-add in both programs, kept abstract here) and returns
      relu( relu( bn( (h + A h) W1 + b1 ) ) W2 + b2 ),
  where bn is the batch normalisation with stored statistics. The normalisation is spelled in two
  ways. The plain form subtracts the mean, multiplies by the scale gamma / sqrt(var + eps), and adds
  beta. The folded form multiplies by the scale and adds the shift beta - mean * scale. After the fifth
  layer come a dense layer with relu, a dense layer onto 10 classes, and the logarithm of the softmax
  along the classes. The plain form does this on the 10 class columns. The padded form works on 128
  columns: the last dense layer's weights and bias are extended by zero columns, the 118 extra
  columns are then filled with the bottom element, and the first 10 columns of the result are kept.
-/
import Idealize.ShloMosaic.PureOps.Ideal
import Idealize.ShloMosaic.Lib.ValueIdx

noncomputable section

open scoped BigOperators

namespace Cert.Gin

open Idealize.ShloMosaic Idealize.ShloMosaic.ValueIdx

/-- The node table: 100000 rows of 128 features. -/
abbrev Tbl := (⟨2, ![100000, 128]⟩ : Shape).Idx → EReal
/-- Five square weight matrices. -/
abbrev W5 := (⟨3, ![5, 128, 128]⟩ : Shape).Idx → EReal
/-- Five feature vectors. -/
abbrev P5 := (⟨2, ![5, 128]⟩ : Shape).Idx → EReal
/-- The result: 100000 rows of 10 class scores. -/
abbrev Out := (⟨2, ![100000, 10]⟩ : Shape).Idx → EReal

/-- The parameters of the network, and the positive constant of the normalisation. -/
structure Params where
  W1 : W5
  b1 : P5
  gamma : P5
  beta : P5
  mean : P5
  var : P5
  W2 : W5
  b2 : P5
  lin1w : (⟨2, ![128, 128]⟩ : Shape).Idx → EReal
  lin1b : (⟨1, ![128]⟩ : Shape).Idx → EReal
  lin2w : (⟨2, ![128, 10]⟩ : Shape).Idx → EReal
  lin2b : (⟨1, ![10]⟩ : Shape).Idx → EReal
  eps : EReal

/-- The normalisation's constant as both programs print it: the single-precision number nearest 1e-5. -/
def epsLit : EReal := Ideal.ofBits .f32 0x3727C5AC#32

variable (P : Params) (A : Tbl → Tbl)

/-- Row r, feature k of (h + A h) W1[l] + b1[l]. -/
def pre1 (l : Fin 5) (h : Tbl) (r : Fin 100000) (k : Fin 128) : EReal :=
  (∑ k' : Fin 128, (h (ix2 r k') + A h (ix2 r k')) * P.W1 (ix3 l k' k)) + P.b1 (ix2 l k)

/-- The normalisation's scale of layer l, feature k: gamma / sqrt(var + eps). -/
def scale (l : Fin 5) (k : Fin 128) : EReal :=
  Ideal.div (P.gamma (ix2 l k)) (Ideal.sqrt (P.var (ix2 l k) + P.eps))

/-- The hidden activation, plain form: subtract the mean, scale, add beta, relu. -/
def hidR (l : Fin 5) (h : Tbl) (r : Fin 100000) (k : Fin 128) : EReal :=
  max ((pre1 P A l h r k - P.mean (ix2 l k)) * scale P l k + P.beta (ix2 l k)) 0

/-- The hidden activation, folded form: scale, add the shift beta - mean * scale, relu. -/
def hidK (l : Fin 5) (h : Tbl) (r : Fin 100000) (k : Fin 128) : EReal :=
  max (pre1 P A l h r k * scale P l k + (P.beta (ix2 l k) - P.mean (ix2 l k) * scale P l k)) 0

/-- One layer, plain form. -/
def layerR (l : Fin 5) (h : Tbl) : Tbl := fun i =>
  max ((∑ k : Fin 128, hidR P A l h (i 0) k * P.W2 (ix3 l k (i 1))) + P.b2 (ix2 l (i 1))) 0

/-- One layer, folded form. -/
def layerK (l : Fin 5) (h : Tbl) : Tbl := fun i =>
  max ((∑ k : Fin 128, hidK P A l h (i 0) k * P.W2 (ix3 l k (i 1))) + P.b2 (ix2 l (i 1))) 0

/-- The five layers, plain form. -/
def featR (x : Tbl) : Tbl := layerR P A 4 (layerR P A 3 (layerR P A 2 (layerR P A 1 (layerR P A 0 x))))

/-- The five layers, folded form. -/
def featK (x : Tbl) : Tbl := layerK P A 4 (layerK P A 3 (layerK P A 2 (layerK P A 1 (layerK P A 0 x))))

/-- The dense layer with relu that follows the five layers: row r, feature k. -/
def head1 (h : Tbl) (r : Fin 100000) (k : Fin 128) : EReal :=
  max ((∑ k' : Fin 128, h (ix2 r k') * P.lin1w (ix2 k' k)) + P.lin1b (ix1 k)) 0

/-- The class scores: row r, class j. -/
def logitR (h : Tbl) (r : Fin 100000) (j : Fin 10) : EReal :=
  (∑ k : Fin 128, head1 P h r k * P.lin2w (ix2 k j)) + P.lin2b (ix1 j)

/-- The logarithm of the softmax over the 10 classes (the largest score, joined with the bottom
    element once more, is subtracted first). -/
def outR (h : Tbl) : Out := fun i =>
  (logitR P h (i 0) (i 1) - max ⊥ (Finset.univ.sup fun j : Fin 10 => logitR P h (i 0) j))
    - Ideal.log (0 + ∑ j : Fin 10,
        Ideal.exp (logitR P h (i 0) j - max ⊥ (Finset.univ.sup fun j : Fin 10 => logitR P h (i 0) j)))

/-- The last weight matrix extended by 118 zero columns. -/
def padW (k : Fin 128) (j : Fin 128) : EReal :=
  if h : j.val < 10 then P.lin2w (ix2 k ⟨j.val, h⟩) else 0

/-- The last bias extended by 118 zeros. -/
def padb (j : Fin 128) : EReal :=
  if h : j.val < 10 then P.lin2b (ix1 ⟨j.val, h⟩) else 0

/-- The scores over 128 columns. -/
def logitK (h : Tbl) (r : Fin 100000) (j : Fin 128) : EReal :=
  (∑ k : Fin 128, head1 P h r k * padW P k j) + padb P j

/-- The scores with the 118 extra columns filled with the bottom element. -/
def maskK (h : Tbl) (r : Fin 100000) (j : Fin 128) : EReal :=
  if j.val < 10 then logitK P h r j else ⊥

/-- The logarithm of the softmax over the 128 masked columns. -/
def outK128 (h : Tbl) : Tbl := fun i =>
  (maskK P h (i 0) (i 1) - Finset.univ.sup fun j : Fin 128 => maskK P h (i 0) j)
    - Ideal.log (0 + ∑ j : Fin 128,
        Ideal.exp (maskK P h (i 0) j - Finset.univ.sup fun j : Fin 128 => maskK P h (i 0) j))

/-- Its first 10 columns. -/
def outK (h : Tbl) : Out := fun i => outK128 P h (ix2 (i 0) (Fin.castLE (by norm_num) (i 1)))

end Cert.Gin

end
-- ==== Proof.SpecBlock.lean ====
/-
  The per-row functions, taken on the whole table with the parameters of one layer (or of the head)
  in place, are the folded, padded form of the specification: the per-row layer is the folded layer,
  and the per-row logarithm of the softmax over 128 masked columns, read at its first 10 columns, is
  the padded form of the result. Each is an unfolding of the two definitions side by side.
-/
import proofs.«179956_j20864951124664_2_alg».proof.Proof.Spec
import proofs.«179956_j20864951124664_2_alg».proof.Proof.Block

noncomputable section

open scoped BigOperators

namespace Cert.Gin

open Idealize.ShloMosaic Idealize.ShloMosaic.ValueIdx

section Layer

variable (P : Params) (A : Tbl → Tbl) (l : Fin 5) (h : Tbl) (w1 w2 : Sq) (b1 s sh b2 : Row)
  (hw1 : ∀ a b : Fin 128, w1 (ix2 a b) = P.W1 (ix3 l a b)) (hb1 : ∀ k : Fin 128, b1 (ix2 0 k) = P.b1 (ix2 l k))
  (hs : ∀ k : Fin 128, s (ix2 0 k) = scale P l k)
  (hsh : ∀ k : Fin 128, sh (ix2 0 k) = P.beta (ix2 l k) - P.mean (ix2 l k) * scale P l k)
  (hw2 : ∀ a b : Fin 128, w2 (ix2 a b) = P.W2 (ix3 l a b)) (hb2 : ∀ k : Fin 128, b2 (ix2 0 k) = P.b2 (ix2 l k))

include hw1 hb1 hs hsh in
/-- With the layer's first matrix, first bias, scale row and shift row in place, the per-row hidden
    activation on the whole table and its neighbour sums is the folded hidden activation. -/
theorem bHid_eq_hidK :
    bHid (n := 100000) h (A h) w1 b1 s sh = hidK P A l h := by
  funext p k
  unfold bHid hidK pre1
  simp only [hw1, hb1, hs, hsh]

include hw1 hb1 hs hsh hw2 hb2 in
/-- With the layer's parameters in place, the per-row layer at row r, column q is the folded layer
    at the index (r, q). -/
theorem bLayer_eq_layerK (r : Fin 100000) (q : Fin 128) :
    bLayer (n := 100000) h (A h) w1 b1 s sh w2 b2 r q = layerK P A l h (ix2 r q) := by
  show _ = max ((∑ k : Fin 128, hidK P A l h r k * P.W2 (ix3 l k q)) + P.b2 (ix2 l q)) 0
  unfold bLayer
  rw [bHid_eq_hidK P A l h w1 b1 s sh hw1 hb1 hs hsh]
  simp only [hw2, hb2]

include hw1 hb1 hs hsh hw2 hb2 in
/-- The per-row layer on the whole table, read by table index, is the folded layer. -/
theorem layerK_of_rows :
    (fun i : (⟨2, ![100000, 128]⟩ : Shape).Idx => bLayer (n := 100000) h (A h) w1 b1 s sh w2 b2 (i 0) (i 1))
      = layerK P A l h := by
  funext i
  exact (bLayer_eq_layerK P A l h w1 w2 b1 s sh b2 hw1 hb1 hs hsh hw2 hb2 (i 0) (i 1)).trans
    (congrArg (layerK P A l h) (eq_ix2 i).symm)

end Layer

section Head

variable (P : Params) (h5 : Tbl) (l1 l2 : Sq) (lb1 lb2 : Row)
  (hl1 : ∀ a b : Fin 128, l1 (ix2 a b) = P.lin1w (ix2 a b)) (hlb1 : ∀ k : Fin 128, lb1 (ix2 0 k) = P.lin1b (ix1 k))
  (hl2 : ∀ k j : Fin 128, l2 (ix2 k j) = padW P k j) (hlb2 : ∀ j : Fin 128, lb2 (ix2 0 j) = padb P j)

include hl1 hlb1 in
/-- With the first dense layer's matrix and bias in place, the per-row dense layer on the table's
    rows is the specification's. -/
theorem bHead1_eq_head1 :
    bHead1 (n := 100000) (fun r k => h5 (ix2 r k)) l1 lb1 = head1 P h5 := by
  funext p k
  unfold bHead1 head1
  simp only [hl1, hlb1]

include hl1 hlb1 hl2 hlb2 in
/-- With the extended last matrix and bias in place as well, the per-row masked scores are the
    specification's masked scores. -/
theorem bMask_eq_maskK :
    bMask (n := 100000) (fun r k => h5 (ix2 r k)) l1 lb1 l2 lb2 = maskK P h5 := by
  funext p j
  unfold bMask maskK bLogit logitK
  rw [bHead1_eq_head1 P h5 l1 lb1 hl1 hlb1]
  simp only [hl2, hlb2]

include hl1 hlb1 hl2 hlb2 in
/-- The per-row logarithm of the softmax on the whole table, read at the first 10 columns by result
    index, is the padded form of the specification's result. -/
theorem outK_of_rows :
    (fun i : (⟨2, ![100000, 10]⟩ : Shape).Idx =>
        bOut (n := 100000) (fun r k => h5 (ix2 r k)) l1 lb1 l2 lb2 (i 0) (Fin.castLE (by norm_num) (i 1)))
      = outK P h5 := by
  funext i
  show bOut (n := 100000) (fun r k => h5 (ix2 r k)) l1 lb1 l2 lb2 (i 0) (Fin.castLE (by norm_num) (i 1))
    = outK128 P h5 (ix2 (i 0) (Fin.castLE (by norm_num) (i 1)))
  unfold bOut outK128
  rw [bMask_eq_maskK P h5 l1 l2 lb1 lb2 hl1 hlb1 hl2 hlb2]

end Head

end Cert.Gin

end
-- ==== Proof.Slices.lean ====
/-
  Library operations read at an index, over variables: a layer's matrix or row cut out of the stacked
  parameters, a vector given a unit axis, the last layer's matrix and bias extended by padding
  columns, the first 10 columns of a table, and the normalisation's scale and the padding value as
  the programs spell them on whole arrays. The shape side conditions are hypotheses, so each
  statement serves every layer.
-/
import proofs.«179956_j20864951124664_2_alg».proof.Proof.Spec
import Idealize.ShloMosaic.Lib.ValueLayout
import Idealize.ShloMosaic.Lib.KernelVsHost

noncomputable section

open scoped BigOperators

namespace Cert.Gin

open Idealize.ShloMosaic Idealize.ShloMosaic.ValueIdx

section Slices

variable {α : Type}

/-- Layer l of a stack of five square matrices, cut out as a block of one matrix and read without
    its leading unit axis, has at (a, b) the stack's entry (l, a, b). -/
theorem sq_slice (A : (⟨3, ![5, 128, 128]⟩ : Shape).Idx → α) (l : Fin 5)
    (h1 : (⟨3, ![5, 128, 128]⟩ : Shape).Slices ![l.val, 0, 0] ⟨3, ![1, 128, 128]⟩)
    (h2 : (⟨3, ![1, 128, 128]⟩ : Shape).ShapeCasts ⟨2, ![128, 128]⟩) (a b : Fin 128) :
    shapeCast ⟨2, ![128, 128]⟩ (extractStridedSlice ⟨3, ![1, 128, 128]⟩ ![l.val, 0, 0] A h1) h2 (ix2 a b)
      = A (ix3 l a b) := by
  refine (shapeCast_1ab_ab_apply _ h2 a b).trans ?_
  exact extractStridedSlice_apply _ _ h1 _ _ (fun ax => by
    match ax with
    | ⟨0, _⟩ => exact (Nat.add_zero _).symm
    | ⟨1, _⟩ => exact (Nat.zero_add _).symm
    | ⟨2, _⟩ => exact (Nat.zero_add _).symm)

/-- Row l of a stack of five rows, cut out as a block of one row, flattened to a vector and given a
    leading unit axis again, has at (0, k) the stack's entry (l, k). -/
theorem row_slice (A : (⟨2, ![5, 128]⟩ : Shape).Idx → α) (l : Fin 5)
    (h1 : (⟨2, ![5, 128]⟩ : Shape).Slices ![l.val, 0] ⟨2, ![1, 128]⟩)
    (h2 : (⟨2, ![1, 128]⟩ : Shape).ShapeCasts ⟨1, ![128]⟩)
    (h3 : (⟨1, ![128]⟩ : Shape).ShapeCasts ⟨2, ![1, 128]⟩) (k : Fin 128) :
    shapeCast ⟨2, ![1, 128]⟩
        (shapeCast ⟨1, ![128]⟩ (extractStridedSlice ⟨2, ![1, 128]⟩ ![l.val, 0] A h1) h2) h3 (ix2 0 k)
      = A (ix2 l k) := by
  refine (shapeCast_a_1a_apply _ h3 0 k).trans ?_
  refine (shapeCast_1a_a_apply _ h2 k).trans ?_
  exact slice2_axis0_apply l.val A h1 0 k l (Nat.add_zero _).symm

/-- A vector of 128 entries given a leading unit axis has at (0, k) the vector's entry k. -/
theorem vec_row (v : (⟨1, ![128]⟩ : Shape).Idx → α)
    (h : (⟨1, ![128]⟩ : Shape).ShapeCasts ⟨2, ![1, 128]⟩) (k : Fin 128) :
    shapeCast ⟨2, ![1, 128]⟩ v h (ix2 0 k) = v (ix1 k) :=
  shapeCast_a_1a_apply v h 0 k

/-- A 128 x 10 matrix extended on the right by 118 columns of the padding value has at (k, j) the
    matrix's entry for j < 10 and the padding value otherwise. -/
theorem pad_sq (x : (⟨2, ![128, 10]⟩ : Shape).Idx → α) (z : (⟨0, ![]⟩ : Shape).Idx → α)
    (hp : (⟨2, ![128, 10]⟩ : Shape).Pads ![0, 0] ![0, 118] ![0, 0] ⟨2, ![128, 128]⟩)
    (hs : 0 < (⟨0, ![]⟩ : Shape).numel) (k j : Fin 128) :
    pad ⟨2, ![128, 128]⟩ ![0, 0] ![0, 118] ![0, 0] x z hp hs (ix2 k j)
      = if h : j.val < 10 then x (ix2 k ⟨j.val, h⟩) else z ix0 := by
  by_cases h : j.val < 10
  · rw [dif_pos h]
    exact pad_apply_of_inside _ _ _ x z hp hs _ (ix2 k (⟨j.val, h⟩ : Fin 10)) (fun ax => by
      match ax with
      | ⟨0, _⟩ => show k.val = 0 + k.val * (0 + 1); omega
      | ⟨1, _⟩ => show j.val = 0 + j.val * (0 + 1); omega)
  · rw [dif_neg h]
    refine (pad_apply_of_not_inside _ _ _ x z hp hs _ (1 : Fin 2) (fun hin => h ?_)).trans
      (congrArg z (eq_ix0 _))
    have e : (j.val - 0) / (0 + 1) < 10 := hin.2.2
    omega

/-- A vector of 10 entries extended by 118 copies of the padding value has at j the vector's entry
    for j < 10 and the padding value otherwise. -/
theorem pad_vec (x : (⟨1, ![10]⟩ : Shape).Idx → α) (z : (⟨0, ![]⟩ : Shape).Idx → α)
    (hp : (⟨1, ![10]⟩ : Shape).Pads ![0] ![118] ![0] ⟨1, ![128]⟩)
    (hs : 0 < (⟨0, ![]⟩ : Shape).numel) (j : Fin 128) :
    pad ⟨1, ![128]⟩ ![0] ![118] ![0] x z hp hs (ix1 j)
      = if h : j.val < 10 then x (ix1 ⟨j.val, h⟩) else z ix0 := by
  by_cases h : j.val < 10
  · rw [dif_pos h]
    exact pad_apply_of_inside _ _ _ x z hp hs _ (ix1 (⟨j.val, h⟩ : Fin 10)) (fun ax => by
      match ax with
      | ⟨0, _⟩ => show j.val = 0 + j.val * (0 + 1); omega)
  · rw [dif_neg h]
    refine (pad_apply_of_not_inside _ _ _ x z hp hs _ (0 : Fin 1) (fun hin => h ?_)).trans
      (congrArg z (eq_ix0 _))
    have e : (j.val - 0) / (0 + 1) < 10 := hin.2.2
    omega

/-- The first 10 columns of a table of 128 columns have at (r, j) the table's entry (r, j). -/
theorem out_slice (X : (⟨2, ![100000, 128]⟩ : Shape).Idx → α)
    (h : (⟨2, ![100000, 128]⟩ : Shape).Slices ![0, 0] ⟨2, ![100000, 10]⟩) (r : Fin 100000) (j : Fin 10) :
    extractStridedSlice ⟨2, ![100000, 10]⟩ ![0, 0] X h (ix2 r j) = X (ix2 r (Fin.castLE (by norm_num) j)) :=
  slice2_axis1_apply 0 X h r j (Fin.castLE (by norm_num) j) (Nat.zero_add _).symm

end Slices

section Values

/-- The normalisation's scale as the programs spell it on whole arrays — gamma divided by the square
    root of var plus the printed constant — is, entry by entry, the quotient the specification
    names. -/
theorem scale_read (gamma var : (⟨2, ![5, 128]⟩ : Shape).Idx → EReal)
    (h : (⟨0, ![]⟩ : Shape).BroadcastsInDim ⟨2, ![5, 128]⟩ (![] : Fin 0 → Fin 2)) (l : Fin 5) (k : Fin 128) :
    (Host.divf (F := Ideal) (φ := .f32) gamma (Host.sqrt (F := Ideal) (φ := .f32)
        (addf (F := Ideal) (φ := .f32) var
          (broadcastInDim ⟨2, ![5, 128]⟩ ![] h (constant (F := Ideal) ⟨0, ![]⟩ .f32 0x3727C5AC#32))))) (ix2 l k)
      = Ideal.div (gamma (ix2 l k)) (Ideal.sqrt (var (ix2 l k) + epsLit)) := rfl

/-- The integer 0 converted to a float is the extended real 0. -/
theorem zero_fill :
    (sitofp (F := Ideal) .f32 (constantI ⟨0, ![]⟩ 32 0#32)) ix0 = (0 : EReal) := by
  show (((0#32 : BitVec 32).toInt : ℝ) : EReal) = 0
  simp

end Values

end Cert.Gin

end
-- ==== Proof.KNet.lean ====
/-
  The kernel program's result is the folded form of the network.

  Each of the first four launches leaves, in its result array, one layer (folded form) of the table it
  found, with that table's neighbour sums and with layer l's slices of the stacked parameters; the fifth
  leaves the fifth layer followed by the head over 128 lanes; the program returns the first ten columns.
  Chaining the five gives the specification's folded form of the input table.
-/
import proofs.«179956_j20864951124664_2_alg».proof.Proof.KRegion0
import proofs.«179956_j20864951124664_2_alg».proof.Proof.KRegion1
import proofs.«179956_j20864951124664_2_alg».proof.Proof.KRegion2
import proofs.«179956_j20864951124664_2_alg».proof.Proof.KRegion3
import proofs.«179956_j20864951124664_2_alg».proof.Proof.KRegion4
import proofs.«179956_j20864951124664_2_alg».proof.Proof.KStage1
import proofs.«179956_j20864951124664_2_alg».proof.Proof.KStage2
import proofs.«179956_j20864951124664_2_alg».proof.Proof.KStage3
import proofs.«179956_j20864951124664_2_alg».proof.Proof.KStage4
import proofs.«179956_j20864951124664_2_alg».proof.Proof.SpecBlock
import proofs.«179956_j20864951124664_2_alg».proof.Proof.Slices

set_option maxRecDepth 16384

noncomputable section

open scoped BigOperators

namespace Cert.Gin.Net

open Cert.KernelIdeal Cert.KernelIdeal.Gen Cert.Gin Cert.Gin.K
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The network's parameters: the argument arrays, in the order of the entry point's parameters. -/
def paramsK (c : Dev nD) : Params :=
  ⟨m ((c : Thread nD τ).loc main_arg2), m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8), m ((c : Thread nD τ).loc main_arg9),
   m ((c : Thread nD τ).loc main_arg10), m ((c : Thread nD τ).loc main_arg11), m ((c : Thread nD τ).loc main_arg12), m ((c : Thread nD τ).loc main_arg13), epsLit⟩

/-- The aggregation over the program's edge list. -/
def aggK (c : Dev nD) : Tbl → Tbl :=
  aggOf (srcIx (m ((c : Thread nD τ).loc main_arg1))) (dstIx (m ((c : Thread nD τ).loc main_arg1)))

/-- The folded scale, read at layer l, feature k. -/
theorem scale_at (c : Dev nD) (l : Fin 5) (k : Fin 128) :
    scaleArr (m ((c : Thread nD τ).loc main_arg4)) (m ((c : Thread nD τ).loc main_arg7)) (ix2 l k) = scale (paramsK m c) l k :=
  scale_read (m ((c : Thread nD τ).loc main_arg4)) (m ((c : Thread nD τ).loc main_arg7)) bcast_S_S5x128 l k

/-- The layer on the whole table with layer l's slices is the specification's folded layer. -/
theorem layer_eq (c : Dev nD) (l : Fin 5) (hW : S5x128x128.Slices ![l.val, 0, 0] S1x128x128)
    (hR : S5x128.Slices ![l.val, 0] S1x128) (h : Tbl) :
    (fun i : S100000x128.Idx => bLayer (n := 100000) h (aggK m c h)
      (sqSlice ![l.val, 0, 0] hW (m ((c : Thread nD τ).loc main_arg2))) (rowSlice ![l.val, 0] hR (m ((c : Thread nD τ).loc main_arg3)))
      (rowSlice ![l.val, 0] hR (scaleArr (m ((c : Thread nD τ).loc main_arg4)) (m ((c : Thread nD τ).loc main_arg7))))
      (rowSlice ![l.val, 0] hR (shiftArr (m ((c : Thread nD τ).loc main_arg5)) (m ((c : Thread nD τ).loc main_arg6)) (scaleArr (m ((c : Thread nD τ).loc main_arg4)) (m ((c : Thread nD τ).loc main_arg7)))))
      (sqSlice ![l.val, 0, 0] hW (m ((c : Thread nD τ).loc main_arg8))) (rowSlice ![l.val, 0] hR (m ((c : Thread nD τ).loc main_arg9))) (i 0) (i 1))
    = layerK (paramsK m c) (aggK m c) l h :=
  layerK_of_rows (paramsK m c) (aggK m c) l h _ _ _ _ _ _
    (fun a b => sq_slice _ l hW _ a b)
    (fun k => row_slice _ l hR _ _ k)
    (fun k => (row_slice _ l hR _ _ k).trans (scale_at m c l k))
    (fun k => (row_slice _ l hR _ _ k).trans
      (congrArg (fun t : EReal => (paramsK m c).beta (ix2 l k) - (paramsK m c).mean (ix2 l k) * t) (scale_at m c l k)))
    (fun a b => sq_slice _ l hW _ a b)
    (fun k => row_slice _ l hR _ _ k)

/-- The first launch leaves layer 0 of the table it found. -/
theorem out0 (c : Dev nD) : W6 m ρ c (Proc.devRef .tc main_v38)
    = layerK (paramsK m c) (aggK m c) 0 (m ((c : Thread nD τ).loc main_arg0)) := by
  refine (W6_arr m ρ c 8).trans ((Region0.final (V5 m ρ) c).trans ?_)
  unfold Region0.G
  dsimp only [V5]
  rw [Stage0.x m ρ c, Stage0.agg m ρ c, Stage0.w1 m ρ c, Stage0.b1 m ρ c, Stage0.s m ρ c, Stage0.sh m ρ c, Stage0.w2 m ρ c, Stage0.b2 m ρ c]
  exact layer_eq m c 0 slices_S5x128x128_S1x128x128_0_0_0 slices_S5x128_S1x128_0_0 _

/-- The second launch leaves layer 1 of the table it found. -/
theorem out1 (c : Dev nD) : W8 m ρ c (Proc.devRef .tc main_v65)
    = layerK (paramsK m c) (aggK m c) 1 (W6 m ρ c (Proc.devRef .tc main_v38)) := by
  refine (W8_arr m ρ c 8).trans ((Region1.final (V7 m ρ) c).trans ?_)
  unfold Region1.G
  dsimp only [V7]
  rw [Stage1.tbl m ρ c, Stage1.agg m ρ c, Stage1.w1 m ρ c, Stage1.b1 m ρ c, Stage1.s m ρ c, Stage1.sh m ρ c, Stage1.w2 m ρ c, Stage1.b2 m ρ c]
  exact layer_eq m c 1 slices_S5x128x128_S1x128x128_1_0_0 slices_S5x128_S1x128_1_0 _

/-- The third launch leaves layer 2 of the table it found. -/
theorem out2 (c : Dev nD) : W10 m ρ c (Proc.devRef .tc main_v92)
    = layerK (paramsK m c) (aggK m c) 2 (W8 m ρ c (Proc.devRef .tc main_v65)) := by
  refine (W10_arr m ρ c 8).trans ((Region2.final (V9 m ρ) c).trans ?_)
  unfold Region2.G
  dsimp only [V9]
  rw [Stage2.tbl m ρ c, Stage2.agg m ρ c, Stage2.w1 m ρ c, Stage2.b1 m ρ c, Stage2.s m ρ c, Stage2.sh m ρ c, Stage2.w2 m ρ c, Stage2.b2 m ρ c]
  exact layer_eq m c 2 slices_S5x128x128_S1x128x128_2_0_0 slices_S5x128_S1x128_2_0 _

/-- The fourth launch leaves layer 3 of the table it found. -/
theorem out3 (c : Dev nD) : W12 m ρ c (Proc.devRef .tc main_v119)
    = layerK (paramsK m c) (aggK m c) 3 (W10 m ρ c (Proc.devRef .tc main_v92)) := by
  refine (W12_arr m ρ c 8).trans ((Region3.final (V11 m ρ) c).trans ?_)
  unfold Region3.G
  dsimp only [V11]
  rw [Stage3.tbl m ρ c, Stage3.agg m ρ c, Stage3.w1 m ρ c, Stage3.b1 m ρ c, Stage3.s m ρ c, Stage3.sh m ρ c, Stage3.w2 m ρ c, Stage3.b2 m ρ c]
  exact layer_eq m c 3 slices_S5x128x128_S1x128x128_3_0_0 slices_S5x128_S1x128_3_0 _

/-- The fifth launch leaves layer 4 of the table it found, followed by the head over 128 lanes. -/
theorem out4 (c : Dev nD) : W14 m ρ c (Proc.devRef .tc main_v148)
    = fun i : S100000x128.Idx => bOut (n := 100000)
        (fun r k => layerK (paramsK m c) (aggK m c) 4 (W12 m ρ c (Proc.devRef .tc main_v119)) (ix2 r k))
        (m ((c : Thread nD τ).loc main_arg10)) (shapeCast S1x128 (m ((c : Thread nD τ).loc main_arg11)) shapeCasts_S128_S1x128)
        (padWArr (m ((c : Thread nD τ).loc main_arg12))) (shapeCast S1x128 (padBArr (m ((c : Thread nD τ).loc main_arg13))) shapeCasts_S128_S1x128) (i 0) (i 1) := by
  refine (W14_arr m ρ c 12).trans ((Region4.final (V13 m ρ) c).trans ?_)
  unfold Region4.G
  dsimp only [V13]
  rw [Stage4.tbl m ρ c, Stage4.agg m ρ c, Stage4.w1 m ρ c, Stage4.b1 m ρ c, Stage4.s m ρ c, Stage4.sh m ρ c,
    Stage4.w2 m ρ c, Stage4.b2 m ρ c, Stage4.l1 m ρ c, Stage4.lb1 m ρ c, Stage4.l2 m ρ c, Stage4.lb2 m ρ c]
  have hl := layer_eq m c 4 slices_S5x128x128_S1x128x128_4_0_0 slices_S5x128_S1x128_4_0 (W12 m ρ c (Proc.devRef .tc main_v119))
  have key : ∀ (r : Fin 100000) (k : Fin 128),
      bLayer (n := 100000) (W12 m ρ c (Proc.devRef .tc main_v119))
        (aggOf (srcIx (m ((c : Thread nD τ).loc main_arg1))) (dstIx (m ((c : Thread nD τ).loc main_arg1))) (W12 m ρ c (Proc.devRef .tc main_v119)))
        (sqSlice ![4, 0, 0] slices_S5x128x128_S1x128x128_4_0_0 (m ((c : Thread nD τ).loc main_arg2)))
        (rowSlice ![4, 0] slices_S5x128_S1x128_4_0 (m ((c : Thread nD τ).loc main_arg3)))
        (rowSlice ![4, 0] slices_S5x128_S1x128_4_0 (scaleArr (m ((c : Thread nD τ).loc main_arg4)) (m ((c : Thread nD τ).loc main_arg7))))
        (rowSlice ![4, 0] slices_S5x128_S1x128_4_0 (shiftArr (m ((c : Thread nD τ).loc main_arg5)) (m ((c : Thread nD τ).loc main_arg6)) (scaleArr (m ((c : Thread nD τ).loc main_arg4)) (m ((c : Thread nD τ).loc main_arg7)))))
        (sqSlice ![4, 0, 0] slices_S5x128x128_S1x128x128_4_0_0 (m ((c : Thread nD τ).loc main_arg8)))
        (rowSlice ![4, 0] slices_S5x128_S1x128_4_0 (m ((c : Thread nD τ).loc main_arg9))) r k
      = layerK (paramsK m c) (aggK m c) 4 (W12 m ρ c (Proc.devRef .tc main_v119)) (ix2 r k) := fun r k => congrFun hl (ix2 r k)
  funext i
  simp only [key]

set_option maxHeartbeats 4000000 in
/-- The program returns the first ten columns of the fifth launch's result. -/
theorem ret (c : Dev nD) : W15 m ρ c (Proc.devRef .tc main_v149)
    = extractStridedSlice S100000x10 ![0, 0] (W14 m ρ c (Proc.devRef .tc main_v148)) slices_S100000x128_S100000x10_0_0 := by
  dsimp only [W15]
  simp only [hostOps5]
  after_results_simp

/-- THE KERNEL PROGRAM'S RESULT: the folded form of the network of the argument arrays. -/
theorem result (c : Dev nD) : W15 m ρ c (Proc.devRef .tc main_v149)
    = outK (paramsK m c) (featK (paramsK m c) (aggK m c) (m ((c : Thread nD τ).loc main_arg0))) := by
  rw [ret, out4]
  have h5 : W12 m ρ c (Proc.devRef .tc main_v119) = layerK (paramsK m c) (aggK m c) 3
      (layerK (paramsK m c) (aggK m c) 2 (layerK (paramsK m c) (aggK m c) 1 (layerK (paramsK m c) (aggK m c) 0 (m ((c : Thread nD τ).loc main_arg0))))) := by
    rw [out3, out2, out1, out0]
  rw [h5]
  unfold featK
  have hl1 : ∀ a b : Fin 128, (m ((c : Thread nD τ).loc main_arg10)) (ix2 a b) = (paramsK m c).lin1w (ix2 a b) := fun a b => rfl
  have hlb1 : ∀ k : Fin 128, shapeCast S1x128 (m ((c : Thread nD τ).loc main_arg11)) shapeCasts_S128_S1x128 (ix2 0 k) = (paramsK m c).lin1b (ix1 k) :=
    fun k => vec_row _ _ k
  have hl2 : ∀ k j : Fin 128, padWArr (m ((c : Thread nD τ).loc main_arg12)) (ix2 k j) = padW (paramsK m c) k j := fun k j => by
    refine (pad_sq _ _ _ _ k j).trans ?_
    unfold padW
    split_ifs with h
    · rfl
    · exact zero_fill
  have hlb2 : ∀ j : Fin 128, shapeCast S1x128 (padBArr (m ((c : Thread nD τ).loc main_arg13))) shapeCasts_S128_S1x128 (ix2 0 j) = padb (paramsK m c) j := fun j => by
    refine (vec_row _ _ j).trans ((pad_vec _ _ _ _ j).trans ?_)
    unfold padb
    split_ifs with h
    · rfl
    · exact zero_fill
  rw [← outK_of_rows (paramsK m c) _ (m ((c : Thread nD τ).loc main_arg10)) (padWArr (m ((c : Thread nD τ).loc main_arg12)))
    (shapeCast S1x128 (m ((c : Thread nD τ).loc main_arg11)) shapeCasts_S128_S1x128) (shapeCast S1x128 (padBArr (m ((c : Thread nD τ).loc main_arg13))) shapeCasts_S128_S1x128)
    hl1 hlb1 hl2 hlb2]
  funext i
  obtain ⟨r, j, rfl⟩ : ∃ (r : Fin 100000) (j : Fin 10), i = ix2 r j := ⟨i 0, i 1, eq_ix2 i⟩
  exact out_slice _ _ r j

end Cert.Gin.Net

end
-- ==== Proof.RefAgg.lean ====
/-
  The reference program's operations as functions of variables, read at an index.

  The aggregation of one layer is kept as ONE composed term of the operations the reference prints
  between a layer's input and its neighbour sum: the source row of the edge list is normalised
  (a negative entry has 100000 added), the rows of the table at those entries are gathered, and
  the gathered rows are added into the zero table at the destination row of the edge list. Neither
  the gather nor the scatter is opened here.

  The other building blocks are read at an index: the zero table, a feature vector broadcast along
  the rows, a matrix product as the sum over the contracted axis, and slice number l of a stack of
  five vectors or five matrices as the entries whose leading coordinate is l.
-/
import proofs.«179956_j20864951124664_2_alg».proof.Proof.Spec
import proofs.«179956_j20864951124664_2_alg».proof.Proof.ReadP

noncomputable section

open scoped BigOperators

namespace Cert.Gin.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Gin

/-- The edge list: two rows of 1600000 node numbers. -/
abbrev Edges := (⟨S2x1600000, .i32⟩ : BufTy).Contents (Elt Ideal)
/-- The node table as the reference program types it. -/
abbrev TblC := (⟨S100000x128, .f32⟩ : BufTy).Contents (Elt Ideal)
/-- A square weight matrix. -/
abbrev Mat := (⟨S128x128, .f32⟩ : BufTy).Contents (Elt Ideal)
/-- A feature vector. -/
abbrev Vec := (⟨S128, .f32⟩ : BufTy).Contents (Elt Ideal)
/-- The class scores as the reference program types them. -/
abbrev OutC := (⟨S100000x10, .f32⟩ : BufTy).Contents (Elt Ideal)

/-- The aggregation of one layer: the rows of h at the (normalised) source entries of the edge
    list, added into the zero table at the destination entries. -/
def AggR (e : Edges) (h : Tbl) : Tbl :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (Host.gather gather_S100000x128_S1600000x1_S1600000x128_1_0_n_n_0_1_1128 h
      (broadcastInDim S1600000x1 ![0] bcast_S1600000_S1600000x1_0
        (select
          (cmpi .slt (shapeCast S1600000 (extractStridedSlice S1x1600000 ![0, 0] e slices_S2x1600000_S1x1600000_0_0) shapeCasts_S1x1600000_S1600000)
            (broadcastInDim S1600000 ![] bcast_S_S1600000 (constantI S_ 32 0#32)))
          (addi (shapeCast S1600000 (extractStridedSlice S1x1600000 ![0, 0] e slices_S2x1600000_S1x1600000_0_0) shapeCasts_S1x1600000_S1600000)
            (broadcastInDim S1600000 ![] bcast_S_S1600000 (constantI S_ 32 100000#32)))
          (shapeCast S1600000 (extractStridedSlice S1x1600000 ![0, 0] e slices_S2x1600000_S1x1600000_0_0) shapeCasts_S1x1600000_S1600000))))

/-- The aggregation is the reference's scatter stage of the first layer, as a function of the table. -/
theorem AggR_eq_stage (e : Edges) (h : Tbl) : AggR e h = val_main_v13 (F := Ideal) h e := rfl

/-- The parameters of the network read from the reference's launch memory, in the order of its
    arguments, with the normalisation's constant as printed. -/
def paramsR (m : (ℓ : Loc nD τ sig) → Buf (Elt Ideal) ℓ) (c : Dev nD) : Params :=
  ⟨m ((c.tc : Thread nD τ).loc main_arg2), m ((c.tc : Thread nD τ).loc main_arg3), m ((c.tc : Thread nD τ).loc main_arg4),
   m ((c.tc : Thread nD τ).loc main_arg5), m ((c.tc : Thread nD τ).loc main_arg6), m ((c.tc : Thread nD τ).loc main_arg7),
   m ((c.tc : Thread nD τ).loc main_arg8), m ((c.tc : Thread nD τ).loc main_arg9), m ((c.tc : Thread nD τ).loc main_arg10),
   m ((c.tc : Thread nD τ).loc main_arg11), m ((c.tc : Thread nD τ).loc main_arg12), m ((c.tc : Thread nD τ).loc main_arg13), epsLit⟩

/-! ## The building blocks at an index -/

/-- The zero table. -/
def zeroT : TblC := broadcastInDim S100000x128 ![] bcast_S_S100000x128 (constant (F := Ideal) S_ .f32 0x00000000#32)

theorem zeroT_apply (i : S100000x128.Idx) : zeroT i = 0 := by
  unfold zeroT
  rw [broadcastInDim_apply _ bcast_S_S100000x128 _ i ix0 (fun a => a.elim0), constant_apply, Ideal.ofBits_zero_f32]

/-- A feature vector broadcast along the rows of the table. -/
def rowB (v : Vec) : TblC :=
  broadcastInDim S100000x128 ![0, 1] bcast_S1x128_S100000x128_0_1 (broadcastInDim S1x128 ![1] bcast_S128_S1x128_1 v)

theorem rowB_apply (v : Vec) (a : Fin 100000) (b : Fin 128) : rowB v (ix2 a b) = v (ix1 b) := by
  show val_main_v256 (F := Ideal) v (ix2 a b) = _
  rw [val_main_v256_apply, val_main_v255_apply]
  exact congrArg v (funext fun d => Fin.ext (by match d with | ⟨0, _⟩ => rfl))

/-- The normalisation's constant broadcast to a feature vector. -/
def epsV : Vec := broadcastInDim S128 ![] bcast_S_S128 (constant (F := Ideal) S_ .f32 0x3727C5AC#32)

theorem epsV_apply (j : S128.Idx) : epsV j = epsLit := by
  unfold epsV epsLit
  rw [broadcastInDim_apply _ bcast_S_S128 _ j ix0 (fun a => a.elim0), constant_apply]

/-- The host's quotient of two vectors at an index. -/
theorem hdivf_apply {s : Shape} (x y : FVec Ideal s .f32) (j : s.Idx) : Host.divf (F := Ideal) (φ := .f32) x y j = Ideal.div (x j) (y j) := rfl
/-- The host's square root of a vector at an index. -/
theorem hsqrt_apply {s : Shape} (x : FVec Ideal s .f32) (j : s.Idx) : Host.sqrt (F := Ideal) (φ := .f32) x j = Ideal.sqrt (x j) := rfl
/-- The host's exponential of a vector at an index. -/
theorem hexp_apply {s : Shape} (x : FVec Ideal s .f32) (j : s.Idx) : Host.exp (F := Ideal) (φ := .f32) x j = Ideal.exp (x j) := rfl
/-- The host's logarithm of a vector at an index. -/
theorem hlog_apply {s : Shape} (x : FVec Ideal s .f32) (j : s.Idx) : Host.log (F := Ideal) (φ := .f32) x j = Ideal.log (x j) := rfl

/-- The product of the table with a square matrix at row a, column b: the sum over the contracted axis. -/
theorem dot128_apply (l : TblC) (r : Mat) (a : Fin 100000) (b : Fin 128) :
    Host.dotGeneral (F := Ideal) (φ₁ := .f32) (φ₂ := .f32) dot_S100000x128_S128x128_S100000x128_1_0_0_1_n_n none l r (ix2 a b) = ∑ k : Fin 128, l (ix2 a k) * r (ix2 k b) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 a b) ((ValueIdx.contrEquiv1 dot_S100000x128_S128x128_S100000x128_1_0_0_1_n_n 128 rfl rfl).symm k) = ix2 a k := funext fun d => Fin.ext (by
    match d with
    | ⟨0, _⟩ => exact lhs_main_v17_0 _ _
    | ⟨1, _⟩ => exact (lhs_main_v17_1 _ _).trans hk)
  have er : dot_S100000x128_S128x128_S100000x128_1_0_0_1_n_n.rhsIdx (ix2 a b) ((ValueIdx.contrEquiv1 dot_S100000x128_S128x128_S100000x128_1_0_0_1_n_n 128 rfl rfl).symm k) = ix2 k b := funext fun d => Fin.ext (by
    match d with
    | ⟨0, _⟩ => exact (rhs_main_v17_0 _ _).trans hk
    | ⟨1, _⟩ => exact rhs_main_v17_1 _ _)
  rw [el, er]

/-- The product of the table with the 128 by 10 matrix at row a, class j. -/
theorem dot10_apply (l : TblC) (r : (⟨S128x10, .f32⟩ : BufTy).Contents (Elt Ideal)) (a : Fin 100000) (j : Fin 10) :
    Host.dotGeneral (F := Ideal) (φ₁ := .f32) (φ₂ := .f32) dot_S100000x128_S128x10_S100000x10_1_0_0_1_n_n none l r (ix2 a j) = ∑ k : Fin 128, l (ix2 a k) * r (ix2 k j) := by
  simp only [Host.dotGeneral]
  rw [Ideal.dotGeneral_apply, ← Equiv.sum_comp (ValueIdx.contrEquiv1 dot_S100000x128_S128x10_S100000x10_1_0_0_1_n_n 128 rfl rfl).symm]
  refine Finset.sum_congr rfl fun k _ => ?_
  have hk := ValueIdx.contrEquiv1_symm_val dot_S100000x128_S128x10_S100000x10_1_0_0_1_n_n 128 rfl rfl k
  have el : dot_S100000x128_S128x10_S100000x10_1_0_0_1_n_n.lhsIdx (ix2 a j) ((ValueIdx.contrEquiv1 dot_S100000x128_S128x10_S100000x10_1_0_0_1_n_n 128 rfl rfl).symm k) = ix2 a k := funext fun d => Fin.ext (by
    match d with
    | ⟨0, _⟩ => exact lhs_main_v259_0 _ _
    | ⟨1, _⟩ => exact (lhs_main_v259_1 _ _).trans hk)
  have er : dot_S100000x128_S128x10_S100000x10_1_0_0_1_n_n.rhsIdx (ix2 a j) ((ValueIdx.contrEquiv1 dot_S100000x128_S128x10_S100000x10_1_0_0_1_n_n 128 rfl rfl).symm k) = ix2 k j := funext fun d => Fin.ext (by
    match d with
    | ⟨0, _⟩ => exact (rhs_main_v259_0 _ _).trans hk
    | ⟨1, _⟩ => exact rhs_main_v259_1 _ _)
  rw [el, er]

/-! ## Slice number l of a stack of five -/

/-- Slice 0 of a stack of five vectors. -/
theorem vslice0 (x : (⟨S5x128, .f32⟩ : BufTy).Contents (Elt Ideal)) (a : Fin 128) :
    val_main_v19 (F := Ideal) x (ix1 a) = x (ix2 (0 : Fin 5) a) := by
  rw [val_main_v19_apply, val_main_v18_apply]
  exact congrArg x (funext fun d => Fin.ext (by
    match d with
    | ⟨0, _⟩ => rfl
    | ⟨1, _⟩ => exact Nat.mod_eq_of_lt a.isLt))

/-- Slice 0 of a stack of five matrices. -/
theorem mslice0 (x : (⟨S5x128x128, .f32⟩ : BufTy).Contents (Elt Ideal)) (a b : Fin 128) :
    val_main_v16 (F := Ideal) x (ix2 a b) = x (ix3 (0 : Fin 5) a b) := by
  have ha := a.isLt
  have hb := b.isLt
  rw [val_main_v16_apply, val_main_v15_apply]
  exact congrArg x (funext fun d => Fin.ext (by
    match d with
    | ⟨0, _⟩ => rfl
    | ⟨1, _⟩ => show (a.val * 128 + b.val) / 128 % 128 = a.val; omega
    | ⟨2, _⟩ => show (a.val * 128 + b.val) % 128 = b.val; omega))

/-- Slice 1 of a stack of five vectors. -/
theorem vslice1 (x : (⟨S5x128, .f32⟩ : BufTy).Contents (Elt Ideal)) (a : Fin 128) :
    val_main_v69 (F := Ideal) x (ix1 a) = x (ix2 (1 : Fin 5) a) := by
  rw [val_main_v69_apply, val_main_v68_apply]
  exact congrArg x (funext fun d => Fin.ext (by
    match d with
    | ⟨0, _⟩ => rfl
    | ⟨1, _⟩ => exact Nat.mod_eq_of_lt a.isLt))

/-- Slice 1 of a stack of five matrices. -/
theorem mslice1 (x : (⟨S5x128x128, .f32⟩ : BufTy).Contents (Elt Ideal)) (a b : Fin 128) :
    val_main_v66 (F := Ideal) x (ix2 a b) = x (ix3 (1 : Fin 5) a b) := by
  have ha := a.isLt
  have hb := b.isLt
  rw [val_main_v66_apply, val_main_v65_apply]
  exact congrArg x (funext fun d => Fin.ext (by
    match d with
    | ⟨0, _⟩ => rfl
    | ⟨1, _⟩ => show (a.val * 128 + b.val) / 128 % 128 = a.val; omega
    | ⟨2, _⟩ => show (a.val * 128 + b.val) % 128 = b.val; omega))

/-- Slice 2 of a stack of five vectors. -/
theorem vslice2 (x : (⟨S5x128, .f32⟩ : BufTy).Contents (Elt Ideal)) (a : Fin 128) :
    val_main_v119 (F := Ideal) x (ix1 a) = x (ix2 (2 : Fin 5) a) := by
  rw [val_main_v119_apply, val_main_v118_apply]
  exact congrArg x (funext fun d => Fin.ext (by
    match d with
    | ⟨0, _⟩ => rfl
    | ⟨1, _⟩ => exact Nat.mod_eq_of_lt a.isLt))

/-- Slice 2 of a stack of five matrices. -/
theorem mslice2 (x : (⟨S5x128x128, .f32⟩ : BufTy).Contents (Elt Ideal)) (a b : Fin 128) :
    val_main_v116 (F := Ideal) x (ix2 a b) = x (ix3 (2 : Fin 5) a b) := by
  have ha := a.isLt
  have hb := b.isLt
  rw [val_main_v116_apply, val_main_v115_apply]
  exact congrArg x (funext fun d => Fin.ext (by
    match d with
    | ⟨0, _⟩ => rfl
    | ⟨1, _⟩ => show (a.val * 128 + b.val) / 128 % 128 = a.val; omega
    | ⟨2, _⟩ => show (a.val * 128 + b.val) % 128 = b.val; omega))

/-- Slice 3 of a stack of five vectors. -/
theorem vslice3 (x : (⟨S5x128, .f32⟩ : BufTy).Contents (Elt Ideal)) (a : Fin 128) :
    val_main_v169 (F := Ideal) x (ix1 a) = x (ix2 (3 : Fin 5) a) := by
  rw [val_main_v169_apply, val_main_v168_apply]
  exact congrArg x (funext fun d => Fin.ext (by
    match d with
    | ⟨0, _⟩ => rfl
    | ⟨1, _⟩ => exact Nat.mod_eq_of_lt a.isLt))

/-- Slice 3 of a stack of five matrices. -/
theorem mslice3 (x : (⟨S5x128x128, .f32⟩ : BufTy).Contents (Elt Ideal)) (a b : Fin 128) :
    val_main_v166 (F := Ideal) x (ix2 a b) = x (ix3 (3 : Fin 5) a b) := by
  have ha := a.isLt
  have hb := b.isLt
  rw [val_main_v166_apply, val_main_v165_apply]
  exact congrArg x (funext fun d => Fin.ext (by
    match d with
    | ⟨0, _⟩ => rfl
    | ⟨1, _⟩ => show (a.val * 128 + b.val) / 128 % 128 = a.val; omega
    | ⟨2, _⟩ => show (a.val * 128 + b.val) % 128 = b.val; omega))

/-- Slice 4 of a stack of five vectors. -/
theorem vslice4 (x : (⟨S5x128, .f32⟩ : BufTy).Contents (Elt Ideal)) (a : Fin 128) :
    val_main_v219 (F := Ideal) x (ix1 a) = x (ix2 (4 : Fin 5) a) := by
  rw [val_main_v219_apply, val_main_v218_apply]
  exact congrArg x (funext fun d => Fin.ext (by
    match d with
    | ⟨0, _⟩ => rfl
    | ⟨1, _⟩ => exact Nat.mod_eq_of_lt a.isLt))

/-- Slice 4 of a stack of five matrices. -/
theorem mslice4 (x : (⟨S5x128x128, .f32⟩ : BufTy).Contents (Elt Ideal)) (a b : Fin 128) :
    val_main_v216 (F := Ideal) x (ix2 a b) = x (ix3 (4 : Fin 5) a b) := by
  have ha := a.isLt
  have hb := b.isLt
  rw [val_main_v216_apply, val_main_v215_apply]
  exact congrArg x (funext fun d => Fin.ext (by
    match d with
    | ⟨0, _⟩ => rfl
    | ⟨1, _⟩ => show (a.val * 128 + b.val) / 128 % 128 = a.val; omega
    | ⟨2, _⟩ => show (a.val * 128 + b.val) % 128 = b.val; omega))

end Cert.Gin.Ref

end
-- ==== Proof.RefLayer.lean ====
/-
  One layer of the reference program over variables, read at an index, is one layer of the
  specification in its plain form.

  The reference prints a layer as: add the neighbour sums to the table, multiply by the first
  weight matrix, add the first bias, subtract the mean, multiply by gamma / sqrt(var + eps), add
  beta, take the maximum with zero, multiply by the second weight matrix, add the second bias, take
  the maximum with zero. Here the table and the eight parameter slices are variables, so that the
  five printed layers are five instances of this one function.
-/
import proofs.«179956_j20864951124664_2_alg».proof.Proof.RefAgg

noncomputable section

open scoped BigOperators

namespace Cert.Gin.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Gin

/-- One printed layer as a function of the edge list, the table and the layer's parameter slices
    (first weights, first bias, mean, gamma, var, beta, second weights, second bias). -/
def layerOps (e : Edges) (h : TblC) (W1s : Mat) (b1s mns gs vrs bts : Vec) (W2s : Mat) (b2s : Vec) : TblC :=
  maximumf (F := Ideal) (φ := .f32)
    (addf (F := Ideal) (φ := .f32)
      (Host.dotGeneral (F := Ideal) (φ₁ := .f32) (φ₂ := .f32) dot_S100000x128_S128x128_S100000x128_1_0_0_1_n_n none
        (maximumf (F := Ideal) (φ := .f32)
          (addf (F := Ideal) (φ := .f32)
            (mulf (F := Ideal) (φ := .f32)
              (subf (F := Ideal) (φ := .f32)
                (addf (F := Ideal) (φ := .f32)
                  (Host.dotGeneral (F := Ideal) (φ₁ := .f32) (φ₂ := .f32) dot_S100000x128_S128x128_S100000x128_1_0_0_1_n_n none (addf (F := Ideal) (φ := .f32) h (AggR e h)) W1s)
                  (rowB b1s))
                (rowB mns))
              (rowB (Host.divf (F := Ideal) (φ := .f32) gs (Host.sqrt (F := Ideal) (φ := .f32) (addf (F := Ideal) (φ := .f32) vrs epsV)))))
            (rowB bts))
          zeroT)
        W2s)
      (rowB b2s))
    zeroT

/-- The printed layer at row r, feature c. -/
theorem layerOps_apply (e : Edges) (h : TblC) (W1s : Mat) (b1s mns gs vrs bts : Vec) (W2s : Mat) (b2s : Vec)
    (r : Fin 100000) (c : Fin 128) :
    layerOps e h W1s b1s mns gs vrs bts W2s b2s (ix2 r c) =
      max ((∑ k : Fin 128,
          max ((((∑ k' : Fin 128, (h (ix2 r k') + AggR e h (ix2 r k')) * W1s (ix2 k' k)) + b1s (ix1 k)) - mns (ix1 k))
                * Ideal.div (gs (ix1 k)) (Ideal.sqrt (vrs (ix1 k) + epsLit)) + bts (ix1 k)) 0
            * W2s (ix2 k c)) + b2s (ix1 c)) 0 := by
  unfold layerOps
  simp only [maximumf_apply, addf_apply, mulf_apply, subf_apply, zeroT_apply, rowB_apply, dot128_apply, hdivf_apply,
    hsqrt_apply, epsV_apply]

/-- A printed layer whose parameter slices are slice l of the network's parameters is layer l of
    the specification, plain form, with the aggregation over the same edge list. -/
theorem layerOps_eq (P : Params) (e : Edges) (l : Fin 5) (h : Tbl) (W1s : Mat) (b1s mns gs vrs bts : Vec) (W2s : Mat) (b2s : Vec)
    (hW1 : ∀ a b, W1s (ix2 a b) = P.W1 (ix3 l a b)) (hb1 : ∀ a, b1s (ix1 a) = P.b1 (ix2 l a))
    (hmn : ∀ a, mns (ix1 a) = P.mean (ix2 l a)) (hg : ∀ a, gs (ix1 a) = P.gamma (ix2 l a))
    (hvr : ∀ a, vrs (ix1 a) = P.var (ix2 l a)) (hbt : ∀ a, bts (ix1 a) = P.beta (ix2 l a))
    (hW2 : ∀ a b, W2s (ix2 a b) = P.W2 (ix3 l a b)) (hb2 : ∀ a, b2s (ix1 a) = P.b2 (ix2 l a))
    (heps : epsLit = P.eps) :
    layerOps e h W1s b1s mns gs vrs bts W2s b2s = layerR P (AggR e) l h := by
  funext i
  obtain ⟨r, c, rfl⟩ : ∃ (r : Fin 100000) (c : Fin 128), i = ix2 r c := ⟨i 0, i 1, eq_ix2 i⟩
  rw [layerOps_apply]
  simp only [hW1, hb1, hmn, hg, hvr, hbt, hW2, hb2, heps]
  rfl

end Cert.Gin.Ref

end
-- ==== Proof.RefHead.lean ====
/-
  The reference program's head over variables, read at an index, is the specification's plain head.

  After the five layers the reference prints a dense layer with a maximum with zero, a dense layer
  onto the 10 classes, and the logarithm of the softmax along the classes: the largest score of a
  row (a fold of the maximum from the bottom element, joined with the bottom element once more) is
  subtracted, the exponentials are summed from zero, and the logarithm of the sum is subtracted.
-/
import proofs.«179956_j20864951124664_2_alg».proof.Proof.RefAgg

noncomputable section

open scoped BigOperators

namespace Cert.Gin.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Gin

/-- The class bias broadcast along the rows. -/
def rowB10 (v : (⟨S10, .f32⟩ : BufTy).Contents (Elt Ideal)) : OutC :=
  broadcastInDim S100000x10 ![0, 1] bcast_S1x10_S100000x10_0_1 (broadcastInDim S1x10 ![1] bcast_S10_S1x10_1 v)

theorem rowB10_apply (v : (⟨S10, .f32⟩ : BufTy).Contents (Elt Ideal)) (a : Fin 100000) (j : Fin 10) :
    rowB10 v (ix2 a j) = v (ix1 j) := by
  show val_main_v261 (F := Ideal) v (ix2 a j) = _
  rw [val_main_v261_apply, val_main_v260_apply]
  exact congrArg v (funext fun d => Fin.ext (by match d with | ⟨0, _⟩ => rfl))

/-- The two dense layers: the class scores as a function of the table and the head's parameters. -/
def logitOps (h : TblC) (w1 : Mat) (b1 : Vec) (w2 : (⟨S128x10, .f32⟩ : BufTy).Contents (Elt Ideal))
    (b2 : (⟨S10, .f32⟩ : BufTy).Contents (Elt Ideal)) : OutC :=
  addf (F := Ideal) (φ := .f32)
    (Host.dotGeneral (F := Ideal) (φ₁ := .f32) (φ₂ := .f32) dot_S100000x128_S128x10_S100000x10_1_0_0_1_n_n none
      (maximumf (F := Ideal) (φ := .f32) (addf (F := Ideal) (φ := .f32) (Host.dotGeneral (F := Ideal) (φ₁ := .f32) (φ₂ := .f32) dot_S100000x128_S128x128_S100000x128_1_0_0_1_n_n none h w1) (rowB b1)) zeroT)
      w2)
    (rowB10 b2)

/-- The class scores at row a, class j. -/
theorem logitOps_apply (h : TblC) (w1 : Mat) (b1 : Vec) (w2 : (⟨S128x10, .f32⟩ : BufTy).Contents (Elt Ideal))
    (b2 : (⟨S10, .f32⟩ : BufTy).Contents (Elt Ideal)) (a : Fin 100000) (j : Fin 10) :
    logitOps h w1 b1 w2 b2 (ix2 a j) =
      (∑ k : Fin 128, max ((∑ k' : Fin 128, h (ix2 a k') * w1 (ix2 k' k)) + b1 (ix1 k)) 0 * w2 (ix2 k j)) + b2 (ix1 j) := by
  unfold logitOps
  simp only [maximumf_apply, addf_apply, zeroT_apply, rowB_apply, rowB10_apply, dot128_apply, dot10_apply]

/-- The class scores are the specification's. -/
theorem logitOps_eq (P : Params) (h : Tbl) (a : Fin 100000) (j : Fin 10) :
    logitOps h P.lin1w P.lin1b P.lin2w P.lin2b (ix2 a j) = logitR P h a j := by
  rw [logitOps_apply]
  rfl

/-! ## The logarithm of the softmax -/

/-- A value per row as a one-column table. -/
def col1 (v : (⟨S100000, .f32⟩ : BufTy).Contents (Elt Ideal)) : (⟨S100000x1, .f32⟩ : BufTy).Contents (Elt Ideal) :=
  broadcastInDim S100000x1 ![0] bcast_S100000_S100000x1_0 v

theorem col1_apply (v : (⟨S100000, .f32⟩ : BufTy).Contents (Elt Ideal)) (a : Fin 100000) (z : Fin 1) :
    col1 v (ix2 a z) = v (ix1 a) := by
  unfold col1
  exact broadcastInDim_apply _ bcast_S100000_S100000x1_0 v (ix2 a z) (ix1 a) (fun d => match d with
    | ⟨0, _⟩ => by show a.val = if (100000 : Nat) = 1 then 0 else a.val; rw [if_neg (by decide)])

/-- A one-column table broadcast along the classes. -/
def colX (u : (⟨S100000x1, .f32⟩ : BufTy).Contents (Elt Ideal)) : OutC :=
  broadcastInDim S100000x10 ![0, 1] bcast_S100000x1_S100000x10_0_1 u

theorem colX_apply (u : (⟨S100000x1, .f32⟩ : BufTy).Contents (Elt Ideal)) (a : Fin 100000) (j : Fin 10) :
    colX u (ix2 a j) = u (ix2 a (0 : Fin 1)) := by
  unfold colX
  exact broadcastInDim_apply _ bcast_S100000x1_S100000x10_0_1 u (ix2 a j) (ix2 a (0 : Fin 1)) (fun d => match d with
    | ⟨0, _⟩ => by show a.val = if (100000 : Nat) = 1 then 0 else a.val; rw [if_neg (by decide)]
    | ⟨1, _⟩ => by show 0 = if (1 : Nat) = 1 then 0 else j.val; rw [if_pos rfl])

/-- The single-precision word of minus infinity is the bottom element. -/
theorem negInf_eq : Ideal.ofBits .f32 0xFF800000#32 = ⊥ := by simp [Ideal.ofBits, Ideal.ieee]

/-- The fold of the maximum from the bottom element over a finite family is its supremum. -/
theorem fold_max_eq_sup {n : Nat} (f : Fin n → EReal) :
    (Finset.univ : Finset (Fin n)).fold (FloatOps.maximumf (F := Ideal) (φ := .f32)) ⊥ f = Finset.univ.sup f := by
  induction (Finset.univ : Finset (Fin n)) using Finset.induction_on with
  | empty => simp
  | insert a s ha ih =>
    rw [Finset.fold_insert ha, Finset.sup_insert, ih]
    rfl

/-- The largest score of a row: the reduction along the classes of the maximum from the bottom
    element is the supremum of the row. -/
theorem reduceMax_apply (z : OutC) (a : Fin 100000) :
    Host.reduce FloatOps.maximumf z (constant (F := Ideal) S_ .f32 0xFF800000#32) reducesTo_S100000x10_S100000_d1 h_S_ (ix1 a)
      = Finset.univ.sup fun j : Fin 10 => z (ix2 a j) := by
  rw [Host.reduce_eq_fold_single FloatOps.maximumf z (constant (F := Ideal) S_ .f32 0xFF800000#32) reducesTo_S100000x10_S100000_d1 (by decide) h_S_ (ix1 a),
    constant_apply, negInf_eq]
  refine Eq.trans ?_ (fold_max_eq_sup fun j : Fin 10 => z (ix2 a j))
  refine congrArg (fun f : Fin 10 → EReal => (Finset.univ : Finset (Fin 10)).fold (FloatOps.maximumf (F := Ideal) (φ := .f32)) ⊥ f) (funext fun j => ?_)
  exact congrArg z (funext fun d => Fin.ext (by match d with | ⟨0, _⟩ => rfl | ⟨1, _⟩ => rfl))

/-- The sum of a row from zero. -/
theorem reduceAdd10_apply (y : OutC) (a : Fin 100000) :
    Host.reduceAdd (F := Ideal) (φ := .f32) y (constant (F := Ideal) S_ .f32 0x00000000#32) reducesTo_S100000x10_S100000_d1 h_S_ (ix1 a)
      = 0 + ∑ j : Fin 10, y (ix2 a j) := by
  simp only [Host.reduceAdd, Ideal.hostReduceAdd_def]
  rw [Ideal.hostReduceAdd_single reducesTo_S100000x10_S100000_d1 (by decide), constant_apply, Ideal.ofBits_zero_f32]
  refine congrArg (_ + ·) (Finset.sum_congr rfl fun k _ => ?_)
  exact congrArg y (funext fun d => Fin.ext (by match d with | ⟨0, _⟩ => rfl | ⟨1, _⟩ => rfl))

/-- The largest score of each row, joined with the bottom element once more. -/
def rowMax (z : OutC) : (⟨S100000, .f32⟩ : BufTy).Contents (Elt Ideal) :=
  maximumf (F := Ideal) (φ := .f32) (broadcastInDim S100000 ![] bcast_S_S100000 (constant (F := Ideal) S_ .f32 0xFF800000#32))
    (Host.reduce FloatOps.maximumf z (constant (F := Ideal) S_ .f32 0xFF800000#32) reducesTo_S100000x10_S100000_d1 h_S_)

theorem rowMax_apply (z : OutC) (a : Fin 100000) :
    rowMax z (ix1 a) = max ⊥ (Finset.univ.sup fun j : Fin 10 => z (ix2 a j)) := by
  unfold rowMax
  rw [maximumf_apply, reduceMax_apply, broadcastInDim_apply _ bcast_S_S100000 _ (ix1 a) ix0 (fun d => d.elim0), constant_apply,
    negInf_eq]

/-- The logarithm of the softmax along the classes, as the reference prints it. -/
def lsmOps (z : OutC) : OutC :=
  subf (F := Ideal) (φ := .f32) (subf (F := Ideal) (φ := .f32) z (colX (col1 (rowMax z))))
    (colX (Host.log (F := Ideal) (φ := .f32) (col1 (Host.reduceAdd (F := Ideal) (φ := .f32) (Host.exp (F := Ideal) (φ := .f32) (subf (F := Ideal) (φ := .f32) z (colX (col1 (rowMax z)))))
      (constant (F := Ideal) S_ .f32 0x00000000#32) reducesTo_S100000x10_S100000_d1 h_S_))))

/-- The printed logarithm of the softmax at row a, class j. -/
theorem lsmOps_apply (z : OutC) (a : Fin 100000) (j : Fin 10) :
    lsmOps z (ix2 a j) =
      (z (ix2 a j) - max ⊥ (Finset.univ.sup fun j' : Fin 10 => z (ix2 a j')))
        - Ideal.log (0 + ∑ j' : Fin 10, Ideal.exp (z (ix2 a j') - max ⊥ (Finset.univ.sup fun j'' : Fin 10 => z (ix2 a j'')))) := by
  unfold lsmOps
  simp only [subf_apply, colX_apply, hlog_apply, col1_apply, reduceAdd10_apply, hexp_apply, rowMax_apply]

/-- The head of the reference over variables is the specification's plain head. -/
theorem head_eq (P : Params) (h : Tbl) :
    lsmOps (logitOps h P.lin1w P.lin1b P.lin2w P.lin2b) = outR P h := by
  funext i
  obtain ⟨a, j, rfl⟩ : ∃ (a : Fin 100000) (j : Fin 10), i = ix2 a j := ⟨i 0, i 1, eq_ix2 i⟩
  rw [lsmOps_apply]
  simp only [logitOps_eq]
  rfl

end Cert.Gin.Ref

end
-- ==== Proof.Ref.lean ====
/-
  The reference program computes the specification's plain form.

  Each of the five printed layers is the one layer function over variables at that layer's
  parameter slices, so the table after the fifth layer is the five plain layers of the
  specification applied to the input; the printed head applied to it is the plain head. The
  reference's last stage is therefore the plain network of its arguments.
-/
import proofs.«179956_j20864951124664_2_alg».proof.Proof.RefLayer
import proofs.«179956_j20864951124664_2_alg».proof.Proof.RefHead

noncomputable section

open scoped BigOperators

namespace Cert.Gin.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Gin

section Stages

variable (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))

/-- The parameters of the network from the reference's twelve parameter arguments, in their order. -/
def paramsV : Params := ⟨x2, x3, x4, x5, x6, x7, x8, x9, x10, x11, x12, x13, epsLit⟩

/-- Layer 0 of the reference is layer 0 of the specification applied to the input table. -/
theorem stage0 : val_main_v53 (F := Ideal) x0 x1 x2 x3 x4 x5 x6 x7 x8 x9 = layerR (paramsV x2 x3 x4 x5 x6 x7 x8 x9 x10 x11 x12 x13) (AggR x1) 0 x0 :=
  layerOps_eq (paramsV x2 x3 x4 x5 x6 x7 x8 x9 x10 x11 x12 x13) x1 0 x0
    (val_main_v16 x2) (val_main_v19 x3) (val_main_v19 x6) (val_main_v19 x4) (val_main_v19 x7) (val_main_v19 x5)
    (val_main_v16 x8) (val_main_v19 x9)
    (mslice0 x2) (vslice0 x3) (vslice0 x6) (vslice0 x4) (vslice0 x7) (vslice0 x5) (mslice0 x8) (vslice0 x9) rfl

/-- Layer 1 of the reference is layer 1 of the specification applied to the reference's layer 0. -/
theorem stage1 : val_main_v103 (F := Ideal) x0 x1 x2 x3 x4 x5 x6 x7 x8 x9 = layerR (paramsV x2 x3 x4 x5 x6 x7 x8 x9 x10 x11 x12 x13) (AggR x1) 1 (val_main_v53 (F := Ideal) x0 x1 x2 x3 x4 x5 x6 x7 x8 x9) :=
  layerOps_eq (paramsV x2 x3 x4 x5 x6 x7 x8 x9 x10 x11 x12 x13) x1 1 (val_main_v53 (F := Ideal) x0 x1 x2 x3 x4 x5 x6 x7 x8 x9)
    (val_main_v66 x2) (val_main_v69 x3) (val_main_v69 x6) (val_main_v69 x4) (val_main_v69 x7) (val_main_v69 x5)
    (val_main_v66 x8) (val_main_v69 x9)
    (mslice1 x2) (vslice1 x3) (vslice1 x6) (vslice1 x4) (vslice1 x7) (vslice1 x5) (mslice1 x8) (vslice1 x9) rfl

/-- Layer 2 of the reference is layer 2 of the specification applied to the reference's layer 1. -/
theorem stage2 : val_main_v153 (F := Ideal) x0 x1 x2 x3 x4 x5 x6 x7 x8 x9 = layerR (paramsV x2 x3 x4 x5 x6 x7 x8 x9 x10 x11 x12 x13) (AggR x1) 2 (val_main_v103 (F := Ideal) x0 x1 x2 x3 x4 x5 x6 x7 x8 x9) :=
  layerOps_eq (paramsV x2 x3 x4 x5 x6 x7 x8 x9 x10 x11 x12 x13) x1 2 (val_main_v103 (F := Ideal) x0 x1 x2 x3 x4 x5 x6 x7 x8 x9)
    (val_main_v116 x2) (val_main_v119 x3) (val_main_v119 x6) (val_main_v119 x4) (val_main_v119 x7) (val_main_v119 x5)
    (val_main_v116 x8) (val_main_v119 x9)
    (mslice2 x2) (vslice2 x3) (vslice2 x6) (vslice2 x4) (vslice2 x7) (vslice2 x5) (mslice2 x8) (vslice2 x9) rfl

/-- Layer 3 of the reference is layer 3 of the specification applied to the reference's layer 2. -/
theorem stage3 : val_main_v203 (F := Ideal) x0 x1 x2 x3 x4 x5 x6 x7 x8 x9 = layerR (paramsV x2 x3 x4 x5 x6 x7 x8 x9 x10 x11 x12 x13) (AggR x1) 3 (val_main_v153 (F := Ideal) x0 x1 x2 x3 x4 x5 x6 x7 x8 x9) :=
  layerOps_eq (paramsV x2 x3 x4 x5 x6 x7 x8 x9 x10 x11 x12 x13) x1 3 (val_main_v153 (F := Ideal) x0 x1 x2 x3 x4 x5 x6 x7 x8 x9)
    (val_main_v166 x2) (val_main_v169 x3) (val_main_v169 x6) (val_main_v169 x4) (val_main_v169 x7) (val_main_v169 x5)
    (val_main_v166 x8) (val_main_v169 x9)
    (mslice3 x2) (vslice3 x3) (vslice3 x6) (vslice3 x4) (vslice3 x7) (vslice3 x5) (mslice3 x8) (vslice3 x9) rfl

/-- Layer 4 of the reference is layer 4 of the specification applied to the reference's layer 3. -/
theorem stage4 : val_main_v253 (F := Ideal) x0 x1 x2 x3 x4 x5 x6 x7 x8 x9 = layerR (paramsV x2 x3 x4 x5 x6 x7 x8 x9 x10 x11 x12 x13) (AggR x1) 4 (val_main_v203 (F := Ideal) x0 x1 x2 x3 x4 x5 x6 x7 x8 x9) :=
  layerOps_eq (paramsV x2 x3 x4 x5 x6 x7 x8 x9 x10 x11 x12 x13) x1 4 (val_main_v203 (F := Ideal) x0 x1 x2 x3 x4 x5 x6 x7 x8 x9)
    (val_main_v216 x2) (val_main_v219 x3) (val_main_v219 x6) (val_main_v219 x4) (val_main_v219 x7) (val_main_v219 x5)
    (val_main_v216 x8) (val_main_v219 x9)
    (mslice4 x2) (vslice4 x3) (vslice4 x6) (vslice4 x4) (vslice4 x7) (vslice4 x5) (mslice4 x8) (vslice4 x9) rfl

/-- The table after the reference's fifth layer is the five plain layers of the input table. -/
theorem feat_eq : val_main_v253 (F := Ideal) x0 x1 x2 x3 x4 x5 x6 x7 x8 x9 = featR (paramsV x2 x3 x4 x5 x6 x7 x8 x9 x10 x11 x12 x13) (AggR x1) x0 := by
  rw [stage4 x0 x1 x2 x3 x4 x5 x6 x7 x8 x9 x10 x11 x12 x13, stage3 x0 x1 x2 x3 x4 x5 x6 x7 x8 x9 x10 x11 x12 x13, stage2 x0 x1 x2 x3 x4 x5 x6 x7 x8 x9 x10 x11 x12 x13, stage1 x0 x1 x2 x3 x4 x5 x6 x7 x8 x9 x10 x11 x12 x13, stage0 x0 x1 x2 x3 x4 x5 x6 x7 x8 x9 x10 x11 x12 x13]
  rfl

/-- The reference's last stage is the plain network of its arguments. -/
theorem out_eq : val_main_v263 (F := Ideal) x0 x1 x2 x3 x4 x5 x6 x7 x8 x9 x10 x11 x12 x13 = outR (paramsV x2 x3 x4 x5 x6 x7 x8 x9 x10 x11 x12 x13) (featR (paramsV x2 x3 x4 x5 x6 x7 x8 x9 x10 x11 x12 x13) (AggR x1) x0) := by
  have h : val_main_v263 (F := Ideal) x0 x1 x2 x3 x4 x5 x6 x7 x8 x9 x10 x11 x12 x13
      = lsmOps (logitOps (val_main_v253 (F := Ideal) x0 x1 x2 x3 x4 x5 x6 x7 x8 x9) x10 x11 x12 x13) := rfl
  rw [h, feat_eq x0 x1 x2 x3 x4 x5 x6 x7 x8 x9 x10 x11 x12 x13]
  exact head_eq (paramsV x2 x3 x4 x5 x6 x7 x8 x9 x10 x11 x12 x13) _

end Stages

end Cert.Gin.Ref

end
-- ==== Proof.RefRun.lean ====
/-
  The reference program's run, read one layer at a time.

  @main of the reference is a straight line of 320 operations, so every run ends with each buffer at the fold
  of the operations' results over the launch contents. The line is cut at the five layer outputs; a fold over
  a concatenation is the fold over the second list from the fold over the first. No list writes an argument,
  and only the first writes the two rows of the edge list, so those are still at hand at every cut; from
  them and the previous layer's output each list computes its layer's output, which is the reference's stage
  of that name. The last list computes the result from the fifth layer's output. Hence every run ends with
  the result at the plain network of the launch arguments and with the arguments unchanged.
-/
import proofs.«179956_j20864951124664_2_alg».proof.Proof.RunP
import proofs.«179956_j20864951124664_2_alg».proof.Proof.Ref
import Idealize.ShloMosaic.Lib.Pipeline.Frame

set_option maxRecDepth 8192

noncomputable section

namespace Cert.Gin.Ref

open Cert.ReferenceIdeal Cert.ReferenceIdeal.Gen Cert.ReferenceIdeal.ReadP Cert.ReferenceIdeal.ValueP Idealize.ShloMosaic
  Idealize.ShloMosaic.TcCoe Idealize.SL.Sem Idealize.ShloMosaic.StableHlo Idealize.ShloMosaic.ValueIdx Cert.Gin

/-- Buffer contents that hold the fourteen arguments at given arrays. -/
structure Args (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13

/-! ## What each list leaves unwritten -/

set_option maxHeartbeats 4000000

/-! ### List 0 writes no argument -/

theorem keep0_main_arg0 (V : Valuation τ sig (Elt Ideal)) : after (ops0 (F := Ideal)) V (Proc.devRef .tc main_arg0) = V (Proc.devRef .tc main_arg0) := by
  unfold ops0
  after_results_simp
theorem keep0_main_arg1 (V : Valuation τ sig (Elt Ideal)) : after (ops0 (F := Ideal)) V (Proc.devRef .tc main_arg1) = V (Proc.devRef .tc main_arg1) := by
  unfold ops0
  after_results_simp
theorem keep0_main_arg2 (V : Valuation τ sig (Elt Ideal)) : after (ops0 (F := Ideal)) V (Proc.devRef .tc main_arg2) = V (Proc.devRef .tc main_arg2) := by
  unfold ops0
  after_results_simp
theorem keep0_main_arg3 (V : Valuation τ sig (Elt Ideal)) : after (ops0 (F := Ideal)) V (Proc.devRef .tc main_arg3) = V (Proc.devRef .tc main_arg3) := by
  unfold ops0
  after_results_simp
theorem keep0_main_arg4 (V : Valuation τ sig (Elt Ideal)) : after (ops0 (F := Ideal)) V (Proc.devRef .tc main_arg4) = V (Proc.devRef .tc main_arg4) := by
  unfold ops0
  after_results_simp
theorem keep0_main_arg5 (V : Valuation τ sig (Elt Ideal)) : after (ops0 (F := Ideal)) V (Proc.devRef .tc main_arg5) = V (Proc.devRef .tc main_arg5) := by
  unfold ops0
  after_results_simp
theorem keep0_main_arg6 (V : Valuation τ sig (Elt Ideal)) : after (ops0 (F := Ideal)) V (Proc.devRef .tc main_arg6) = V (Proc.devRef .tc main_arg6) := by
  unfold ops0
  after_results_simp
theorem keep0_main_arg7 (V : Valuation τ sig (Elt Ideal)) : after (ops0 (F := Ideal)) V (Proc.devRef .tc main_arg7) = V (Proc.devRef .tc main_arg7) := by
  unfold ops0
  after_results_simp
theorem keep0_main_arg8 (V : Valuation τ sig (Elt Ideal)) : after (ops0 (F := Ideal)) V (Proc.devRef .tc main_arg8) = V (Proc.devRef .tc main_arg8) := by
  unfold ops0
  after_results_simp
theorem keep0_main_arg9 (V : Valuation τ sig (Elt Ideal)) : after (ops0 (F := Ideal)) V (Proc.devRef .tc main_arg9) = V (Proc.devRef .tc main_arg9) := by
  unfold ops0
  after_results_simp
theorem keep0_main_arg10 (V : Valuation τ sig (Elt Ideal)) : after (ops0 (F := Ideal)) V (Proc.devRef .tc main_arg10) = V (Proc.devRef .tc main_arg10) := by
  unfold ops0
  after_results_simp
theorem keep0_main_arg11 (V : Valuation τ sig (Elt Ideal)) : after (ops0 (F := Ideal)) V (Proc.devRef .tc main_arg11) = V (Proc.devRef .tc main_arg11) := by
  unfold ops0
  after_results_simp
theorem keep0_main_arg12 (V : Valuation τ sig (Elt Ideal)) : after (ops0 (F := Ideal)) V (Proc.devRef .tc main_arg12) = V (Proc.devRef .tc main_arg12) := by
  unfold ops0
  after_results_simp
theorem keep0_main_arg13 (V : Valuation τ sig (Elt Ideal)) : after (ops0 (F := Ideal)) V (Proc.devRef .tc main_arg13) = V (Proc.devRef .tc main_arg13) := by
  unfold ops0
  after_results_simp

/-! ### List 1 writes no argument and neither row of the edge list -/

theorem keep1_main_arg0 (V : Valuation τ sig (Elt Ideal)) : after (ops1 (F := Ideal)) V (Proc.devRef .tc main_arg0) = V (Proc.devRef .tc main_arg0) := by
  unfold ops1
  after_results_simp
theorem keep1_main_arg1 (V : Valuation τ sig (Elt Ideal)) : after (ops1 (F := Ideal)) V (Proc.devRef .tc main_arg1) = V (Proc.devRef .tc main_arg1) := by
  unfold ops1
  after_results_simp
theorem keep1_main_arg2 (V : Valuation τ sig (Elt Ideal)) : after (ops1 (F := Ideal)) V (Proc.devRef .tc main_arg2) = V (Proc.devRef .tc main_arg2) := by
  unfold ops1
  after_results_simp
theorem keep1_main_arg3 (V : Valuation τ sig (Elt Ideal)) : after (ops1 (F := Ideal)) V (Proc.devRef .tc main_arg3) = V (Proc.devRef .tc main_arg3) := by
  unfold ops1
  after_results_simp
theorem keep1_main_arg4 (V : Valuation τ sig (Elt Ideal)) : after (ops1 (F := Ideal)) V (Proc.devRef .tc main_arg4) = V (Proc.devRef .tc main_arg4) := by
  unfold ops1
  after_results_simp
theorem keep1_main_arg5 (V : Valuation τ sig (Elt Ideal)) : after (ops1 (F := Ideal)) V (Proc.devRef .tc main_arg5) = V (Proc.devRef .tc main_arg5) := by
  unfold ops1
  after_results_simp
theorem keep1_main_arg6 (V : Valuation τ sig (Elt Ideal)) : after (ops1 (F := Ideal)) V (Proc.devRef .tc main_arg6) = V (Proc.devRef .tc main_arg6) := by
  unfold ops1
  after_results_simp
theorem keep1_main_arg7 (V : Valuation τ sig (Elt Ideal)) : after (ops1 (F := Ideal)) V (Proc.devRef .tc main_arg7) = V (Proc.devRef .tc main_arg7) := by
  unfold ops1
  after_results_simp
theorem keep1_main_arg8 (V : Valuation τ sig (Elt Ideal)) : after (ops1 (F := Ideal)) V (Proc.devRef .tc main_arg8) = V (Proc.devRef .tc main_arg8) := by
  unfold ops1
  after_results_simp
theorem keep1_main_arg9 (V : Valuation τ sig (Elt Ideal)) : after (ops1 (F := Ideal)) V (Proc.devRef .tc main_arg9) = V (Proc.devRef .tc main_arg9) := by
  unfold ops1
  after_results_simp
theorem keep1_main_arg10 (V : Valuation τ sig (Elt Ideal)) : after (ops1 (F := Ideal)) V (Proc.devRef .tc main_arg10) = V (Proc.devRef .tc main_arg10) := by
  unfold ops1
  after_results_simp
theorem keep1_main_arg11 (V : Valuation τ sig (Elt Ideal)) : after (ops1 (F := Ideal)) V (Proc.devRef .tc main_arg11) = V (Proc.devRef .tc main_arg11) := by
  unfold ops1
  after_results_simp
theorem keep1_main_arg12 (V : Valuation τ sig (Elt Ideal)) : after (ops1 (F := Ideal)) V (Proc.devRef .tc main_arg12) = V (Proc.devRef .tc main_arg12) := by
  unfold ops1
  after_results_simp
theorem keep1_main_arg13 (V : Valuation τ sig (Elt Ideal)) : after (ops1 (F := Ideal)) V (Proc.devRef .tc main_arg13) = V (Proc.devRef .tc main_arg13) := by
  unfold ops1
  after_results_simp
theorem keep1_main_v1 (V : Valuation τ sig (Elt Ideal)) : after (ops1 (F := Ideal)) V (Proc.devRef .tc main_v1) = V (Proc.devRef .tc main_v1) := by
  unfold ops1
  after_results_simp
theorem keep1_main_v3 (V : Valuation τ sig (Elt Ideal)) : after (ops1 (F := Ideal)) V (Proc.devRef .tc main_v3) = V (Proc.devRef .tc main_v3) := by
  unfold ops1
  after_results_simp

/-! ### List 2 writes no argument and neither row of the edge list -/

theorem keep2_main_arg0 (V : Valuation τ sig (Elt Ideal)) : after (ops2 (F := Ideal)) V (Proc.devRef .tc main_arg0) = V (Proc.devRef .tc main_arg0) := by
  unfold ops2
  after_results_simp
theorem keep2_main_arg1 (V : Valuation τ sig (Elt Ideal)) : after (ops2 (F := Ideal)) V (Proc.devRef .tc main_arg1) = V (Proc.devRef .tc main_arg1) := by
  unfold ops2
  after_results_simp
theorem keep2_main_arg2 (V : Valuation τ sig (Elt Ideal)) : after (ops2 (F := Ideal)) V (Proc.devRef .tc main_arg2) = V (Proc.devRef .tc main_arg2) := by
  unfold ops2
  after_results_simp
theorem keep2_main_arg3 (V : Valuation τ sig (Elt Ideal)) : after (ops2 (F := Ideal)) V (Proc.devRef .tc main_arg3) = V (Proc.devRef .tc main_arg3) := by
  unfold ops2
  after_results_simp
theorem keep2_main_arg4 (V : Valuation τ sig (Elt Ideal)) : after (ops2 (F := Ideal)) V (Proc.devRef .tc main_arg4) = V (Proc.devRef .tc main_arg4) := by
  unfold ops2
  after_results_simp
theorem keep2_main_arg5 (V : Valuation τ sig (Elt Ideal)) : after (ops2 (F := Ideal)) V (Proc.devRef .tc main_arg5) = V (Proc.devRef .tc main_arg5) := by
  unfold ops2
  after_results_simp
theorem keep2_main_arg6 (V : Valuation τ sig (Elt Ideal)) : after (ops2 (F := Ideal)) V (Proc.devRef .tc main_arg6) = V (Proc.devRef .tc main_arg6) := by
  unfold ops2
  after_results_simp
theorem keep2_main_arg7 (V : Valuation τ sig (Elt Ideal)) : after (ops2 (F := Ideal)) V (Proc.devRef .tc main_arg7) = V (Proc.devRef .tc main_arg7) := by
  unfold ops2
  after_results_simp
theorem keep2_main_arg8 (V : Valuation τ sig (Elt Ideal)) : after (ops2 (F := Ideal)) V (Proc.devRef .tc main_arg8) = V (Proc.devRef .tc main_arg8) := by
  unfold ops2
  after_results_simp
theorem keep2_main_arg9 (V : Valuation τ sig (Elt Ideal)) : after (ops2 (F := Ideal)) V (Proc.devRef .tc main_arg9) = V (Proc.devRef .tc main_arg9) := by
  unfold ops2
  after_results_simp
theorem keep2_main_arg10 (V : Valuation τ sig (Elt Ideal)) : after (ops2 (F := Ideal)) V (Proc.devRef .tc main_arg10) = V (Proc.devRef .tc main_arg10) := by
  unfold ops2
  after_results_simp
theorem keep2_main_arg11 (V : Valuation τ sig (Elt Ideal)) : after (ops2 (F := Ideal)) V (Proc.devRef .tc main_arg11) = V (Proc.devRef .tc main_arg11) := by
  unfold ops2
  after_results_simp
theorem keep2_main_arg12 (V : Valuation τ sig (Elt Ideal)) : after (ops2 (F := Ideal)) V (Proc.devRef .tc main_arg12) = V (Proc.devRef .tc main_arg12) := by
  unfold ops2
  after_results_simp
theorem keep2_main_arg13 (V : Valuation τ sig (Elt Ideal)) : after (ops2 (F := Ideal)) V (Proc.devRef .tc main_arg13) = V (Proc.devRef .tc main_arg13) := by
  unfold ops2
  after_results_simp
theorem keep2_main_v1 (V : Valuation τ sig (Elt Ideal)) : after (ops2 (F := Ideal)) V (Proc.devRef .tc main_v1) = V (Proc.devRef .tc main_v1) := by
  unfold ops2
  after_results_simp
theorem keep2_main_v3 (V : Valuation τ sig (Elt Ideal)) : after (ops2 (F := Ideal)) V (Proc.devRef .tc main_v3) = V (Proc.devRef .tc main_v3) := by
  unfold ops2
  after_results_simp

/-! ### List 3 writes no argument and neither row of the edge list -/

theorem keep3_main_arg0 (V : Valuation τ sig (Elt Ideal)) : after (ops3 (F := Ideal)) V (Proc.devRef .tc main_arg0) = V (Proc.devRef .tc main_arg0) := by
  unfold ops3
  after_results_simp
theorem keep3_main_arg1 (V : Valuation τ sig (Elt Ideal)) : after (ops3 (F := Ideal)) V (Proc.devRef .tc main_arg1) = V (Proc.devRef .tc main_arg1) := by
  unfold ops3
  after_results_simp
theorem keep3_main_arg2 (V : Valuation τ sig (Elt Ideal)) : after (ops3 (F := Ideal)) V (Proc.devRef .tc main_arg2) = V (Proc.devRef .tc main_arg2) := by
  unfold ops3
  after_results_simp
theorem keep3_main_arg3 (V : Valuation τ sig (Elt Ideal)) : after (ops3 (F := Ideal)) V (Proc.devRef .tc main_arg3) = V (Proc.devRef .tc main_arg3) := by
  unfold ops3
  after_results_simp
theorem keep3_main_arg4 (V : Valuation τ sig (Elt Ideal)) : after (ops3 (F := Ideal)) V (Proc.devRef .tc main_arg4) = V (Proc.devRef .tc main_arg4) := by
  unfold ops3
  after_results_simp
theorem keep3_main_arg5 (V : Valuation τ sig (Elt Ideal)) : after (ops3 (F := Ideal)) V (Proc.devRef .tc main_arg5) = V (Proc.devRef .tc main_arg5) := by
  unfold ops3
  after_results_simp
theorem keep3_main_arg6 (V : Valuation τ sig (Elt Ideal)) : after (ops3 (F := Ideal)) V (Proc.devRef .tc main_arg6) = V (Proc.devRef .tc main_arg6) := by
  unfold ops3
  after_results_simp
theorem keep3_main_arg7 (V : Valuation τ sig (Elt Ideal)) : after (ops3 (F := Ideal)) V (Proc.devRef .tc main_arg7) = V (Proc.devRef .tc main_arg7) := by
  unfold ops3
  after_results_simp
theorem keep3_main_arg8 (V : Valuation τ sig (Elt Ideal)) : after (ops3 (F := Ideal)) V (Proc.devRef .tc main_arg8) = V (Proc.devRef .tc main_arg8) := by
  unfold ops3
  after_results_simp
theorem keep3_main_arg9 (V : Valuation τ sig (Elt Ideal)) : after (ops3 (F := Ideal)) V (Proc.devRef .tc main_arg9) = V (Proc.devRef .tc main_arg9) := by
  unfold ops3
  after_results_simp
theorem keep3_main_arg10 (V : Valuation τ sig (Elt Ideal)) : after (ops3 (F := Ideal)) V (Proc.devRef .tc main_arg10) = V (Proc.devRef .tc main_arg10) := by
  unfold ops3
  after_results_simp
theorem keep3_main_arg11 (V : Valuation τ sig (Elt Ideal)) : after (ops3 (F := Ideal)) V (Proc.devRef .tc main_arg11) = V (Proc.devRef .tc main_arg11) := by
  unfold ops3
  after_results_simp
theorem keep3_main_arg12 (V : Valuation τ sig (Elt Ideal)) : after (ops3 (F := Ideal)) V (Proc.devRef .tc main_arg12) = V (Proc.devRef .tc main_arg12) := by
  unfold ops3
  after_results_simp
theorem keep3_main_arg13 (V : Valuation τ sig (Elt Ideal)) : after (ops3 (F := Ideal)) V (Proc.devRef .tc main_arg13) = V (Proc.devRef .tc main_arg13) := by
  unfold ops3
  after_results_simp
theorem keep3_main_v1 (V : Valuation τ sig (Elt Ideal)) : after (ops3 (F := Ideal)) V (Proc.devRef .tc main_v1) = V (Proc.devRef .tc main_v1) := by
  unfold ops3
  after_results_simp
theorem keep3_main_v3 (V : Valuation τ sig (Elt Ideal)) : after (ops3 (F := Ideal)) V (Proc.devRef .tc main_v3) = V (Proc.devRef .tc main_v3) := by
  unfold ops3
  after_results_simp

/-! ### List 4 writes no argument and neither row of the edge list -/

theorem keep4_main_arg0 (V : Valuation τ sig (Elt Ideal)) : after (ops4 (F := Ideal)) V (Proc.devRef .tc main_arg0) = V (Proc.devRef .tc main_arg0) := by
  unfold ops4
  after_results_simp
theorem keep4_main_arg1 (V : Valuation τ sig (Elt Ideal)) : after (ops4 (F := Ideal)) V (Proc.devRef .tc main_arg1) = V (Proc.devRef .tc main_arg1) := by
  unfold ops4
  after_results_simp
theorem keep4_main_arg2 (V : Valuation τ sig (Elt Ideal)) : after (ops4 (F := Ideal)) V (Proc.devRef .tc main_arg2) = V (Proc.devRef .tc main_arg2) := by
  unfold ops4
  after_results_simp
theorem keep4_main_arg3 (V : Valuation τ sig (Elt Ideal)) : after (ops4 (F := Ideal)) V (Proc.devRef .tc main_arg3) = V (Proc.devRef .tc main_arg3) := by
  unfold ops4
  after_results_simp
theorem keep4_main_arg4 (V : Valuation τ sig (Elt Ideal)) : after (ops4 (F := Ideal)) V (Proc.devRef .tc main_arg4) = V (Proc.devRef .tc main_arg4) := by
  unfold ops4
  after_results_simp
theorem keep4_main_arg5 (V : Valuation τ sig (Elt Ideal)) : after (ops4 (F := Ideal)) V (Proc.devRef .tc main_arg5) = V (Proc.devRef .tc main_arg5) := by
  unfold ops4
  after_results_simp
theorem keep4_main_arg6 (V : Valuation τ sig (Elt Ideal)) : after (ops4 (F := Ideal)) V (Proc.devRef .tc main_arg6) = V (Proc.devRef .tc main_arg6) := by
  unfold ops4
  after_results_simp
theorem keep4_main_arg7 (V : Valuation τ sig (Elt Ideal)) : after (ops4 (F := Ideal)) V (Proc.devRef .tc main_arg7) = V (Proc.devRef .tc main_arg7) := by
  unfold ops4
  after_results_simp
theorem keep4_main_arg8 (V : Valuation τ sig (Elt Ideal)) : after (ops4 (F := Ideal)) V (Proc.devRef .tc main_arg8) = V (Proc.devRef .tc main_arg8) := by
  unfold ops4
  after_results_simp
theorem keep4_main_arg9 (V : Valuation τ sig (Elt Ideal)) : after (ops4 (F := Ideal)) V (Proc.devRef .tc main_arg9) = V (Proc.devRef .tc main_arg9) := by
  unfold ops4
  after_results_simp
theorem keep4_main_arg10 (V : Valuation τ sig (Elt Ideal)) : after (ops4 (F := Ideal)) V (Proc.devRef .tc main_arg10) = V (Proc.devRef .tc main_arg10) := by
  unfold ops4
  after_results_simp
theorem keep4_main_arg11 (V : Valuation τ sig (Elt Ideal)) : after (ops4 (F := Ideal)) V (Proc.devRef .tc main_arg11) = V (Proc.devRef .tc main_arg11) := by
  unfold ops4
  after_results_simp
theorem keep4_main_arg12 (V : Valuation τ sig (Elt Ideal)) : after (ops4 (F := Ideal)) V (Proc.devRef .tc main_arg12) = V (Proc.devRef .tc main_arg12) := by
  unfold ops4
  after_results_simp
theorem keep4_main_arg13 (V : Valuation τ sig (Elt Ideal)) : after (ops4 (F := Ideal)) V (Proc.devRef .tc main_arg13) = V (Proc.devRef .tc main_arg13) := by
  unfold ops4
  after_results_simp
theorem keep4_main_v1 (V : Valuation τ sig (Elt Ideal)) : after (ops4 (F := Ideal)) V (Proc.devRef .tc main_v1) = V (Proc.devRef .tc main_v1) := by
  unfold ops4
  after_results_simp
theorem keep4_main_v3 (V : Valuation τ sig (Elt Ideal)) : after (ops4 (F := Ideal)) V (Proc.devRef .tc main_v3) = V (Proc.devRef .tc main_v3) := by
  unfold ops4
  after_results_simp

/-! ### List 5 writes no argument -/

theorem keep5_main_arg0 (V : Valuation τ sig (Elt Ideal)) : after (ops5 (F := Ideal)) V (Proc.devRef .tc main_arg0) = V (Proc.devRef .tc main_arg0) := by
  unfold ops5
  after_results_simp
theorem keep5_main_arg1 (V : Valuation τ sig (Elt Ideal)) : after (ops5 (F := Ideal)) V (Proc.devRef .tc main_arg1) = V (Proc.devRef .tc main_arg1) := by
  unfold ops5
  after_results_simp
theorem keep5_main_arg2 (V : Valuation τ sig (Elt Ideal)) : after (ops5 (F := Ideal)) V (Proc.devRef .tc main_arg2) = V (Proc.devRef .tc main_arg2) := by
  unfold ops5
  after_results_simp
theorem keep5_main_arg3 (V : Valuation τ sig (Elt Ideal)) : after (ops5 (F := Ideal)) V (Proc.devRef .tc main_arg3) = V (Proc.devRef .tc main_arg3) := by
  unfold ops5
  after_results_simp
theorem keep5_main_arg4 (V : Valuation τ sig (Elt Ideal)) : after (ops5 (F := Ideal)) V (Proc.devRef .tc main_arg4) = V (Proc.devRef .tc main_arg4) := by
  unfold ops5
  after_results_simp
theorem keep5_main_arg5 (V : Valuation τ sig (Elt Ideal)) : after (ops5 (F := Ideal)) V (Proc.devRef .tc main_arg5) = V (Proc.devRef .tc main_arg5) := by
  unfold ops5
  after_results_simp
theorem keep5_main_arg6 (V : Valuation τ sig (Elt Ideal)) : after (ops5 (F := Ideal)) V (Proc.devRef .tc main_arg6) = V (Proc.devRef .tc main_arg6) := by
  unfold ops5
  after_results_simp
theorem keep5_main_arg7 (V : Valuation τ sig (Elt Ideal)) : after (ops5 (F := Ideal)) V (Proc.devRef .tc main_arg7) = V (Proc.devRef .tc main_arg7) := by
  unfold ops5
  after_results_simp
theorem keep5_main_arg8 (V : Valuation τ sig (Elt Ideal)) : after (ops5 (F := Ideal)) V (Proc.devRef .tc main_arg8) = V (Proc.devRef .tc main_arg8) := by
  unfold ops5
  after_results_simp
theorem keep5_main_arg9 (V : Valuation τ sig (Elt Ideal)) : after (ops5 (F := Ideal)) V (Proc.devRef .tc main_arg9) = V (Proc.devRef .tc main_arg9) := by
  unfold ops5
  after_results_simp
theorem keep5_main_arg10 (V : Valuation τ sig (Elt Ideal)) : after (ops5 (F := Ideal)) V (Proc.devRef .tc main_arg10) = V (Proc.devRef .tc main_arg10) := by
  unfold ops5
  after_results_simp
theorem keep5_main_arg11 (V : Valuation τ sig (Elt Ideal)) : after (ops5 (F := Ideal)) V (Proc.devRef .tc main_arg11) = V (Proc.devRef .tc main_arg11) := by
  unfold ops5
  after_results_simp
theorem keep5_main_arg12 (V : Valuation τ sig (Elt Ideal)) : after (ops5 (F := Ideal)) V (Proc.devRef .tc main_arg12) = V (Proc.devRef .tc main_arg12) := by
  unfold ops5
  after_results_simp
theorem keep5_main_arg13 (V : Valuation τ sig (Elt Ideal)) : after (ops5 (F := Ideal)) V (Proc.devRef .tc main_arg13) = V (Proc.devRef .tc main_arg13) := by
  unfold ops5
  after_results_simp

/-- List 0 keeps the arguments. -/
theorem Args.step0 {V : Valuation τ sig (Elt Ideal)} {x0 : TblC} {x1 : Edges} {x2 : (⟨S5x128x128, .f32⟩ : BufTy).Contents (Elt Ideal)}
    {x3 x4 x5 x6 x7 : (⟨S5x128, .f32⟩ : BufTy).Contents (Elt Ideal)} {x8 : (⟨S5x128x128, .f32⟩ : BufTy).Contents (Elt Ideal)}
    {x9 : (⟨S5x128, .f32⟩ : BufTy).Contents (Elt Ideal)} {x10 : Mat} {x11 : Vec}
    {x12 : (⟨S128x10, .f32⟩ : BufTy).Contents (Elt Ideal)} {x13 : (⟨S10, .f32⟩ : BufTy).Contents (Elt Ideal)}
    (h : Args V x0 x1 x2 x3 x4 x5 x6 x7 x8 x9 x10 x11 x12 x13) : Args (after (ops0 (F := Ideal)) V) x0 x1 x2 x3 x4 x5 x6 x7 x8 x9 x10 x11 x12 x13 :=
  ⟨(keep0_main_arg0 V).trans h.a0, (keep0_main_arg1 V).trans h.a1, (keep0_main_arg2 V).trans h.a2, (keep0_main_arg3 V).trans h.a3, (keep0_main_arg4 V).trans h.a4, (keep0_main_arg5 V).trans h.a5, (keep0_main_arg6 V).trans h.a6, (keep0_main_arg7 V).trans h.a7, (keep0_main_arg8 V).trans h.a8, (keep0_main_arg9 V).trans h.a9, (keep0_main_arg10 V).trans h.a10, (keep0_main_arg11 V).trans h.a11, (keep0_main_arg12 V).trans h.a12, (keep0_main_arg13 V).trans h.a13⟩

/-- List 1 keeps the arguments. -/
theorem Args.step1 {V : Valuation τ sig (Elt Ideal)} {x0 : TblC} {x1 : Edges} {x2 : (⟨S5x128x128, .f32⟩ : BufTy).Contents (Elt Ideal)}
    {x3 x4 x5 x6 x7 : (⟨S5x128, .f32⟩ : BufTy).Contents (Elt Ideal)} {x8 : (⟨S5x128x128, .f32⟩ : BufTy).Contents (Elt Ideal)}
    {x9 : (⟨S5x128, .f32⟩ : BufTy).Contents (Elt Ideal)} {x10 : Mat} {x11 : Vec}
    {x12 : (⟨S128x10, .f32⟩ : BufTy).Contents (Elt Ideal)} {x13 : (⟨S10, .f32⟩ : BufTy).Contents (Elt Ideal)}
    (h : Args V x0 x1 x2 x3 x4 x5 x6 x7 x8 x9 x10 x11 x12 x13) : Args (after (ops1 (F := Ideal)) V) x0 x1 x2 x3 x4 x5 x6 x7 x8 x9 x10 x11 x12 x13 :=
  ⟨(keep1_main_arg0 V).trans h.a0, (keep1_main_arg1 V).trans h.a1, (keep1_main_arg2 V).trans h.a2, (keep1_main_arg3 V).trans h.a3, (keep1_main_arg4 V).trans h.a4, (keep1_main_arg5 V).trans h.a5, (keep1_main_arg6 V).trans h.a6, (keep1_main_arg7 V).trans h.a7, (keep1_main_arg8 V).trans h.a8, (keep1_main_arg9 V).trans h.a9, (keep1_main_arg10 V).trans h.a10, (keep1_main_arg11 V).trans h.a11, (keep1_main_arg12 V).trans h.a12, (keep1_main_arg13 V).trans h.a13⟩

/-- List 2 keeps the arguments. -/
theorem Args.step2 {V : Valuation τ sig (Elt Ideal)} {x0 : TblC} {x1 : Edges} {x2 : (⟨S5x128x128, .f32⟩ : BufTy).Contents (Elt Ideal)}
    {x3 x4 x5 x6 x7 : (⟨S5x128, .f32⟩ : BufTy).Contents (Elt Ideal)} {x8 : (⟨S5x128x128, .f32⟩ : BufTy).Contents (Elt Ideal)}
    {x9 : (⟨S5x128, .f32⟩ : BufTy).Contents (Elt Ideal)} {x10 : Mat} {x11 : Vec}
    {x12 : (⟨S128x10, .f32⟩ : BufTy).Contents (Elt Ideal)} {x13 : (⟨S10, .f32⟩ : BufTy).Contents (Elt Ideal)}
    (h : Args V x0 x1 x2 x3 x4 x5 x6 x7 x8 x9 x10 x11 x12 x13) : Args (after (ops2 (F := Ideal)) V) x0 x1 x2 x3 x4 x5 x6 x7 x8 x9 x10 x11 x12 x13 :=
  ⟨(keep2_main_arg0 V).trans h.a0, (keep2_main_arg1 V).trans h.a1, (keep2_main_arg2 V).trans h.a2, (keep2_main_arg3 V).trans h.a3, (keep2_main_arg4 V).trans h.a4, (keep2_main_arg5 V).trans h.a5, (keep2_main_arg6 V).trans h.a6, (keep2_main_arg7 V).trans h.a7, (keep2_main_arg8 V).trans h.a8, (keep2_main_arg9 V).trans h.a9, (keep2_main_arg10 V).trans h.a10, (keep2_main_arg11 V).trans h.a11, (keep2_main_arg12 V).trans h.a12, (keep2_main_arg13 V).trans h.a13⟩

/-- List 3 keeps the arguments. -/
theorem Args.step3 {V : Valuation τ sig (Elt Ideal)} {x0 : TblC} {x1 : Edges} {x2 : (⟨S5x128x128, .f32⟩ : BufTy).Contents (Elt Ideal)}
    {x3 x4 x5 x6 x7 : (⟨S5x128, .f32⟩ : BufTy).Contents (Elt Ideal)} {x8 : (⟨S5x128x128, .f32⟩ : BufTy).Contents (Elt Ideal)}
    {x9 : (⟨S5x128, .f32⟩ : BufTy).Contents (Elt Ideal)} {x10 : Mat} {x11 : Vec}
    {x12 : (⟨S128x10, .f32⟩ : BufTy).Contents (Elt Ideal)} {x13 : (⟨S10, .f32⟩ : BufTy).Contents (Elt Ideal)}
    (h : Args V x0 x1 x2 x3 x4 x5 x6 x7 x8 x9 x10 x11 x12 x13) : Args (after (ops3 (F := Ideal)) V) x0 x1 x2 x3 x4 x5 x6 x7 x8 x9 x10 x11 x12 x13 :=
  ⟨(keep3_main_arg0 V).trans h.a0, (keep3_main_arg1 V).trans h.a1, (keep3_main_arg2 V).trans h.a2, (keep3_main_arg3 V).trans h.a3, (keep3_main_arg4 V).trans h.a4, (keep3_main_arg5 V).trans h.a5, (keep3_main_arg6 V).trans h.a6, (keep3_main_arg7 V).trans h.a7, (keep3_main_arg8 V).trans h.a8, (keep3_main_arg9 V).trans h.a9, (keep3_main_arg10 V).trans h.a10, (keep3_main_arg11 V).trans h.a11, (keep3_main_arg12 V).trans h.a12, (keep3_main_arg13 V).trans h.a13⟩

/-- List 4 keeps the arguments. -/
theorem Args.step4 {V : Valuation τ sig (Elt Ideal)} {x0 : TblC} {x1 : Edges} {x2 : (⟨S5x128x128, .f32⟩ : BufTy).Contents (Elt Ideal)}
    {x3 x4 x5 x6 x7 : (⟨S5x128, .f32⟩ : BufTy).Contents (Elt Ideal)} {x8 : (⟨S5x128x128, .f32⟩ : BufTy).Contents (Elt Ideal)}
    {x9 : (⟨S5x128, .f32⟩ : BufTy).Contents (Elt Ideal)} {x10 : Mat} {x11 : Vec}
    {x12 : (⟨S128x10, .f32⟩ : BufTy).Contents (Elt Ideal)} {x13 : (⟨S10, .f32⟩ : BufTy).Contents (Elt Ideal)}
    (h : Args V x0 x1 x2 x3 x4 x5 x6 x7 x8 x9 x10 x11 x12 x13) : Args (after (ops4 (F := Ideal)) V) x0 x1 x2 x3 x4 x5 x6 x7 x8 x9 x10 x11 x12 x13 :=
  ⟨(keep4_main_arg0 V).trans h.a0, (keep4_main_arg1 V).trans h.a1, (keep4_main_arg2 V).trans h.a2, (keep4_main_arg3 V).trans h.a3, (keep4_main_arg4 V).trans h.a4, (keep4_main_arg5 V).trans h.a5, (keep4_main_arg6 V).trans h.a6, (keep4_main_arg7 V).trans h.a7, (keep4_main_arg8 V).trans h.a8, (keep4_main_arg9 V).trans h.a9, (keep4_main_arg10 V).trans h.a10, (keep4_main_arg11 V).trans h.a11, (keep4_main_arg12 V).trans h.a12, (keep4_main_arg13 V).trans h.a13⟩

/-- List 5 keeps the arguments. -/
theorem Args.step5 {V : Valuation τ sig (Elt Ideal)} {x0 : TblC} {x1 : Edges} {x2 : (⟨S5x128x128, .f32⟩ : BufTy).Contents (Elt Ideal)}
    {x3 x4 x5 x6 x7 : (⟨S5x128, .f32⟩ : BufTy).Contents (Elt Ideal)} {x8 : (⟨S5x128x128, .f32⟩ : BufTy).Contents (Elt Ideal)}
    {x9 : (⟨S5x128, .f32⟩ : BufTy).Contents (Elt Ideal)} {x10 : Mat} {x11 : Vec}
    {x12 : (⟨S128x10, .f32⟩ : BufTy).Contents (Elt Ideal)} {x13 : (⟨S10, .f32⟩ : BufTy).Contents (Elt Ideal)}
    (h : Args V x0 x1 x2 x3 x4 x5 x6 x7 x8 x9 x10 x11 x12 x13) : Args (after (ops5 (F := Ideal)) V) x0 x1 x2 x3 x4 x5 x6 x7 x8 x9 x10 x11 x12 x13 :=
  ⟨(keep5_main_arg0 V).trans h.a0, (keep5_main_arg1 V).trans h.a1, (keep5_main_arg2 V).trans h.a2, (keep5_main_arg3 V).trans h.a3, (keep5_main_arg4 V).trans h.a4, (keep5_main_arg5 V).trans h.a5, (keep5_main_arg6 V).trans h.a6, (keep5_main_arg7 V).trans h.a7, (keep5_main_arg8 V).trans h.a8, (keep5_main_arg9 V).trans h.a9, (keep5_main_arg10 V).trans h.a10, (keep5_main_arg11 V).trans h.a11, (keep5_main_arg12 V).trans h.a12, (keep5_main_arg13 V).trans h.a13⟩

/-! ## What each list computes -/

/-- The first list, from contents that hold the arguments, leaves the first layer's output and the two rows of the
    edge list at the reference's stages. -/
theorem out0 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h : Args V x0 x1 x2 x3 x4 x5 x6 x7 x8 x9 x10 x11 x12 x13) :
    after (ops0 (F := Ideal)) V (Proc.devRef .tc main_v53) = val_main_v53 (F := Ideal) x0 x1 x2 x3 x4 x5 x6 x7 x8 x9 := by
  unfold ops0
  after_results_simp
  rw [h.a0, h.a1, h.a2, h.a3, h.a4, h.a5, h.a6, h.a7, h.a8, h.a9]
  rfl
theorem src0 (V : Valuation τ sig (Elt Ideal)) (x1 : Edges) (h1 : V (Proc.devRef .tc main_arg1) = x1) :
    after (ops0 (F := Ideal)) V (Proc.devRef .tc main_v1) = val_main_v1 (F := Ideal) x1 := by
  unfold ops0
  after_results_simp
  rw [h1]
  rfl
theorem dst0 (V : Valuation τ sig (Elt Ideal)) (x1 : Edges) (h1 : V (Proc.devRef .tc main_arg1) = x1) :
    after (ops0 (F := Ideal)) V (Proc.devRef .tc main_v3) = val_main_v3 (F := Ideal) x1 := by
  unfold ops0
  after_results_simp
  rw [h1]
  rfl

/-- List 1, from contents that hold the arguments, the two rows of the edge list and layer 0's output, leaves
    layer 1's output at the reference's stage. -/
theorem out1 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h : Args V x0 x1 x2 x3 x4 x5 x6 x7 x8 x9 x10 x11 x12 x13)
    (hs : V (Proc.devRef .tc main_v1) = val_main_v1 (F := Ideal) x1) (hd : V (Proc.devRef .tc main_v3) = val_main_v3 (F := Ideal) x1)
    (hp : V (Proc.devRef .tc main_v53) = val_main_v53 (F := Ideal) x0 x1 x2 x3 x4 x5 x6 x7 x8 x9) :
    after (ops1 (F := Ideal)) V (Proc.devRef .tc main_v103) = val_main_v103 (F := Ideal) x0 x1 x2 x3 x4 x5 x6 x7 x8 x9 := by
  unfold ops1
  after_results_simp
  rw [hp, hs, hd, h.a2, h.a3, h.a4, h.a5, h.a6, h.a7, h.a8, h.a9]
  rfl

/-- List 2, from contents that hold the arguments, the two rows of the edge list and layer 1's output, leaves
    layer 2's output at the reference's stage. -/
theorem out2 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h : Args V x0 x1 x2 x3 x4 x5 x6 x7 x8 x9 x10 x11 x12 x13)
    (hs : V (Proc.devRef .tc main_v1) = val_main_v1 (F := Ideal) x1) (hd : V (Proc.devRef .tc main_v3) = val_main_v3 (F := Ideal) x1)
    (hp : V (Proc.devRef .tc main_v103) = val_main_v103 (F := Ideal) x0 x1 x2 x3 x4 x5 x6 x7 x8 x9) :
    after (ops2 (F := Ideal)) V (Proc.devRef .tc main_v153) = val_main_v153 (F := Ideal) x0 x1 x2 x3 x4 x5 x6 x7 x8 x9 := by
  unfold ops2
  after_results_simp
  rw [hp, hs, hd, h.a2, h.a3, h.a4, h.a5, h.a6, h.a7, h.a8, h.a9]
  rfl

/-- List 3, from contents that hold the arguments, the two rows of the edge list and layer 2's output, leaves
    layer 3's output at the reference's stage. -/
theorem out3 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h : Args V x0 x1 x2 x3 x4 x5 x6 x7 x8 x9 x10 x11 x12 x13)
    (hs : V (Proc.devRef .tc main_v1) = val_main_v1 (F := Ideal) x1) (hd : V (Proc.devRef .tc main_v3) = val_main_v3 (F := Ideal) x1)
    (hp : V (Proc.devRef .tc main_v153) = val_main_v153 (F := Ideal) x0 x1 x2 x3 x4 x5 x6 x7 x8 x9) :
    after (ops3 (F := Ideal)) V (Proc.devRef .tc main_v203) = val_main_v203 (F := Ideal) x0 x1 x2 x3 x4 x5 x6 x7 x8 x9 := by
  unfold ops3
  after_results_simp
  rw [hp, hs, hd, h.a2, h.a3, h.a4, h.a5, h.a6, h.a7, h.a8, h.a9]
  rfl

/-- List 4, from contents that hold the arguments, the two rows of the edge list and layer 3's output, leaves
    layer 4's output at the reference's stage. -/
theorem out4 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h : Args V x0 x1 x2 x3 x4 x5 x6 x7 x8 x9 x10 x11 x12 x13)
    (hs : V (Proc.devRef .tc main_v1) = val_main_v1 (F := Ideal) x1) (hd : V (Proc.devRef .tc main_v3) = val_main_v3 (F := Ideal) x1)
    (hp : V (Proc.devRef .tc main_v203) = val_main_v203 (F := Ideal) x0 x1 x2 x3 x4 x5 x6 x7 x8 x9) :
    after (ops4 (F := Ideal)) V (Proc.devRef .tc main_v253) = val_main_v253 (F := Ideal) x0 x1 x2 x3 x4 x5 x6 x7 x8 x9 := by
  unfold ops4
  after_results_simp
  rw [hp, hs, hd, h.a2, h.a3, h.a4, h.a5, h.a6, h.a7, h.a8, h.a9]
  rfl

section
variable {F : FTy → Type} [FloatOps F]
/-- The last list up to the class scores. -/
def ops5a : List (HloOp τ sig (Elt F)) :=
  [ binary main_v253 main_arg10 main_v254 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v255 (broadcastInDim S1x128 ![1] bcast_S128_S1x128_1 : (⟨S128, .f32⟩ : BufTy).Contents (Elt F) → (⟨S1x128, .f32⟩ : BufTy).Contents (Elt F)),
    unary main_v255 main_v256 (broadcastInDim S100000x128 ![0, 1] bcast_S1x128_S100000x128_0_1 : (⟨S1x128, .f32⟩ : BufTy).Contents (Elt F) → (⟨S100000x128, .f32⟩ : BufTy).Contents (Elt F)),
    binary main_v254 main_v256 main_v257 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v257) (TRef.of (T := ⟨S100000x128, .f32⟩) main_call10_v0) (TRef.of (T := ⟨S100000x128, .f32⟩) main_v258) maximumf,
    binary main_v258 main_arg12 main_v259 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_arg13 main_v260 (broadcastInDim S1x10 ![1] bcast_S10_S1x10_1 : (⟨S10, .f32⟩ : BufTy).Contents (Elt F) → (⟨S1x10, .f32⟩ : BufTy).Contents (Elt F)),
    unary main_v260 main_v261 (broadcastInDim S100000x10 ![0, 1] bcast_S1x10_S100000x10_0_1 : (⟨S1x10, .f32⟩ : BufTy).Contents (Elt F) → (⟨S100000x10, .f32⟩ : BufTy).Contents (Elt F)),
    binary main_v259 main_v261 main_v262 (addf : (⟨S100000x10, .f32⟩ : BufTy).Contents (Elt F) → (⟨S100000x10, .f32⟩ : BufTy).Contents (Elt F) → (⟨S100000x10, .f32⟩ : BufTy).Contents (Elt F)) ]

/-- The largest score of each row. -/
def ops5b : List (HloOp τ sig (Elt F)) :=
  [ TRef.nullary (TRef.of (T := ⟨S_, .f32⟩) main_call11_cst) (constant S_ .f32 0xFF800000#32),
    TRef.binary (TRef.of (T := ⟨S100000x10, .f32⟩) main_v262) (TRef.of (T := ⟨S_, .f32⟩) main_call11_cst) (TRef.of (T := ⟨S100000, .f32⟩) main_call11_v0) (fun x v => Host.reduce FloatOps.maximumf x v reducesTo_S100000x10_S100000_d1 h_S_) ]

/-- The scores less the largest of their row. -/
def ops5c : List (HloOp τ sig (Elt F)) :=
  [ TRef.nullary (TRef.of (T := ⟨S_, .f32⟩) main_call11_cst_0) (constant S_ .f32 0xFF800000#32),
    TRef.unary (TRef.of (T := ⟨S_, .f32⟩) main_call11_cst_0) (TRef.of (T := ⟨S100000, .f32⟩) main_call11_v1) (broadcastInDim S100000 ![] bcast_S_S100000),
    TRef.binary (TRef.of (T := ⟨S100000, .f32⟩) main_call11_v1) (TRef.of (T := ⟨S100000, .f32⟩) main_call11_v0) (TRef.of (T := ⟨S100000, .f32⟩) main_call11_v2) maximumf,
    TRef.unary (TRef.of (T := ⟨S100000, .f32⟩) main_call11_v2) (TRef.of (T := ⟨S100000x1, .f32⟩) main_call11_v3) (broadcastInDim S100000x1 ![0] bcast_S100000_S100000x1_0),
    TRef.unary (TRef.of (T := ⟨S100000x1, .f32⟩) main_call11_v3) (TRef.of (T := ⟨S100000x10, .f32⟩) main_call11_v4) (broadcastInDim S100000x10 ![0, 1] bcast_S100000x1_S100000x10_0_1),
    TRef.binary (TRef.of (T := ⟨S100000x10, .f32⟩) main_v262) (TRef.of (T := ⟨S100000x10, .f32⟩) main_call11_v4) (TRef.of (T := ⟨S100000x10, .f32⟩) main_call11_v5) subf ]

/-- The sum of each row's exponentials. -/
def ops5d : List (HloOp τ sig (Elt F)) :=
  [ TRef.unary (TRef.of (T := ⟨S100000x10, .f32⟩) main_call11_v5) (TRef.of (T := ⟨S100000x10, .f32⟩) main_call11_v6) Host.exp,
    TRef.nullary (TRef.of (T := ⟨S_, .f32⟩) main_call11_cst_1) (constant S_ .f32 0x00000000#32),
    TRef.binary (TRef.of (T := ⟨S100000x10, .f32⟩) main_call11_v6) (TRef.of (T := ⟨S_, .f32⟩) main_call11_cst_1) (TRef.of (T := ⟨S100000, .f32⟩) main_call11_v7) (fun x v => Host.reduceAdd x v reducesTo_S100000x10_S100000_d1 h_S_) ]

/-- The logarithm of the sum, subtracted. -/
def ops5e : List (HloOp τ sig (Elt F)) :=
  [ TRef.unary (TRef.of (T := ⟨S100000, .f32⟩) main_call11_v7) (TRef.of (T := ⟨S100000x1, .f32⟩) main_call11_v8) (broadcastInDim S100000x1 ![0] bcast_S100000_S100000x1_0),
    TRef.unary (TRef.of (T := ⟨S100000x1, .f32⟩) main_call11_v8) (TRef.of (T := ⟨S100000x1, .f32⟩) main_call11_v9) Host.log,
    TRef.unary (TRef.of (T := ⟨S100000x1, .f32⟩) main_call11_v9) (TRef.of (T := ⟨S100000x10, .f32⟩) main_call11_v10) (broadcastInDim S100000x10 ![0, 1] bcast_S100000x1_S100000x10_0_1),
    TRef.binary (TRef.of (T := ⟨S100000x10, .f32⟩) main_call11_v5) (TRef.of (T := ⟨S100000x10, .f32⟩) main_call11_v10) (TRef.of (T := ⟨S100000x10, .f32⟩) main_v263) subf ]

/-- The last list is the five in turn. -/
theorem ops5_split : ops5 (F := F) = ops5a ++ ops5b ++ ops5c ++ ops5d ++ ops5e := rfl
end

/-- The class scores, from contents that hold the arguments and the fifth layer's output. -/
theorem logits5 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h : Args V x0 x1 x2 x3 x4 x5 x6 x7 x8 x9 x10 x11 x12 x13)
    (hp : V (Proc.devRef .tc main_v253) = val_main_v253 (F := Ideal) x0 x1 x2 x3 x4 x5 x6 x7 x8 x9) :
    after (ops5a (F := Ideal)) V (Proc.devRef .tc main_v262) = val_main_v262 (F := Ideal) x0 x1 x2 x3 x4 x5 x6 x7 x8 x9 x10 x11 x12 x13 := by
  unfold ops5a
  after_results_simp
  rw [hp, h.a10, h.a11, h.a12, h.a13]
  rfl

/-! The outlined logarithm of the softmax passes every value through the identity transports of its typed
    references. Each of its values is read from the ones before it, so that every comparison is between two
    short terms; the row maxima, a fold over a whole row, are compared as a given array and never opened. -/

theorem keep5b_main_v262 (V : Valuation τ sig (Elt Ideal)) : after (ops5b (F := Ideal)) V (Proc.devRef .tc main_v262) = V (Proc.devRef .tc main_v262) := by
  unfold ops5b
  after_results_simp

theorem rowmax5 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (hz : V (Proc.devRef .tc main_v262) = val_main_v262 (F := Ideal) x0 x1 x2 x3 x4 x5 x6 x7 x8 x9 x10 x11 x12 x13) :
    after (ops5b (F := Ideal)) V (Proc.devRef .tc main_call11_v0) = val_main_call11_v0 (F := Ideal) x0 x1 x2 x3 x4 x5 x6 x7 x8 x9 x10 x11 x12 x13 := by
  unfold ops5b
  after_results_simp
  rw [hz]
  simp only [TRef.toBuf, TRef.ofBuf, cast_eq]
  unfold val_main_call11_v0 val_main_call11_cst
  rfl

/-- The scores less the row maxima joined with the bottom element, over any scores Z and any row maxima M. -/
theorem shifted5 (V : Valuation τ sig (Elt Ideal)) (Z : OutC) (M : (⟨S100000, .f32⟩ : BufTy).Contents (Elt Ideal))
    (hz : V (Proc.devRef .tc main_v262) = Z) (h0 : V (Proc.devRef .tc main_call11_v0) = M) :
    after (ops5c (F := Ideal)) V (Proc.devRef .tc main_call11_v5)
      = subf (F := Ideal) (φ := .f32) Z
        (broadcastInDim S100000x10 ![0, 1] bcast_S100000x1_S100000x10_0_1
          (broadcastInDim S100000x1 ![0] bcast_S100000_S100000x1_0
            (maximumf (F := Ideal) (φ := .f32)
              (broadcastInDim S100000 ![] bcast_S_S100000 (constant (F := Ideal) S_ .f32 0xFF800000#32)) M))) := by
  unfold ops5c
  after_results_simp
  rw [hz, h0]
  rfl

/-- At the reference's scores and row maxima that is the reference's stage. -/
theorem shifted5_stage (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal)) :
    subf (F := Ideal) (φ := .f32) (val_main_v262 (F := Ideal) x0 x1 x2 x3 x4 x5 x6 x7 x8 x9 x10 x11 x12 x13)
        (broadcastInDim S100000x10 ![0, 1] bcast_S100000x1_S100000x10_0_1
          (broadcastInDim S100000x1 ![0] bcast_S100000_S100000x1_0
            (maximumf (F := Ideal) (φ := .f32)
              (broadcastInDim S100000 ![] bcast_S_S100000 (constant (F := Ideal) S_ .f32 0xFF800000#32)) (val_main_call11_v0 (F := Ideal) x0 x1 x2 x3 x4 x5 x6 x7 x8 x9 x10 x11 x12 x13))))
      = val_main_call11_v5 (F := Ideal) x0 x1 x2 x3 x4 x5 x6 x7 x8 x9 x10 x11 x12 x13 := rfl

theorem keep5d_main_call11_v5 (V : Valuation τ sig (Elt Ideal)) : after (ops5d (F := Ideal)) V (Proc.devRef .tc main_call11_v5) = V (Proc.devRef .tc main_call11_v5) := by
  unfold ops5d
  after_results_simp

theorem sumexp5 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h5 : V (Proc.devRef .tc main_call11_v5) = val_main_call11_v5 (F := Ideal) x0 x1 x2 x3 x4 x5 x6 x7 x8 x9 x10 x11 x12 x13) :
    after (ops5d (F := Ideal)) V (Proc.devRef .tc main_call11_v7) = val_main_call11_v7 (F := Ideal) x0 x1 x2 x3 x4 x5 x6 x7 x8 x9 x10 x11 x12 x13 := by
  unfold ops5d
  after_results_simp
  rw [h5]
  rfl

theorem last5 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h5 : V (Proc.devRef .tc main_call11_v5) = val_main_call11_v5 (F := Ideal) x0 x1 x2 x3 x4 x5 x6 x7 x8 x9 x10 x11 x12 x13)
    (h7 : V (Proc.devRef .tc main_call11_v7) = val_main_call11_v7 (F := Ideal) x0 x1 x2 x3 x4 x5 x6 x7 x8 x9 x10 x11 x12 x13) :
    after (ops5e (F := Ideal)) V (Proc.devRef .tc main_v263) = val_main_v263 (F := Ideal) x0 x1 x2 x3 x4 x5 x6 x7 x8 x9 x10 x11 x12 x13 := by
  unfold ops5e
  after_results_simp
  rw [h5, h7]
  rfl

/-- The last list, from contents that hold the arguments and the fifth layer's output, leaves the result at the
    reference's last stage. -/
theorem out5 (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h : Args V x0 x1 x2 x3 x4 x5 x6 x7 x8 x9 x10 x11 x12 x13)
    (hp : V (Proc.devRef .tc main_v253) = val_main_v253 (F := Ideal) x0 x1 x2 x3 x4 x5 x6 x7 x8 x9) :
    after (ops5 (F := Ideal)) V (Proc.devRef .tc main_v263) = val_main_v263 (F := Ideal) x0 x1 x2 x3 x4 x5 x6 x7 x8 x9 x10 x11 x12 x13 := by
  rw [ops5_split, StableHlo.after_append, StableHlo.after_append, StableHlo.after_append, StableHlo.after_append]
  have hz := logits5 V x0 x1 x2 x3 x4 x5 x6 x7 x8 x9 x10 x11 x12 x13 h hp
  have h0 := rowmax5 _ x0 x1 x2 x3 x4 x5 x6 x7 x8 x9 x10 x11 x12 x13 hz
  have hz1 := (keep5b_main_v262 _).trans hz
  have h5 := (shifted5 _ _ _ hz1 h0).trans (shifted5_stage x0 x1 x2 x3 x4 x5 x6 x7 x8 x9 x10 x11 x12 x13)
  have h7 := sumexp5 _ x0 x1 x2 x3 x4 x5 x6 x7 x8 x9 x10 x11 x12 x13 h5
  have h5' := (keep5d_main_call11_v5 _).trans h5
  exact last5 _ x0 x1 x2 x3 x4 x5 x6 x7 x8 x9 x10 x11 x12 x13 h5' h7

/-! ## The whole line -/

/-- The fold over the whole line is the six folds in turn. -/
theorem after_ops (V : Valuation τ sig (Elt Ideal)) :
    after (ops (F := Ideal)) V
      = after ops5 (after ops4 (after ops3 (after ops2 (after ops1 (after ops0 V))))) := by
  unfold ops
  rw [StableHlo.after_append, StableHlo.after_append, StableHlo.after_append, StableHlo.after_append, StableHlo.after_append]

/-- From contents that hold the arguments, the whole line leaves the result at the reference's last stage and
    keeps the arguments. -/
theorem line_eq (V : Valuation τ sig (Elt Ideal)) (x0 : TblC) (x1 : Edges) (x2 : (⟨S5x128x128, .f32⟩ : BufTy).Contents (Elt Ideal))
  (x3 x4 x5 x6 x7 : (⟨S5x128, .f32⟩ : BufTy).Contents (Elt Ideal)) (x8 : (⟨S5x128x128, .f32⟩ : BufTy).Contents (Elt Ideal))
  (x9 : (⟨S5x128, .f32⟩ : BufTy).Contents (Elt Ideal)) (x10 : Mat) (x11 : Vec)
  (x12 : (⟨S128x10, .f32⟩ : BufTy).Contents (Elt Ideal)) (x13 : (⟨S10, .f32⟩ : BufTy).Contents (Elt Ideal))
    (h : Args V x0 x1 x2 x3 x4 x5 x6 x7 x8 x9 x10 x11 x12 x13) :
    after (ops (F := Ideal)) V (Proc.devRef .tc main_v263) = val_main_v263 (F := Ideal) x0 x1 x2 x3 x4 x5 x6 x7 x8 x9 x10 x11 x12 x13
      ∧ Args (after (ops (F := Ideal)) V) x0 x1 x2 x3 x4 x5 x6 x7 x8 x9 x10 x11 x12 x13 := by
  rw [after_ops]
  have s1 := src0 V x1 h.a1
  have d1 := dst0 V x1 h.a1
  have p1 := out0 V x0 x1 x2 x3 x4 x5 x6 x7 x8 x9 x10 x11 x12 x13 h
  have h1 := h.step0
  have p2 := out1 _ x0 x1 x2 x3 x4 x5 x6 x7 x8 x9 x10 x11 x12 x13 h1 s1 d1 p1
  have s2 := (keep1_main_v1 _).trans s1
  have d2 := (keep1_main_v3 _).trans d1
  have h2 := h1.step1
  have p3 := out2 _ x0 x1 x2 x3 x4 x5 x6 x7 x8 x9 x10 x11 x12 x13 h2 s2 d2 p2
  have s3 := (keep2_main_v1 _).trans s2
  have d3 := (keep2_main_v3 _).trans d2
  have h3 := h2.step2
  have p4 := out3 _ x0 x1 x2 x3 x4 x5 x6 x7 x8 x9 x10 x11 x12 x13 h3 s3 d3 p3
  have s4 := (keep3_main_v1 _).trans s3
  have d4 := (keep3_main_v3 _).trans d3
  have h4 := h3.step3
  have p5 := out4 _ x0 x1 x2 x3 x4 x5 x6 x7 x8 x9 x10 x11 x12 x13 h4 s4 d4 p4
  have h5 := h4.step4
  exact ⟨out5 _ x0 x1 x2 x3 x4 x5 x6 x7 x8 x9 x10 x11 x12 x13 h5 p5, h5.step5⟩

/-- Every weakly fair execution of the reference, from any memory with zero counters, terminates with
    the result buffer at the plain network of the launch arguments and with the fourteen arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v263)
          = outR (paramsR m c) (featR (paramsR m c) (AggR (m ((c.tc : Thread nD τ).loc main_arg1))) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ hr c => by
      have hl := line_eq (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
        ⟨rfl, rfl, rfl, rfl, rfl, rfl, rfl, rfl, rfl, rfl, rfl, rfl, rfl, rfl⟩
      refine ⟨((hr c main_v263).trans hl.1).trans (out_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))), ?_⟩
      exact ⟨(hr c main_arg0).trans hl.2.a0, (hr c main_arg1).trans hl.2.a1, (hr c main_arg2).trans hl.2.a2, (hr c main_arg3).trans hl.2.a3, (hr c main_arg4).trans hl.2.a4, (hr c main_arg5).trans hl.2.a5, (hr c main_arg6).trans hl.2.a6, (hr c main_arg7).trans hl.2.a7, (hr c main_arg8).trans hl.2.a8, (hr c main_arg9).trans hl.2.a9, (hr c main_arg10).trans hl.2.a10, (hr c main_arg11).trans hl.2.a11, (hr c main_arg12).trans hl.2.a12, (hr c main_arg13).trans hl.2.a13⟩)
    (run_seq scopedRefs_eq scopedSems_eq defs main (fun _ => ops) main_eq (fun _ => ops_sub) m ρ (fun _ => ops_fresh))

end Cert.Gin.Ref

end
-- ==== Proof.SpecLawBn.lean ====
/-
  The normalisation in its two spellings. For real mean, scale and beta the plain form
  (z - mean) * scale + beta and the folded form z * scale + (beta - mean * scale) agree at every
  extended real z, the two infinities included; the scale gamma / sqrt(var + eps) is a real number
  when gamma is real, var a nonnegative real and eps a positive real. Hence the folded hidden
  activation, layer and five-layer stack equal the plain ones.
-/
import proofs.«179956_j20864951124664_2_alg».proof.Proof.Spec

noncomputable section

open scoped BigOperators

namespace Cert.Gin

open Idealize.ShloMosaic Idealize.ShloMosaic.ValueIdx

/-- For every extended real z (the infinities included) and real numbers m, s, b, subtracting m,
    multiplying by s and adding b is the same as multiplying by s and adding b - m * s. -/
theorem bn_fold (z : EReal) (m s b : ℝ) :
    (z - (m : EReal)) * (s : EReal) + (b : EReal)
      = z * (s : EReal) + ((b : EReal) - (m : EReal) * (s : EReal)) := by
  have hr : (b : EReal) - (m : EReal) * (s : EReal) = ((b - m * s : ℝ) : EReal) := by
    rw [EReal.coe_sub, EReal.coe_mul]
  induction z using EReal.rec with
  | bot =>
    rw [hr, EReal.bot_sub]
    rcases lt_trichotomy s 0 with hs | hs | hs
    · rw [EReal.bot_mul_coe_of_neg hs, EReal.top_add_coe, EReal.top_add_coe]
    · subst hs; simp
    · rw [EReal.bot_mul_coe_of_pos hs, EReal.bot_add, EReal.bot_add]
  | coe z =>
    rw [hr]
    exact_mod_cast (by ring : (z - m) * s + b = z * s + (b - m * s))
  | top =>
    rw [hr, EReal.top_sub_coe]
    rcases lt_trichotomy s 0 with hs | hs | hs
    · rw [EReal.top_mul_coe_of_neg hs, EReal.bot_add, EReal.bot_add]
    · subst hs; simp
    · rw [EReal.top_mul_coe_of_pos hs, EReal.top_add_coe, EReal.top_add_coe]

/-- A real number divided by the square root of the sum of a nonnegative real and a positive real
    is a real number. -/
theorem div_sqrt_real (g v e : ℝ) (hv : 0 ≤ v) (he : 0 < e) :
    ∃ s : ℝ, Ideal.div (g : EReal) (Ideal.sqrt ((v : EReal) + (e : EReal))) = (s : EReal) := by
  have hpos : 0 < v + e := by linarith
  have hsq : Real.sqrt (v + e) ≠ 0 := (Real.sqrt_pos.mpr hpos).ne'
  refine ⟨g * (1 / Real.sqrt (v + e)), ?_⟩
  rw [← EReal.coe_add, Ideal.sqrt_coe, if_neg (not_lt.mpr hpos.le), Ideal.div_coe hsq, ← EReal.coe_mul]

section Layers

variable (P : Params) (A : Tbl → Tbl)
  (hg : ∀ i, ∃ r : ℝ, P.gamma i = (r : EReal)) (hb : ∀ i, ∃ r : ℝ, P.beta i = (r : EReal))
  (hm : ∀ i, ∃ r : ℝ, P.mean i = (r : EReal)) (hv : ∀ i, ∃ r : ℝ, 0 ≤ r ∧ P.var i = (r : EReal))
  (he : ∃ r : ℝ, 0 < r ∧ P.eps = (r : EReal))

include hg hv he in
/-- With real gamma, nonnegative real variance and positive real constant, the normalisation's scale
    gamma / sqrt(var + eps) is a real number. -/
theorem scale_real (l : Fin 5) (k : Fin 128) : ∃ s : ℝ, scale P l k = (s : EReal) := by
  obtain ⟨g, hg'⟩ := hg (ix2 l k)
  obtain ⟨v, hv0, hv'⟩ := hv (ix2 l k)
  obtain ⟨e, he0, he'⟩ := he
  unfold scale
  rw [hg', hv', he']
  exact div_sqrt_real g v e hv0 he0

include hg hb hm hv he in
/-- The folded hidden activation is the plain one: the scale, the mean and beta are real numbers, so
    the two spellings of the normalisation agree at every extended real. -/
theorem hidK_eq_hidR (l : Fin 5) (h : Tbl) : hidK P A l h = hidR P A l h := by
  funext r k
  obtain ⟨s, hs⟩ := scale_real P hg hv he l k
  obtain ⟨m, hm'⟩ := hm (ix2 l k)
  obtain ⟨b, hb'⟩ := hb (ix2 l k)
  unfold hidK hidR
  rw [hs, hm', hb', bn_fold]

include hg hb hm hv he in
/-- One folded layer is the plain layer, as a function of the table. -/
theorem layerK_eq_layerR (l : Fin 5) : layerK P A l = layerR P A l := by
  funext h
  unfold layerK layerR
  rw [hidK_eq_hidR P A hg hb hm hv he l h]

include hg hb hm hv he in
/-- The five folded layers are the five plain layers. -/
theorem featK_eq_featR (x : Tbl) : featK P A x = featR P A x := by
  unfold featK featR
  simp only [layerK_eq_layerR P A hg hb hm hv he]

end Layers

end Cert.Gin

end
-- ==== Proof.SpecLawSoftmax.lean ====
/-
  The logarithm of the softmax on padded columns. When 128 columns carry the 10 class scores
  followed by 118 copies of the bottom element, their largest value is the largest class score,
  joining with the bottom element changes nothing, each extra column contributes exp ⊥ = 0 to the
  sum of exponentials, and so the first 10 columns of the result are the logarithm of the softmax
  of the 10 class scores.
-/
import proofs.«179956_j20864951124664_2_alg».proof.Proof.Spec

noncomputable section

open scoped BigOperators

namespace Cert.Gin

open Idealize.ShloMosaic Idealize.ShloMosaic.ValueIdx

/-- If f on 128 columns agrees with g on the first 10 columns and is the bottom element on the
    other 118, then the largest value of f is the largest value of g. -/
theorem sup_pad (g : Fin 10 → EReal) (f : Fin 128 → EReal)
    (hf : ∀ j : Fin 128, f j = if h : j.val < 10 then g ⟨j.val, h⟩ else ⊥) :
    (Finset.univ.sup f) = Finset.univ.sup g := by
  apply le_antisymm
  · refine Finset.sup_le fun j _ => ?_
    rw [hf j]
    split_ifs with h
    · exact Finset.le_sup (f := g) (Finset.mem_univ _)
    · exact bot_le
  · refine Finset.sup_le fun j _ => ?_
    have h := Finset.le_sup (f := f) (Finset.mem_univ (⟨j.val, by omega⟩ : Fin 128))
    rw [hf, dif_pos j.isLt] at h
    exact h

/-- If F on 128 columns agrees with G on the first 10 columns and is zero on the other 118, then
    the sum of F is the sum of G. -/
theorem sum_pad (G : Fin 10 → EReal) (F : Fin 128 → EReal)
    (hF : ∀ j : Fin 128, F j = if h : j.val < 10 then G ⟨j.val, h⟩ else 0) :
    ∑ j : Fin 128, F j = ∑ j : Fin 10, G j := by
  refine (Fin.sum_trunc (a := 10) (b := 118) F fun j => ?_).trans ?_
  · rw [hF, dif_neg]
    simp
  · refine Finset.sum_congr rfl fun j _ => ?_
    rw [hF, dif_pos (by simp)]
    rfl

/-- The logarithm of the softmax over 128 columns, of which the last 118 hold the bottom element,
    is at each of the first 10 columns the logarithm of the softmax over those 10 columns. -/
theorem logsoftmax_pad (g : Fin 10 → EReal) (f : Fin 128 → EReal)
    (hf : ∀ j : Fin 128, f j = if h : j.val < 10 then g ⟨j.val, h⟩ else ⊥) (c : Fin 10)
    (c' : Fin 128) (hc : c'.val = c.val) :
    (f c' - Finset.univ.sup f)
        - Ideal.log (0 + ∑ j : Fin 128, Ideal.exp (f j - Finset.univ.sup f))
      = (g c - max ⊥ (Finset.univ.sup g))
        - Ideal.log (0 + ∑ j : Fin 10, Ideal.exp (g j - max ⊥ (Finset.univ.sup g))) := by
  have hc' : f c' = g c := by
    rw [hf, dif_pos (by omega)]
    congr 1
    exact Fin.ext hc
  rw [sup_pad g f hf, max_eq_right bot_le, hc']
  congr 3
  refine sum_pad _ _ fun j => ?_
  rw [hf j]
  split_ifs with h
  · rfl
  · rw [EReal.bot_sub, Ideal.exp_bot]

section Head

variable (P : Params)

/-- A masked score on 128 columns is the class score on the first 10 columns (there the extended
    weights and bias are the weights and bias themselves) and the bottom element on the other 118. -/
theorem maskK_eq (h : Tbl) (r : Fin 100000) (j : Fin 128) :
    maskK P h r j = if hj : j.val < 10 then logitR P h r ⟨j.val, hj⟩ else ⊥ := by
  unfold maskK
  by_cases hj : j.val < 10
  · rw [if_pos hj, dif_pos hj]
    unfold logitK logitR padW padb
    simp only [dif_pos hj]
  · rw [if_neg hj, dif_neg hj]

/-- On one table, the padded form of the head's last step (128 masked columns, first 10 kept) is the
    plain form on the 10 class columns. -/
theorem outK_eq_outR_same (h : Tbl) : outK P h = outR P h := by
  funext i
  exact logsoftmax_pad (fun j => logitR P h (i 0) j) (fun j => maskK P h (i 0) j)
    (maskK_eq P h (i 0)) (i 1) (Fin.castLE (by norm_num) (i 1)) rfl

end Head

end Cert.Gin

end
-- ==== Proof.SpecLaw.lean ====
/-
  The law of the specification: the folded, padded spelling of the network (outK of featK) and the
  plain spelling (outR of featR) are the same function into the extended reals, under the
  hypotheses that the normalisation's parameters are real numbers with nonnegative variance and a
  positive constant. Also: the printed constant is such a positive real.
-/
import proofs.«179956_j20864951124664_2_alg».proof.Proof.Spec
import proofs.«179956_j20864951124664_2_alg».proof.Proof.SpecLawBn
import proofs.«179956_j20864951124664_2_alg».proof.Proof.SpecLawSoftmax

noncomputable section

open scoped BigOperators

namespace Cert.Gin

open Idealize.ShloMosaic Idealize.ShloMosaic.ValueIdx

/-- The constant both programs print for the normalisation denotes the real number
    10995116 * 2^(-40), the single-precision number nearest 1e-5. -/
theorem epsLit_eq : epsLit = ((10995116 * (2 : ℝ) ^ (-40 : ℤ) : ℝ) : EReal) := by
  simp [epsLit, Ideal.ofBits, Ideal.ieee, -EReal.coe_mul]

/-- The printed constant of the normalisation is a positive real number. -/
theorem epsLit_pos : ∃ r : ℝ, 0 < r ∧ epsLit = (r : EReal) :=
  ⟨10995116 * (2 : ℝ) ^ (-40 : ℤ), by positivity, epsLit_eq⟩

/-- The folded and padded network equals the plain network as extended reals, for every aggregation
    A and every input table (finite or not), when gamma, beta and mean are real, var is a nonnegative
    real and eps a positive real: the five layers agree because the two spellings of the
    normalisation agree, and the head agrees because the extra columns hold the bottom element. -/
theorem outK_eq_outR (P : Params) (A : Tbl → Tbl) (x : Tbl)
    (hg : ∀ i, ∃ r : ℝ, P.gamma i = (r : EReal)) (hb : ∀ i, ∃ r : ℝ, P.beta i = (r : EReal))
    (hm : ∀ i, ∃ r : ℝ, P.mean i = (r : EReal)) (hv : ∀ i, ∃ r : ℝ, 0 ≤ r ∧ P.var i = (r : EReal))
    (he : ∃ r : ℝ, 0 < r ∧ P.eps = (r : EReal)) :
    outK P (featK P A x) = outR P (featR P A x) := by
  rw [featK_eq_featR P A hg hb hm hv he x]
  exact outK_eq_outR_same P _

end Cert.Gin

end
-- ==== Proof.PreReal.lean ====
/-
  The precondition read back. The printed predicate is the conjunction of fourteen reductions by
  "and" of comparisons taken element by element: thirteen say |x| < +∞ of every entry of an
  argument array, the last says var ≥ 0 of every entry of the variance array. An extended real x
  with max x (-x) < ⊤ is a real number; an extended real that is both a real number and at least
  zero is a nonnegative real. So under the precondition the arrays gamma, beta, mean hold real
  numbers and var holds nonnegative real numbers.
-/
import proofs.«179956_j20864951124664_2_alg».proof.Defs
import Idealize.ShloMosaic.Lib.ReduceAll
import Idealize.ShloMosaic.Lib.ValueIdx

noncomputable section

namespace Cert.Gin.Pre

open Idealize.ShloMosaic Idealize.SL.Sem Idealize.ShloMosaic.ValueIdx
open Cert.Pre_finite_inputs

/-- The shape with no axes has exactly one index. -/
instance : Subsingleton S_.Idx := ⟨fun a b => funext fun d => d.elim0⟩

/-- The single-precision pattern of +∞ denotes the top element. -/
theorem ofBits_inf : Ideal.ofBits .f32 0x7F800000#32 = ⊤ := by
  simp [Ideal.ofBits, Ideal.ieee]

/-- The single-precision pattern of +0 denotes zero. -/
theorem ofBits_zero : Ideal.ofBits .f32 0x00000000#32 = 0 := by
  simp [Ideal.ofBits, Ideal.ieee]

/-- A one-bit word made from a truth value is 1 exactly when the truth value is true. -/
theorem ofBool_eq_one (b : Bool) : BitVec.ofBool b = 1#1 ↔ b = true := by cases b <;> decide

/-- An extended real whose absolute value max x (-x) compares below +∞ is a real number. -/
theorem real_of_abs_lt_inf (x : EReal)
    (h : Ideal.cmp .olt (max x (-x)) (Ideal.ofBits .f32 0x7F800000#32) = 1#1) :
    ∃ r : ℝ, x = (r : EReal) := by
  rw [ofBits_inf] at h
  unfold Ideal.cmp at h
  rw [ofBool_eq_one, decide_eq_true_eq] at h
  induction x using EReal.rec with
  | bot => simp at h
  | coe r => exact ⟨r, rfl⟩
  | top => simp at h

/-- An extended real that compares at least the pattern of +0 is at least zero. -/
theorem nonneg_of_ge_zero (x : EReal)
    (h : Ideal.cmp .oge x (Ideal.ofBits .f32 0x00000000#32) = 1#1) : 0 ≤ x := by
  rw [ofBits_zero] at h
  unfold Ideal.cmp at h
  rw [ofBool_eq_one, decide_eq_true_eq] at h
  exact h

/-- If the reduction by "and" of the comparisons |x i| < +∞ over all entries of an array is 1, every
    entry of the array is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := fun i =>
  real_of_abs_lt_inf (x i) (Host.reduce_andi_all _ _ hr hu ix0 e i)

/-- If the reduction by "and" of the comparisons x i ≥ 0 over all entries of an array is 1, every
    entry of the array is at least zero. -/
theorem all_nonneg {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .oge x (broadcastInDim s ![] hb (constant (F := Ideal) S_ .f32 0x00000000#32)))
          (constantI S_ 1 1#1) hr hu ix0 = 1#1) :
    ∀ i, 0 ≤ x i := fun i =>
  nonneg_of_ge_zero (x i) (Host.reduce_andi_all _ _ hr hu ix0 e i)

section Decode

variable [hPre_finite_inputs : Cert.Pre_finite_inputs.Facts]

/-- The printed predicate, read at its one index: if it is 1 then the fifth, sixth, seventh and eighth
    argument arrays (gamma, beta, mean, var) hold real numbers and every entry of the eighth is at
    least zero. -/
theorem decode (a0 : FVec Ideal S100000x128 .f32) (a1 : IVec S2x1600000 32) (a2 : FVec Ideal S5x128x128 .f32)
    (a3 a4 a5 a6 a7 : FVec Ideal S5x128 .f32) (a8 : FVec Ideal S5x128x128 .f32) (a9 : FVec Ideal S5x128 .f32)
    (a10 : FVec Ideal S128x128 .f32) (a11 : FVec Ideal S128 .f32) (a12 : FVec Ideal S128x10 .f32)
    (a13 : FVec Ideal S10 .f32)
    (h : Cert.Pre_finite_inputs.fn (F := Ideal) a0 a1 a2 a3 a4 a5 a6 a7 a8 a9 a10 a11 a12 a13 ix0 = 1#1) :
    (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, 0 ≤ a7 i) := by
  unfold Cert.Pre_finite_inputs.fn Cert.Pre_finite_inputs.fn_part1 Cert.Pre_finite_inputs.fn_part2
    Cert.Pre_finite_inputs.fn_part3 at h
  dsimp only [andi] at h
  simp only [IntOp.andi_eq_one] at h
  obtain ⟨⟨⟨⟨⟨⟨⟨⟨⟨⟨⟨⟨⟨-, -⟩, -⟩, h4⟩, h5⟩, h6⟩, h7⟩, -⟩, -⟩, -⟩, -⟩, -⟩, -⟩, hv⟩ := h
  exact ⟨all_real a4 _ _ _ h4, all_real a5 _ _ _ h5, all_real a6 _ _ _ h6, all_real a7 _ _ _ h7,
    all_nonneg a7 _ _ _ hv⟩

end Decode

section Launch

variable [hPre_finite_inputs : Cert.Pre_finite_inputs.Facts]
  (m : (ℓ : Loc Cert.KernelIdeal.nD Cert.KernelIdeal.τ Cert.KernelIdeal.sig) → Buf (Elt Ideal) ℓ)

/-- Under the precondition, on every device, the printed predicate of the launch memory's argument
    arrays is 1 at its one index; hence what `decode` says of the arrays holds of the memory. -/
theorem decode_mem (hpre : Cert.Pre_KernelIdeal m) (c : Dev Cert.KernelIdeal.nD) :
    (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, (0 : EReal) ≤ m ((c.tc : Thread Cert.KernelIdeal.nD Cert.KernelIdeal.τ).loc Cert.KernelIdeal.main_arg7) i) :=
  decode _ _ _ _ _ _ _ _ _ _ _ _ _ _ (congrFun (hpre c) ix0)

/-- Under the precondition every entry of gamma is a real number. -/
theorem gamma_real (hpre : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (decode_mem m hpre c).1

/-- Under the precondition every entry of beta is a real number. -/
theorem beta_real (hpre : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (decode_mem m hpre c).2.1

/-- Under the precondition every entry of mean is a real number. -/
theorem mean_real (hpre : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (decode_mem m hpre c).2.2.1

/-- Under the precondition every entry of var is a nonnegative real number. -/
theorem var_nonneg (hpre : Cert.Pre_KernelIdeal m) (c : Dev Cert.KernelIdeal.nD) :
    ∀ i, ∃ r : ℝ, 0 ≤ r ∧ m ((c.tc : Thread Cert.KernelIdeal.nD Cert.KernelIdeal.τ).loc Cert.KernelIdeal.main_arg7) i = (r : EReal) := by
  intro i
  obtain ⟨r, hr⟩ := (decode_mem m hpre c).2.2.2.1 i
  have h0 := (decode_mem m hpre c).2.2.2.2 i
  rw [hr] at h0
  exact ⟨r, EReal.coe_nonneg.mp h0, hr⟩

end Launch

end Cert.Gin.Pre

end
-- ==== Proof.lean ====
/-
  A five-layer graph network with a classifier head: the kernel program against its reference.

  Both programs take a table of 100000 nodes with 128 features and an edge list, and apply five layers
      h  ↦  relu( relu( bn( (h + A h) W1 + b1 ) ) W2 + b2 ),
  A h being the sum over each node's incoming edges of the source rows (a gather and a scatter-add that
  both programs run on the host, by the same operations), then a dense layer with relu, a dense layer
  onto 10 classes, and the logarithm of the softmax along the classes.

  They differ in two places. The kernel program folds the batch normalisation (x - mean) * s + beta,
  s = gamma / sqrt(var + eps), into x * s + (beta - mean * s). On the extended reals the two agree for
  EVERY x, infinite ones included, as soon as mean, s and beta are real numbers: that is where the
  precondition is used — gamma, beta, mean and var are finite and var is not negative, so var + eps is
  a positive real and s is real. And the kernel program computes the head on 128 lanes: the last dense
  layer is extended by 118 zero columns, those lanes are then filled with a constant that the
  certificate's table reads as the bottom element, and the first 10 lanes of the result are returned.
  A lane holding the bottom element changes neither the largest score nor the sum of exponentials
  (the exponential of the bottom element is zero), so the first 10 lanes are the reference's result.
  Everything else — 16-bit casts, the association of the sums in the matrix products, the tiling of the
  table into 50 blocks of 2000 rows — is the identity on the extended reals or a re-indexing of rows.

  The proof has three legs that meet at one specification (Spec.lean). The kernel program's result
  buffer is the specification's folded, 128-lane form of the argument arrays (KRun, KBody, KRegion0-4,
  KStage0-4, KKeep, KNet); the reference's is its plain form (RefAgg, RefLayer, RefHead, Ref, RefRun); the two
  forms agree under the precondition (SpecLawBn, SpecLawSoftmax, SpecLaw, with PreReal reading the
  precondition). The reference's run is read in six stages, one per layer and one for the head (RefRun).
-/
import proofs.«179956_j20864951124664_2_alg».proof.Defs
import proofs.«179956_j20864951124664_2_alg».proof.Proof.Gen.Kernel.Frame
import proofs.«179956_j20864951124664_2_alg».proof.Proof.Gen.Pre_finite_inputs
import proofs.«179956_j20864951124664_2_alg».proof.Proof.KRun
import proofs.«179956_j20864951124664_2_alg».proof.Proof.KNet
import proofs.«179956_j20864951124664_2_alg».proof.Proof.RefRun
import proofs.«179956_j20864951124664_2_alg».proof.Proof.SpecLaw
import proofs.«179956_j20864951124664_2_alg».proof.Proof.PreReal
import Idealize.ShloMosaic.Adequacy
import Idealize.ShloMosaic.Init

set_option maxRecDepth 16384

noncomputable section

namespace Cert.Proof

open Idealize.ShloMosaic Idealize.SL.Sem

/-- The word-level kernel program runs to the end without a fault and leaves its arguments unchanged. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.Gin.Ref.run_spec m ρ)

/-- The idealization's one entry: the certificate's table gives the fill constant the bottom element, and
    the printed constant is that value on the extended reals. -/
theorem preserves : Cert.preserves_Kernel_KernelIdeal :=
  IdealRules.named_const.statement Cert.KernelIdeal.κ "neg_big" .f32 0xF149F2CA#32 ⊥ rfl

/-- The two programs aggregate over the edge list by the same operations. -/
theorem agg_eq (e : Cert.Gin.Ref.Edges) (h : Cert.Gin.Tbl) :
    Cert.Gin.Ref.AggR e h = Cert.Gin.K.aggOf (Cert.Gin.K.srcIx e) (Cert.Gin.K.dstIx e) h := rfl

/-- From memories that agree on the arguments, under the precondition, both programs end with the same
    result: the kernel program's is the folded form of the network, the reference's the plain form, and
    the two forms agree when gamma, beta, mean are real and var is a real that is not negative. -/
theorem algebraic : Cert.algebraic_KernelIdeal_ReferenceIdeal := by
  intro m ρ m' ρ' hpre hagree
  refine ⟨fun c => Cert.Gin.outK (Cert.Gin.Net.paramsK m c)
      (Cert.Gin.featK (Cert.Gin.Net.paramsK m c) (Cert.Gin.Net.aggK m c) (m ((c.tc : Thread Cert.KernelIdeal.nD Cert.KernelIdeal.τ).loc Cert.KernelIdeal.main_arg0))),
    (θ_run Cert.KernelIdeal.defs _ _).mono
      (fun r h c => ⟨(h c).1.trans (Cert.Gin.Net.result m ρ c), (h c).2⟩)
      (Cert.KernelIdeal.GinRun.run_result (F := Ideal) m ρ), ?_⟩
  refine (θ_run Cert.ReferenceIdeal.defs _ _).mono (fun r h c => ⟨(h c).1.trans ?_, (h c).2⟩)
    (Cert.Gin.Ref.run_spec m' ρ')
  obtain ⟨e0, e1, e2, e3, e4, e5, e6, e7, e8, e9, e10, e11, e12, e13⟩ := hagree c
  have hP : Cert.Gin.Ref.paramsR m' c = Cert.Gin.Net.paramsK m c := by
    unfold Cert.Gin.Ref.paramsR Cert.Gin.Net.paramsK
    rw [e2, e3, e4, e5, e6, e7, e8, e9, e10, e11, e12, e13]
  have hA : Cert.Gin.Ref.AggR (m' ((c.tc : Thread Cert.ReferenceIdeal.nD Cert.ReferenceIdeal.τ).loc Cert.ReferenceIdeal.main_arg1)) = Cert.Gin.Net.aggK m c := by
    funext h
    rw [e1]
    exact agg_eq _ h
  rw [hP, hA, e0]
  exact (Cert.Gin.outK_eq_outR _ _ _ (Cert.Gin.Pre.gamma_real m hpre c) (Cert.Gin.Pre.beta_real m hpre c)
    (Cert.Gin.Pre.mean_real m hpre c) (Cert.Gin.Pre.var_nonneg m hpre c) Cert.Gin.epsLit_pos).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
